-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S2x2048x2048 .f32) (main_arg1 : FVec F S8192x2048 .f32) (main_arg2 : FVec F S8192x2048 .f32) (main_arg3 : FVec F S2048x8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S4096x2048 : Shape := ⟨2, ![4096, 2048]⟩
abbrev S_ : Shape := ⟨0, ![]⟩
abbrev S4096x8192 : Shape := ⟨2, ![4096, 8192]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S256x8192 : Shape := ⟨2, ![256, 8192]⟩
abbrev S256x256 : Shape := ⟨2, ![256, 256]⟩
abbrev S256x1 : Shape := ⟨2, ![256, 1]⟩
abbrev S256x2048 : Shape := ⟨2, ![256, 2048]⟩
abbrev S256 : Shape := ⟨1, ![256]⟩

abbrev nBuf : Space → Nat
  | .hbm => 80
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S4096x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S2048x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x8192, .f32⟩
  | .hbm, ⟨64, _⟩ => ⟨S2048x8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2048x8192, .f32⟩
  | .hbm, ⟨69, _⟩ => ⟨S2048x8192, .f32⟩
  | .hbm, ⟨70, _⟩ => ⟨S_, .f32⟩
  | .hbm, ⟨71, _⟩ => ⟨S2048x8192, .f32⟩
  | .hbm, ⟨72, _⟩ => ⟨S2048x8192, .f32⟩
  | .hbm, ⟨73, _⟩ => ⟨S2048x8192, .f32⟩
  | .hbm, ⟨74, _⟩ => ⟨S2048x8192, .f32⟩
  | .hbm, ⟨75, _⟩ => ⟨S2048x8192, .f32⟩
  | .hbm, ⟨76, _⟩ => ⟨S2048x8192, .bf16⟩
  | .hbm, ⟨77, _⟩ => ⟨S4096x8192, .f32⟩
  | .hbm, ⟨78, _⟩ => ⟨S4096x2048, .f32⟩
  | .hbm, ⟨79, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x512, .f32⟩
  | .local _ .vmem, ⟨7, _⟩ => ⟨S512x512, .f32⟩
  | .local _ .vmem, ⟨8, _⟩ => ⟨S512x2048, .bf16⟩
  | .local _ .vmem, ⟨9, _⟩ => ⟨S256x8192, .f32⟩
  | .local _ .vmem, ⟨10, _⟩ => ⟨S256x8192, .bf16⟩
  | .local _ .vmem, ⟨11, _⟩ => ⟨S256x8192, .bf16⟩
  | .local _ .vmem, ⟨12, _⟩ => ⟨S256x256, .f32⟩
  | .local _ .vmem, ⟨13, _⟩ => ⟨S256x256, .f32⟩
  | .local _ .vmem, ⟨14, _⟩ => ⟨S256x8192, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_cst_7 : Ref sig .tc := ⟨.hbm, 34, rfl⟩
abbrev main_call3_v0 : Ref sig .tc := ⟨.hbm, 35, rfl⟩
abbrev main_v16 : Ref sig .tc := ⟨.hbm, 36, rfl⟩
abbrev main_cst_8 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_9 : Ref sig .tc := ⟨.hbm, 41, rfl⟩
abbrev main_cst_10 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_11 : Ref sig .tc := ⟨.hbm, 54, rfl⟩
abbrev main_v26 : Ref sig .tc := ⟨.hbm, 55, rfl⟩
abbrev main_cst_12 : Ref sig .tc := ⟨.hbm, 56, rfl⟩
abbrev main_v27 : Ref sig .tc := ⟨.hbm, 57, rfl⟩
abbrev main_cst_13 : Ref sig .tc := ⟨.hbm, 58, rfl⟩
abbrev main_call6_v0 : Ref sig .tc := ⟨.hbm, 59, rfl⟩
abbrev main_v28 : Ref sig .tc := ⟨.hbm, 60, rfl⟩
abbrev main_cst_14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_15 : Ref sig .tc := ⟨.hbm, 65, rfl⟩
abbrev main_cst_16 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_call7_v3 : Ref sig .tc := ⟨.hbm, 70, rfl⟩
abbrev main_call7_v4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (c0_i32_7 : BitVec 32) : Fin 2 → Nat :=
  let c0_8 : Index := 0#32
  let c2048_i32 : BitVec 32 := 2048#32
  let v9 : BitVec 32 := Scalar.muli c0_i32_7 c2048_i32
  let v10 : Index := Scalar.indexCast v9
  ![0, v10.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2x2048x2048_S4096x2048 : S2x2048x2048.ShapeCasts S4096x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S512x512_S512x512_0_0 : ∀ a, (![0, 0] : Fin 2 → Nat) a + S512x512.size a ≤ S512x512.size a
  h_S512x512 : 0 < S512x512.numel
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  shapeCasts_S4096x2048_S2x2048x2048 : S4096x2048.ShapeCasts S2x2048x2048
  dot_S512x2048_S512x2048_S512x512_1_1_0_0_n_n_wf : DotDims.WF S512x2048 S512x2048 S512x512 [1] [1] [0] [0] [] []
  dot_S256x8192_S256x8192_S256x256_1_1_0_0_n_n_wf : DotDims.WF S256x8192 S256x8192 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x8192.size a
  hwx0_3 : ∀ i : grid0.Coords, EltTy.bits .f32 = 32 ∨ (Rect.block (s := S4096x8192) S512x512.size (cc0_transform_3 i) (hinb0_3 i)).WholeWords (EltTy.packing .f32)
  hrank1 : 0 < grid1.rank
  k1_off1_inb : ∀ i : grid1.Coords, ∀ (k1_h1 : k1_cond1 i = 1#1), ∀ (r : Fin 4), ∀ a, (k1_off1 (BitVec.ofNat 32 r.val)) a + S256x2048.size a ≤ S256x8192.size a
  k1_off1_packedbf16 : ∀ i : grid1.Coords, ∀ (k1_h1 : k1_cond1 i = 1#1), ∀ (r : Fin 4), (Rect.unit (s := S256x8192) (k1_off1 (BitVec.ofNat 32 r.val)) S256x2048.size (k1_off1_inb i k1_h1 r)).PackedRows (EltTy.packing .bf16)
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S4096x8192.size a
  hwx1_0 : ∀ i : grid1.Coords, EltTy.bits .f32 = 32 ∨ (Rect.block (s := S4096x8192) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S2048x8192.size a
  hwx1_1 : ∀ i : grid1.Coords, EltTy.bits .bf16 = 32 ∨ (Rect.block (s := S2048x8192) S256x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S4096x2048.size a
  hwx1_2 : ∀ i : grid1.Coords, EltTy.bits .f32 = 32 ∨ (Rect.block (s := S4096x2048) S256x256.size (cc1_transform_2 i) (hinb1_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S256x8192_S256x8192_S256x256_1_1_0_0_n_n : DotDims S256x8192 S256x8192 S256x256 where
  lhsContracting := [1]
  rhsContracting := [1]
  lhsNonContracting := [0]
  rhsNonContracting := [0]
  lhsBatch := []
  rhsBatch := []
  wf := dot_S256x8192_S256x8192_S256x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S256x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v36) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩
abbrev S2x2048 : Shape := ⟨2, ![2, 2048]⟩
abbrev S2x2048x1 : Shape := ⟨3, ![2, 2048, 1]⟩
abbrev S2x2048x8192 : Shape := ⟨3, ![2, 2048, 8192]⟩

abbrev nBuf : Space → Nat
  | .hbm => 209
  | .vmem => 0
  | .smem => 0
  | _ => 0

abbrev hbmTy0_0 (i : Nat) : BufTy := match i % 128 with
  | 0 => ⟨S2x2048x2048, .f32⟩
  | 1 => ⟨S8192x2048, .f32⟩
  | 2 => ⟨S8192x2048, .f32⟩
  | 3 => ⟨S2048x8192, .f32⟩
  | 4 => ⟨S2x2048x2048, .f32⟩
  | 5 => ⟨S_, .f32⟩
  | 6 => ⟨S2x2048, .f32⟩
  | 7 => ⟨S2x2048x1, .f32⟩
  | 8 => ⟨S_, .f32⟩
  | 9 => ⟨S2x2048x1, .f32⟩
  | 10 => ⟨S2x2048x1, .f32⟩
  | 11 => ⟨S_, .f32⟩
  | 12 => ⟨S2x2048x1, .f32⟩
  | 13 => ⟨S2x2048x1, .f32⟩
  | 14 => ⟨S2x2048x1, .f32⟩
  | 15 => ⟨S2x2048x2048, .f32⟩
  | 16 => ⟨S2x2048x2048, .f32⟩
  | 17 => ⟨S2x2048x2048, .f32⟩
  | 18 => ⟨S_, .f32⟩
  | 19 => ⟨S2x2048, .f32⟩
  | 20 => ⟨S2x2048x1, .f32⟩
  | 21 => ⟨S_, .f32⟩
  | 22 => ⟨S_, .f32⟩
  | 23 => ⟨S2x2048x1, .f32⟩
  | 24 => ⟨S2x2048x1, .f32⟩
  | 25 => ⟨S_, .f32⟩
  | 26 => ⟨S2x2048x1, .f32⟩
  | 27 => ⟨S2x2048x1, .f32⟩
  | 28 => ⟨S2x2048x2048, .f32⟩
  | 29 => ⟨S2x2048x2048, .f32⟩
  | 30 => ⟨S_, .f32⟩
  | 31 => ⟨S_, .f32⟩
  | 32 => ⟨S_, .f32⟩
  | 33 => ⟨S2x2048x2048, .f32⟩
  | 34 => ⟨S2x2048x2048, .f32⟩
  | 35 => ⟨S_, .f32⟩
  | 36 => ⟨S2x2048x2048, .f32⟩
  | 37 => ⟨S2x2048x2048, .f32⟩
  | 38 => ⟨S2x2048x2048, .f32⟩
  | 39 => ⟨S2x2048x2048, .f32⟩
  | 40 => ⟨S2x2048x2048, .f32⟩
  | 41 => ⟨S2x2048x2048, .f32⟩
  | 42 => ⟨S2x2048x2048, .f32⟩
  | 43 => ⟨S8192x2048, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S8192x2048, .f32⟩
  | 54 => ⟨S8192x2048, .f32⟩
  | 55 => ⟨S_, .f32⟩
  | 56 => ⟨S_, .f32⟩
  | 57 => ⟨S_, .f32⟩
  | 58 => ⟨S8192x2048, .f32⟩
  | 59 => ⟨S8192x2048, .f32⟩
  | 60 => ⟨S_, .f32⟩
  | 61 => ⟨S8192x2048, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S2x2048x8192, .f32⟩
  | 69 => ⟨S2x2048x8192, .f32⟩
  | 70 => ⟨S2x2048x8192, .f32⟩
  | 71 => ⟨S_, .f32⟩
  | 72 => ⟨S2x2048x8192, .f32⟩
  | 73 => ⟨S2x2048x8192, .f32⟩
  | 74 => ⟨S_, .f32⟩
  | 75 => ⟨S2x2048x8192, .f32⟩
  | 76 => ⟨S2x2048x8192, .f32⟩
  | 77 => ⟨S2x2048x8192, .f32⟩
  | 78 => ⟨S2x2048x2048, .f32⟩
  | 79 => ⟨S_, .f32⟩
  | 80 => ⟨S2x2048, .f32⟩
  | 81 => ⟨S2x2048x1, .f32⟩
  | 82 => ⟨S_, .f32⟩
  | 83 => ⟨S2x2048x1, .f32⟩
  | 84 => ⟨S2x2048x1, .f32⟩
  | 85 => ⟨S_, .f32⟩
  | 86 => ⟨S2x2048x1, .f32⟩
  | 87 => ⟨S2x2048x1, .f32⟩
  | 88 => ⟨S2x2048x1, .f32⟩
  | 89 => ⟨S2x2048x2048, .f32⟩
  | 90 => ⟨S2x2048x2048, .f32⟩
  | 91 => ⟨S2x2048x2048, .f32⟩
  | 92 => ⟨S_, .f32⟩
  | 93 => ⟨S2x2048, .f32⟩
  | 94 => ⟨S2x2048x1, .f32⟩
  | 95 => ⟨S_, .f32⟩
  | 96 => ⟨S_, .f32⟩
  | 97 => ⟨S2x2048x1, .f32⟩
  | 98 => ⟨S2x2048x1, .f32⟩
  | 99 => ⟨S_, .f32⟩
  | 100 => ⟨S2x2048x1, .f32⟩
  | 101 => ⟨S2x2048x1, .f32⟩
  | 102 => ⟨S2x2048x2048, .f32⟩
  | 103 => ⟨S2x2048x2048, .f32⟩
  | 104 => ⟨S_, .f32⟩
  | 105 => ⟨S_, .f32⟩
  | 106 => ⟨S_, .f32⟩
  | 107 => ⟨S2x2048x2048, .f32⟩
  | 108 => ⟨S2x2048x2048, .f32⟩
  | 109 => ⟨S_, .f32⟩
  | 110 => ⟨S2x2048x2048, .f32⟩
  | 111 => ⟨S2x2048x2048, .f32⟩
  | 112 => ⟨S2x2048x2048, .f32⟩
  | 113 => ⟨S2x2048x2048, .f32⟩
  | 114 => ⟨S2x2048x2048, .f32⟩
  | 115 => ⟨S2x2048x2048, .f32⟩
  | 116 => ⟨S2x2048x2048, .f32⟩
  | 117 => ⟨S8192x2048, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S8192x2048, .f32⟩
  | _ => ⟨S2x2048x2048, .f32⟩

abbrev hbmTy0_1 (i : Nat) : BufTy := match i % 128 with
  | 0 => ⟨S8192x2048, .f32⟩
  | 1 => ⟨S_, .f32⟩
  | 2 => ⟨S_, .f32⟩
  | 3 => ⟨S_, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S8192x2048, .f32⟩
  | 10 => ⟨S8192x2048, .f32⟩
  | 11 => ⟨S8192x2048, .f32⟩
  | 12 => ⟨S8192x2048, .f32⟩
  | 13 => ⟨S8192x2048, .f32⟩
  | 14 => ⟨S2x2048x8192, .f32⟩
  | 15 => ⟨S2x2048x8192, .f32⟩
  | 16 => ⟨S2x2048x8192, .f32⟩
  | 17 => ⟨S_, .f32⟩
  | 18 => ⟨S2x2048, .f32⟩
  | 19 => ⟨S2x2048x1, .f32⟩
  | 20 => ⟨S_, .f32⟩
  | 21 => ⟨S2x2048x1, .f32⟩
  | 22 => ⟨S2x2048x1, .f32⟩
  | 23 => ⟨S_, .f32⟩
  | 24 => ⟨S2x2048x1, .f32⟩
  | 25 => ⟨S2x2048x1, .f32⟩
  | 26 => ⟨S2x2048x1, .f32⟩
  | 27 => ⟨S2x2048x8192, .f32⟩
  | 28 => ⟨S2x2048x8192, .f32⟩
  | 29 => ⟨S2x2048x8192, .f32⟩
  | 30 => ⟨S_, .f32⟩
  | 31 => ⟨S2x2048, .f32⟩
  | 32 => ⟨S2x2048x1, .f32⟩
  | 33 => ⟨S_, .f32⟩
  | 34 => ⟨S_, .f32⟩
  | 35 => ⟨S2x2048x1, .f32⟩
  | 36 => ⟨S2x2048x1, .f32⟩
  | 37 => ⟨S_, .f32⟩
  | 38 => ⟨S2x2048x1, .f32⟩
  | 39 => ⟨S2x2048x1, .f32⟩
  | 40 => ⟨S2x2048x8192, .f32⟩
  | 41 => ⟨S2x2048x8192, .f32⟩
  | 42 => ⟨S_, .f32⟩
  | 43 => ⟨S_, .f32⟩
  | 44 => ⟨S_, .f32⟩
  | 45 => ⟨S2x2048x8192, .f32⟩
  | 46 => ⟨S2x2048x8192, .f32⟩
  | 47 => ⟨S_, .f32⟩
  | 48 => ⟨S2x2048x8192, .f32⟩
  | 49 => ⟨S2x2048x8192, .f32⟩
  | 50 => ⟨S2x2048x8192, .f32⟩
  | 51 => ⟨S2x2048x8192, .f32⟩
  | 52 => ⟨S2x2048x8192, .f32⟩
  | 53 => ⟨S2x2048x8192, .f32⟩
  | 54 => ⟨S2x2048x8192, .f32⟩
  | 55 => ⟨S2048x8192, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S2048x8192, .f32⟩
  | 66 => ⟨S2048x8192, .f32⟩
  | 67 => ⟨S_, .f32⟩
  | 68 => ⟨S_, .f32⟩
  | 69 => ⟨S_, .f32⟩
  | 70 => ⟨S2048x8192, .f32⟩
  | 71 => ⟨S2048x8192, .f32⟩
  | 72 => ⟨S_, .f32⟩
  | 73 => ⟨S2048x8192, .f32⟩
  | 74 => ⟨S2048x8192, .f32⟩
  | 75 => ⟨S2048x8192, .f32⟩
  | 76 => ⟨S2048x8192, .f32⟩
  | 77 => ⟨S2048x8192, .f32⟩
  | 78 => ⟨S2048x8192, .f32⟩
  | 79 => ⟨S2048x8192, .f32⟩
  | 80 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_cst_9 : Ref sig .tc := ⟨.hbm, 48, rfl⟩
abbrev main_call3_v0 : Ref sig .tc := ⟨.hbm, 49, rfl⟩
abbrev main_v27 : Ref sig .tc := ⟨.hbm, 50, rfl⟩
abbrev main_cst_10 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_11 : Ref sig .tc := ⟨.hbm, 55, rfl⟩
abbrev main_cst_12 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call6_v0 : Ref sig .tc := ⟨.hbm, 69, rfl⟩
abbrev main_call6_v1 : Ref sig .tc := ⟨.hbm, 70, rfl⟩
abbrev main_call6_cst : Ref sig .tc := ⟨.hbm, 71, rfl⟩
abbrev main_call6_v2 : Ref sig .tc := ⟨.hbm, 72, rfl⟩
abbrev main_call6_v3 : Ref sig .tc := ⟨.hbm, 73, rfl⟩
abbrev main_call6_cst_0 : Ref sig .tc := ⟨.hbm, 74, rfl⟩
abbrev main_call6_v4 : Ref sig .tc := ⟨.hbm, 75, rfl⟩
abbrev main_call6_v5 : Ref sig .tc := ⟨.hbm, 76, rfl⟩
abbrev main_v38 : Ref sig .tc := ⟨.hbm, 77, rfl⟩
abbrev main_v39 : Ref sig .tc := ⟨.hbm, 78, rfl⟩
abbrev main_cst_13 : Ref sig .tc := ⟨.hbm, 79, rfl⟩
abbrev main_v40 : Ref sig .tc := ⟨.hbm, 80, rfl⟩
abbrev main_v41 : Ref sig .tc := ⟨.hbm, 81, rfl⟩
abbrev main_cst_14 : Ref sig .tc := ⟨.hbm, 82, rfl⟩
abbrev main_v42 : Ref sig .tc := ⟨.hbm, 83, rfl⟩
abbrev main_v43 : Ref sig .tc := ⟨.hbm, 84, rfl⟩
abbrev main_cst_15 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_16 : Ref sig .tc := ⟨.hbm, 92, rfl⟩
abbrev main_v50 : Ref sig .tc := ⟨.hbm, 93, rfl⟩
abbrev main_v51 : Ref sig .tc := ⟨.hbm, 94, rfl⟩
abbrev main_cst_17 : Ref sig .tc := ⟨.hbm, 95, rfl⟩
abbrev main_call7_v0 : Ref sig .tc := ⟨.hbm, 96, rfl⟩
abbrev main_call7_v1 : Ref sig .tc := ⟨.hbm, 97, rfl⟩
abbrev main_v52 : Ref sig .tc := ⟨.hbm, 98, rfl⟩
abbrev main_cst_18 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_19 : Ref sig .tc := ⟨.hbm, 104, rfl⟩
abbrev main_cst_20 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_call8_v3 : Ref sig .tc := ⟨.hbm, 109, rfl⟩
abbrev main_call8_v4 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_21 : Ref sig .tc := ⟨.hbm, 118, rfl⟩
abbrev main_v64 : Ref sig .tc := ⟨.hbm, 119, rfl⟩
abbrev main_cst_22 : Ref sig .tc := ⟨.hbm, 120, rfl⟩
abbrev main_v65 : Ref sig .tc := ⟨.hbm, 121, rfl⟩
abbrev main_cst_23 : Ref sig .tc := ⟨.hbm, 122, rfl⟩
abbrev main_call10_v0 : Ref sig .tc := ⟨.hbm, 123, rfl⟩
abbrev main_v66 : Ref sig .tc := ⟨.hbm, 124, rfl⟩
abbrev main_cst_24 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_25 : Ref sig .tc := ⟨.hbm, 129, rfl⟩
abbrev main_cst_26 : Ref sig .tc := ⟨.hbm, 130, rfl⟩
abbrev main_call11_v0 : Ref sig .tc := ⟨.hbm, 131, rfl⟩
abbrev main_call11_v1 : Ref sig .tc := ⟨.hbm, 132, rfl⟩
abbrev main_call11_v2 : Ref sig .tc := ⟨.hbm, 133, rfl⟩
abbrev main_call11_v3 : Ref sig .tc := ⟨.hbm, 134, rfl⟩
abbrev main_call11_v4 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_cst_27 : Ref sig .tc := ⟨.hbm, 145, rfl⟩
abbrev main_v79 : Ref sig .tc := ⟨.hbm, 146, rfl⟩
abbrev main_v80 : Ref sig .tc := ⟨.hbm, 147, rfl⟩
abbrev main_cst_28 : Ref sig .tc := ⟨.hbm, 148, rfl⟩
abbrev main_v81 : Ref sig .tc := ⟨.hbm, 149, rfl⟩
abbrev main_v82 : Ref sig .tc := ⟨.hbm, 150, rfl⟩
abbrev main_cst_29 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_30 : Ref sig .tc := ⟨.hbm, 158, rfl⟩
abbrev main_v89 : Ref sig .tc := ⟨.hbm, 159, rfl⟩
abbrev main_v90 : Ref sig .tc := ⟨.hbm, 160, rfl⟩
abbrev main_cst_31 : Ref sig .tc := ⟨.hbm, 161, rfl⟩
abbrev main_call13_v0 : Ref sig .tc := ⟨.hbm, 162, rfl⟩
abbrev main_call13_v1 : Ref sig .tc := ⟨.hbm, 163, rfl⟩
abbrev main_v91 : Ref sig .tc := ⟨.hbm, 164, rfl⟩
abbrev main_cst_32 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_cst_33 : Ref sig .tc := ⟨.hbm, 170, rfl⟩
abbrev main_cst_34 : Ref sig .tc := ⟨.hbm, 171, rfl⟩
abbrev main_call14_v0 : Ref sig .tc := ⟨.hbm, 172, rfl⟩
abbrev main_call14_v1 : Ref sig .tc := ⟨.hbm, 173, rfl⟩
abbrev main_call14_v2 : Ref sig .tc := ⟨.hbm, 174, rfl⟩
abbrev main_call14_v3 : Ref sig .tc := ⟨.hbm, 175, rfl⟩
abbrev main_call14_v4 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_cst_35 : Ref sig .tc := ⟨.hbm, 184, rfl⟩
abbrev main_v103 : Ref sig .tc := ⟨.hbm, 185, rfl⟩
abbrev main_cst_36 : Ref sig .tc := ⟨.hbm, 186, rfl⟩
abbrev main_v104 : Ref sig .tc := ⟨.hbm, 187, rfl⟩
abbrev main_cst_37 : Ref sig .tc := ⟨.hbm, 188, rfl⟩
abbrev main_call16_v0 : Ref sig .tc := ⟨.hbm, 189, rfl⟩
abbrev main_v105 : Ref sig .tc := ⟨.hbm, 190, rfl⟩
abbrev main_cst_38 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_cst_39 : Ref sig .tc := ⟨.hbm, 195, rfl⟩
abbrev main_cst_40 : Ref sig .tc := ⟨.hbm, 196, rfl⟩
abbrev main_call17_v0 : Ref sig .tc := ⟨.hbm, 197, rfl⟩
abbrev main_call17_v1 : Ref sig .tc := ⟨.hbm, 198, rfl⟩
abbrev main_call17_v2 : Ref sig .tc := ⟨.hbm, 199, rfl⟩
abbrev main_call17_v3 : Ref sig .tc := ⟨.hbm, 200, rfl⟩
abbrev main_call17_v4 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩

abbrev nD : Nat := 1
abbrev τ : Topo := Topo.v7x

variable {F : FTy → Type} [FloatOps F]

class Facts₀ : Prop where
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S_S2x2048x2048 : S_.BroadcastsInDim S2x2048x2048 (![] : Fin 0 → Fin S2x2048x2048.rank)
  reducesTo_S8192x2048_S_d0_1 : S8192x2048.ReducesTo [0, 1] S_
  bcast_S_S8192x2048 : S_.BroadcastsInDim S8192x2048 (![] : Fin 0 → Fin S8192x2048.rank)
  bcast_S_S2x2048x8192 : S_.BroadcastsInDim S2x2048x8192 (![] : Fin 0 → Fin S2x2048x8192.rank)
  reducesTo_S2x2048x8192_S2x2048_d2 : S2x2048x8192.ReducesTo [2] S2x2048
  bcast_S2x2048x1_S2x2048x8192_0_1_2 : S2x2048x1.BroadcastsInDim S2x2048x8192 (![0, 1, 2] : Fin 3 → Fin S2x2048x8192.rank)
  reducesTo_S2048x8192_S_d0_1 : S2048x8192.ReducesTo [0, 1] S_
  bcast_S_S2048x8192 : S_.BroadcastsInDim S2048x8192 (![] : Fin 0 → Fin S2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.GateBody.lean ====
/- The gate/up region's kernel body as a Hoare triple, in its two control cases.
   A token block of 512 rows is quantized row by row once, at the first of its sixteen feature tiles, into a scratch buffer
   that the later tiles read; every tile stores silu(q·wgᵀ)·(q·wuᵀ) of the quantized block and its two weight tiles. -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block access are all zero. -/
theorem hz2 : (![0, 0] : Fin 2 → Nat) = fun _ => 0 := by funext a; fin_cases a <;> rfl

/-- The whole 512×2048 block, as a rectangle of itself. -/
abbrev rX : Rect S512x2048 := Rect.unit (s := S512x2048) ![0, 0] S512x2048.size inb_S512x2048_S512x2048_0_0
/-- The whole 512×512 block, as a rectangle of itself. -/
abbrev rH : Rect S512x512 := Rect.unit (s := S512x512) ![0, 0] S512x512.size inb_S512x512_S512x512_0_0

/-- The body's branch condition: the second grid coordinate is zero (the first feature tile of a token block). -/
abbrev cond0 (i : grid0.Coords) : Prop := (Scalar.cmpi .ne (Scalar.extui (Scalar.cmpi .eq (BitVec.ofNat 32 (i 1).val) 0#32)) 0#32) = 1#1
/-- It holds exactly at the points whose position is a multiple of 16 (sixteen feature tiles per token block). -/
theorem hcond0 : ∀ t : Fin cfg0.N, cond0 (grid0.coords t) ↔ t.val % 16 = 0 :=
  (by decide +kernel : ∀ t : Fin grid0.N, cond0 (grid0.coords t) ↔ t.val % 16 = 0)

/-- The row-quantized token block: what the scratch buffer holds once the first tile of a token block has run. -/
def quant (x0 : Vec F S512x2048 .f32) : Vec F S512x2048 .bf16 := k0_pay1 x0
/-- The gated product silu(q·wgᵀ)·(q·wuᵀ) of a quantized token block with a gate tile and an up tile. -/
def gated (q x1 x2 : Vec F S512x2048 .bf16) : Vec F S512x512 .f32 := k0_pay2 q x1 x2

theorem coverX (p0 : Vec F S512x2048 .bf16) (y : S512x2048.Idx) :
    ∃ pc ∈ ([⟨rX, p0⟩] : List (View.Piece (Elt F) S512x2048 .bf16)), y ∈ pc.1.set :=
  View.cover_of_tiled [⟨rX, p0⟩] S512x2048.size (by rfl) y
theorem coverH (p0 : Vec F S512x512 .f32) (y : S512x512.Idx) :
    ∃ pc ∈ ([⟨rH, p0⟩] : List (View.Piece (Elt F) S512x512 .f32)), y ∈ pc.1.set :=
  View.cover_of_tiled [⟨rH, p0⟩] S512x512.size (by rfl) y

set_option maxHeartbeats 1000000 in
/-- The body at a first tile (the branch taken): whatever the scratch held, it ends at the quantized token block, and
    the output block at the gated product of that with the two weight tiles; the three inputs are as they were. -/
theorem sound_first (c : Dev nD) (E : Set ℕ) (i : grid0.Coords) (hc : cond0 i)
    (arg2 : Memref sig .tc .vmem S512x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S512x512 .f32) (harg5 : arg5.IsWhole)
    (arg6 : Memref sig .tc .vmem S512x2048 .bf16) (harg6 : arg6.IsWhole)
    (x0 : Vec F S512x2048 .f32) (x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ s, owns (c : Thread nD τ) arg6 fullShare s)
        ∗ (iprop(owns (c : Thread nD τ) arg2 fullShare x0 ∗ owns (c : Thread nD τ) arg3 fullShare x1 ∗ owns (c : Thread nD τ) arg4 fullShare x2
            ∗ owns (c : Thread nD τ) arg5 fullShare (gated (quant x0) x1 x2) ∗ owns (c : Thread nD τ) arg6 fullShare (quant x0)) -∗ K ⟨⟩))
      ⊢ wp frame (wpE (defs₀ (F := F)) Variants.none c none) E (cc0__gate_up_kernel i arg2 harg2 arg3 harg3 arg4 harg4 arg5 harg5 arg6 harg6) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverH _), View.canon_unit_zero (S := S512x512) hz2]
    unfold gated quant
    sl_unfold_run_names
    simp only [View.readCov_unit_zero (S := S512x2048) _ hz2, View.readAt_eq_ld, View.ld_unit_zero (S := S512x2048) hz2]
  iexists _; isplitr
  swap; · iexact H6
  ipureintro
  sl_unfold_run_names
  rw [View.read_writes_eq_canon _ _ _ (coverX _), View.canon_unit_zero (S := S512x2048) hz2]
  unfold quant
  simp only [View.readAt_eq_ld, View.ld_unit_zero (S := S512x2048) hz2]

set_option maxHeartbeats 1000000 in
/-- The body at a later tile (the branch not taken): the scratch keeps the quantized token block it holds, and the
    output block ends at the gated product of that with the two weight tiles. -/
theorem sound_later (c : Dev nD) (E : Set ℕ) (i : grid0.Coords) (hc : ¬ cond0 i)
    (arg2 : Memref sig .tc .vmem S512x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S512x512 .f32) (harg5 : arg5.IsWhole)
    (arg6 : Memref sig .tc .vmem S512x2048 .bf16) (harg6 : arg6.IsWhole)
    (x0 : Vec F S512x2048 .f32) (x1 x2 q : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare q
        ∗ (iprop(owns (c : Thread nD τ) arg2 fullShare x0 ∗ owns (c : Thread nD τ) arg3 fullShare x1 ∗ owns (c : Thread nD τ) arg4 fullShare x2
            ∗ owns (c : Thread nD τ) arg5 fullShare (gated q x1 x2) ∗ owns (c : Thread nD τ) arg6 fullShare q) -∗ K ⟨⟩))
      ⊢ wp frame (wpE (defs₀ (F := F)) Variants.none c none) E (cc0__gate_up_kernel i arg2 harg2 arg3 harg3 arg4 harg4 arg5 harg5 arg6 harg6) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverH _), View.canon_unit_zero (S := S512x512) hz2]
    unfold gated
    try sl_unfold_run_names
    simp only [View.readAt_eq_ld, View.ld_unit_zero (S := S512x2048) hz2]
  iexists f6; isplitr; · ipureintro; rfl
  iexact H6

end Cert.KernelIdeal.GateUp

end
-- ==== Proof.GateData.lean ====
/- The gate/up region's proof data and body obligation, at any contents `V` of the core's buffers at region entry.
   After the body at grid position n the output tile holds the gated product of the quantized token block of that position's
   token block with the position's two weight tiles, and the scratch buffer holds that quantized token block: it was written at the
   first tile of the token block, position 16·(n/16), and the fifteen tiles after it leave it alone. -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import proofs.«170583_j85718957293662_2_alg».proof.Proof.GateBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data whose
    array is `V`'s and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The first tile of the token block that position `t` belongs to. -/
def anchor (t : Fin cfg0.N) : Fin cfg0.N := ⟨16 * (t.val / 16), by have := t.isLt; have hN : cfg0.N = 128 := N_0; omega⟩
theorem anchor_self (t : Fin cfg0.N) (h : t.val % 16 = 0) : anchor t = t := Fin.ext (by show 16 * (t.val / 16) = t.val; omega)
theorem anchor_prev (t : Fin cfg0.N) (h : t.val % 16 ≠ 0) (h' : t.val - 1 < cfg0.N) : anchor ⟨t.val - 1, h'⟩ = anchor t :=
  Fin.ext (by show 16 * ((t.val - 1) / 16) = 16 * (t.val / 16); omega)

/-- The scratch operand, a whole scoped buffer of the kernel's own. -/
abbrev scM : Memref sig .tc .vmem S512x2048 .bf16 := Memref.whole cc0_scratch0

/-- The core's scoped buffers that are neither a staging buffer of this region nor its scratch, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, with the scratch operand split off as a memref owned at some contents. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

/-- The quantized token block the scratch holds after position `n`. -/
def scrAt (c : Dev nD) (n : ℕ) (hn : n < cfg0.N) : Vec F S512x2048 .bf16 := quant (iblk V c 0 (anchor ⟨n, hn⟩))

/-- The region invariant before position `n`: before the first point the class's (the scratch at anything); afterwards the
    scratch at the quantized token block of the point before. -/
def Phi (c : Dev nD) : (n : ℕ) → n ≤ cfg0.N → sProp 𝕄
  | 0, _ => Pipeline.ΦA spec0 c
  | n + 1, hn => iprop((owns (c : Thread nD τ) scM fullShare (scrAt V c n hn) ∗ others c) ∗ (∃ r, prngReg c r))

theorem Phi_succ (c : Dev nD) (n : ℕ) (hn : n < cfg0.N) :
    Phi V c (n + 1) hn = iprop((owns (c : Thread nD τ) scM fullShare (scrAt V c n hn) ∗ others c) ∗ (∃ r, prngReg c r)) := rfl
theorem Phi_pos (c : Dev nD) (n : ℕ) (h : n ≤ cfg0.N) (hz : n ≠ 0) :
    Phi V c n h = iprop((owns (c : Thread nD τ) scM fullShare (scrAt V c (n - 1) (by omega)) ∗ others c) ∗ (∃ r, prngReg c r)) := by
  cases n with
  | zero => exact absurd rfl hz
  | succ n => rfl
/-- At any position the invariant holds the scratch at some contents. -/
theorem Phi_weak (c : Dev nD) (n : ℕ) (h : n ≤ cfg0.N) :
    Phi V c n h ⊢ iprop(((∃ d, owns (c : Thread nD τ) scM fullShare d) ∗ others c) ∗ (∃ r, prngReg c r)) := by
  cases n with
  | zero => rw [show Phi V c 0 h = Pipeline.ΦA spec0 c from rfl, PhiA_eq]
  | succ n =>
    rw [Phi_succ]
    iintro ⟨⟨Hs, Ho⟩, Hp⟩
    isplitr [Hp]
    · isplitl [Hs]
      · iexists _; iexact Hs
      iexact Ho
    iexact Hp

/-- The proof data of the region on core `c`: the arrays as the region finds them; after the body each input's buffer at its
    block and the output's at the gated product; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => gated (quant (iblk V c 0 (anchor t))) (iblk V c 1 t) (iblk V c 2 t)
  Φ t := Phi V c t.val (Nat.le_of_lt_succ t.isLt)
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = gated (quant (iblk V c 0 (anchor t))) (iblk V c 1 t) (iblk V c 2 t) := by dsimp only [dat]
theorem Phi_castSucc (c : Dev nD) (t : Fin cfg0.N) : (dat V c).Φ t.castSucc = Phi V c t.val (Nat.le_of_lt t.isLt) := by
  dsimp only [dat]; simp only [Fin.coe_castSucc]
theorem Phi_at_succ (c : Dev nD) (t : Fin cfg0.N) : (dat V c).Φ t.succ = Phi V c (t.val + 1) t.isLt := by
  dsimp only [dat]; simp only [Fin.val_succ]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))
/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: at a first tile the scratch is rewritten, at a later one it is read as the point before left it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    after_0, after_1, after_2, after_3, Phi_castSucc, Phi_at_succ, Phi_succ]
  by_cases h : t.val % 16 = 0
  · iintro ⟨HΦ, Ho, ⟨%d0, H0⟩, ⟨%d1, H1⟩, ⟨%d2, H2⟩, ⟨%d3, H3⟩⟩
    ihave HΦ' := (Phi_weak V c t.val (Nat.le_of_lt t.isLt)) $$ HΦ
    icases HΦ' with ⟨⟨Hs, Hoth⟩, Hp⟩
    iapply (sound_first c Set.univ (grid0.coords t) ((hcond0 t).mpr h) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [Hs]; · iexact Hs
    iintro ⟨H0, H1, H2, H3, Hs⟩
    unfold scrAt
    rw [show (⟨t.val, t.isLt⟩ : Fin cfg0.N) = t from rfl, anchor_self t h]
    isplitl [Hs Hoth Hp]
    · isplitr [Hp]
      · isplitl [Hs]; · iexact Hs
        iexact Hoth
      iexact Hp
    isplitl [Ho]; · iexact Ho
    isplitl [H0]; · iexact H0
    isplitl [H1]; · iexact H1
    isplitl [H2]; · iexact H2
    iexact H3
  · have hz : t.val ≠ 0 := fun e => h (by rw [e])
    rw [Phi_pos V c t.val (Nat.le_of_lt t.isLt) hz]
    unfold scrAt
    rw [anchor_prev t h, show (⟨t.val, t.isLt⟩ : Fin cfg0.N) = t from rfl]
    iintro ⟨⟨⟨Hs, Hoth⟩, Hp⟩, Ho, ⟨%d0, H0⟩, ⟨%d1, H1⟩, ⟨%d2, H2⟩, ⟨%d3, H3⟩⟩
    iapply (sound_later c Set.univ (grid0.coords t) (fun hc => h ((hcond0 t).mp hc)) _ _ _ _ _ _ _ _ _ _ (iblk V c 0 t) (iblk V c 1 t) (iblk V c 2 t) (quant (iblk V c 0 (anchor t))) _)
    isplitl [H0]; · iexact H0
    isplitl [H1]; · iexact H1
    isplitl [H2]; · iexact H2
    isplitl [H3]; · iexists _; iexact H3
    isplitl [Hs]; · iexact Hs
    iintro ⟨H0, H1, H2, H3, Hs⟩
    isplitl [Hs Hoth Hp]
    · isplitr [Hp]
      · isplitl [Hs]; · iexact Hs
        iexact Hoth
      iexact Hp
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end

end Cert.KernelIdeal.GateUp

end
-- ==== Proof.DownBody.lean ====
/- The down-projection region's kernel body as a Hoare triple, in its two control cases.
   A block of 256 hidden rows of length 8192 is quantized row by row once, at the first of its eight output tiles, into a
   scratch buffer, in four column chunks of 2048: the sum of squares and the largest magnitude of a row are accumulated over
   the four chunks, then each chunk is scaled, clamped, rounded and stored. Every tile stores the product of the quantized
   block with its weight tile. -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block access are all zero. -/
theorem hz2 : (![0, 0] : Fin 2 → Nat) = fun _ => 0 := by funext a; fin_cases a <;> rfl

/-- The body's branch condition: the second grid coordinate is zero (the first output tile of a row block). -/
abbrev cond1 (i : grid1.Coords) : Prop := k1_cond1 i = 1#1
/-- It holds exactly at the points whose position is a multiple of 8 (eight output tiles per row block). -/
theorem hcond1 : ∀ t : Fin cfg1.N, cond1 (grid1.coords t) ↔ t.val % 8 = 0 :=
  (by decide +kernel : ∀ t : Fin grid1.N, cond1 (grid1.coords t) ↔ t.val % 8 = 0)

/-- The four column chunks of the 256×8192 block, and the whole block and the whole output tile as rectangles of themselves. -/
abbrev rc0 : Rect S256x8192 := Rect.unit (s := S256x8192) ![0, 0] S256x2048.size (by decide)
abbrev rc1 : Rect S256x8192 := Rect.unit (s := S256x8192) ![0, 2048] S256x2048.size (by decide)
abbrev rc2 : Rect S256x8192 := Rect.unit (s := S256x8192) ![0, 4096] S256x2048.size (by decide)
abbrev rc3 : Rect S256x8192 := Rect.unit (s := S256x8192) ![0, 6144] S256x2048.size (by decide)
abbrev rW : Rect S256x8192 := Rect.unit (s := S256x8192) ![0, 0] S256x8192.size inb_S256x8192_S256x8192_0_0
abbrev rO : Rect S256x256 := Rect.unit (s := S256x256) ![0, 0] S256x256.size inb_S256x256_S256x256_0_0

/-- The reciprocal root of the rows' mean squares, from the four chunks. -/
def rrOf (c0 c1 c2 c3 : Vec F S256x2048 .f32) : FVec F S256x1 .f32 := k1_pay4 (k1_pay3 c0 c1 c2 c3)
/-- The rows' largest normalized magnitudes, from the four chunks. -/
def mxOf (c0 c1 c2 c3 : Vec F S256x2048 .f32) : FVec F S256x1 .f32 := k1_pay5 (k1_pay3 c0 c1 c2 c3) c0 c1 c2 c3

/-- The four stores of the quantization, last first: each chunk scaled, clamped, rounded and scaled back. -/
def pieces (x0 : Vec F S256x8192 .f32) : List (View.Piece (Elt F) S256x8192 .bf16) :=
  [⟨rc3, k1_pay1 (k1_pay11 (rrOf (View.ld x0 rc0) (View.ld x0 rc1) (View.ld x0 rc2) (View.ld x0 rc3))
        (k1_pay6 (mxOf (View.ld x0 rc0) (View.ld x0 rc1) (View.ld x0 rc2) (View.ld x0 rc3))) (View.ld x0 rc3))⟩,
   ⟨rc2, k1_pay10 (rrOf (View.ld x0 rc0) (View.ld x0 rc1) (View.ld x0 rc2) (View.ld x0 rc3))
        (k1_pay6 (mxOf (View.ld x0 rc0) (View.ld x0 rc1) (View.ld x0 rc2) (View.ld x0 rc3))) (View.ld x0 rc2)⟩,
   ⟨rc1, k1_pay9 (k1_pay8 (rrOf (View.ld x0 rc0) (View.ld x0 rc1) (View.ld x0 rc2) (View.ld x0 rc3))
        (mxOf (View.ld x0 rc0) (View.ld x0 rc1) (View.ld x0 rc2) (View.ld x0 rc3)) (View.ld x0 rc1))⟩,
   ⟨rc0, k1_pay7 (rrOf (View.ld x0 rc0) (View.ld x0 rc1) (View.ld x0 rc2) (View.ld x0 rc3))
        (mxOf (View.ld x0 rc0) (View.ld x0 rc1) (View.ld x0 rc2) (View.ld x0 rc3)) (View.ld x0 rc0)⟩]

/-- The row-quantized hidden block: what the scratch buffer holds once the first tile of a row block has run. -/
def hquant (x0 : Vec F S256x8192 .f32) : Vec F S256x8192 .bf16 := View.canon (pieces x0)
/-- The product of a quantized hidden block with a weight tile. -/
def proj (q x1 : Vec F S256x8192 .bf16) : Vec F S256x256 .f32 := k1_pay2 q x1

/-- The four chunks tile the block. -/
theorem cover (x0 : Vec F S256x8192 .f32) (y : S256x8192.Idx) : ∃ pc ∈ pieces x0, y ∈ pc.1.set :=
  View.cover_of_tiledL (pieces x0) S256x2048.size (by sl_kernel_rfl) y
theorem coverO (p0 : Vec F S256x256 .f32) (y : S256x256.Idx) :
    ∃ pc ∈ ([⟨rO, p0⟩] : List (View.Piece (Elt F) S256x256 .f32)), y ∈ pc.1.set :=
  View.cover_of_tiled [⟨rO, p0⟩] S256x256.size (by rfl) y

set_option maxHeartbeats 4000000 in
/-- The body at a first tile (the branch taken): whatever the scratch held, it ends at the quantized hidden block, and the
    output tile at the product of that with the weight tile; the two inputs are as they were. -/
theorem sound_first (c : Dev nD) (E : Set ℕ) (i : grid1.Coords) (hc : cond1 i)
    (arg2 : Memref sig .tc .vmem S256x8192 .f32) (harg2 : arg2.IsWhole) (arg3 : Memref sig .tc .vmem S256x8192 .bf16) (harg3 : arg3.IsWhole)
    (arg4 : Memref sig .tc .vmem S256x256 .f32) (harg4 : arg4.IsWhole) (arg5 : Memref sig .tc .vmem S256x8192 .bf16) (harg5 : arg5.IsWhole)
    (x0 : Vec F S256x8192 .f32) (x1 : Vec F S256x8192 .bf16) (K : PUnit → sProp 𝕄) :
    iprop(owns (c : Thread nD τ) arg2 fullShare x0 ∗ owns (c : Thread nD τ) arg3 fullShare x1
        ∗ (∃ d, owns (c : Thread nD τ) arg4 fullShare d) ∗ (∃ s, owns (c : Thread nD τ) arg5 fullShare s)
        ∗ (iprop(owns (c : Thread nD τ) arg2 fullShare x0 ∗ owns (c : Thread nD τ) arg3 fullShare x1
            ∗ owns (c : Thread nD τ) arg4 fullShare (proj (hquant x0) x1) ∗ owns (c : Thread nD τ) arg5 fullShare (hquant x0)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (coverO _), View.canon_unit_zero (S := S256x256) hz2]
    sl_unfold_run_names
    simp only [View.readAt_eq_ld, View.ld_unit_zero (S := S256x8192) hz2]
    show k1_pay2 (arg5.view.readCov (pieces (View.read (Elt F) arg2.view f0)) rW.toLoadRect) (View.read (Elt F) arg3.view f1) = _
    rw [View.readCov_eq_canon_ld _ _ _ (cover _), View.ld_unit_zero (S := S256x8192) hz2]
    rfl
  iexists _; isplitr
  swap; · iexact H5
  ipureintro
  sl_unfold_run_names
  simp only [View.readAt_eq_ld]
  show View.read (Elt F) arg5.view (arg5.view.writes (Elt F) f5 (pieces (View.read (Elt F) arg2.view f0))) = _
  rw [View.read_writes_eq_canon _ _ _ (cover _)]
  rfl

set_option maxHeartbeats 1000000 in
/-- The body at a later tile (the branch not taken): the scratch keeps the quantized hidden block it holds, and the output
    tile ends at the product of that with the weight tile. -/
theorem sound_later (c : Dev nD) (E : Set ℕ) (i : grid1.Coords) (hc : ¬ cond1 i)
    (arg2 : Memref sig .tc .vmem S256x8192 .f32) (harg2 : arg2.IsWhole) (arg3 : Memref sig .tc .vmem S256x8192 .bf16) (harg3 : arg3.IsWhole)
    (arg4 : Memref sig .tc .vmem S256x256 .f32) (harg4 : arg4.IsWhole) (arg5 : Memref sig .tc .vmem S256x8192 .bf16) (harg5 : arg5.IsWhole)
    (x0 : Vec F S256x8192 .f32) (x1 q : Vec F S256x8192 .bf16) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare q
        ∗ (iprop(owns (c : Thread nD τ) arg2 fullShare x0 ∗ owns (c : Thread nD τ) arg3 fullShare x1
            ∗ owns (c : Thread nD τ) arg4 fullShare (proj q x1) ∗ owns (c : Thread nD τ) arg5 fullShare q) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (coverO _), View.canon_unit_zero (S := S256x256) hz2]
    unfold proj
    try sl_unfold_run_names
    simp only [View.readAt_eq_ld, View.ld_unit_zero (S := S256x8192) hz2]
  iexists f5; isplitr; · ipureintro; rfl
  iexact H5

end Cert.KernelIdeal.Down

end
-- ==== Proof.DownData.lean ====
/- The down-projection region's proof data and body obligation, at any contents `V` of the core's buffers at region entry.
   After the body at grid position n the output tile holds the product of the quantized hidden block of that position's row
   block with the position's weight tile, and the scratch buffer holds that quantized block: it was written at the first tile
   of the row block, position 8·(n/8), and the seven tiles after it leave it alone. -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import proofs.«170583_j85718957293662_2_alg».proof.Proof.DownBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is `V`'s and whose body leaves the block in place. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first tile of the row block that position `t` belongs to. -/
def anchor (t : Fin cfg1.N) : Fin cfg1.N := ⟨8 * (t.val / 8), by have := t.isLt; have hN : cfg1.N = 128 := N_1; omega⟩
theorem anchor_self (t : Fin cfg1.N) (h : t.val % 8 = 0) : anchor t = t := Fin.ext (by show 8 * (t.val / 8) = t.val; omega)
theorem anchor_prev (t : Fin cfg1.N) (h : t.val % 8 ≠ 0) (h' : t.val - 1 < cfg1.N) : anchor ⟨t.val - 1, h'⟩ = anchor t :=
  Fin.ext (by show 8 * ((t.val - 1) / 8) = 8 * (t.val / 8); omega)

/-- The scratch operand, a whole scoped buffer of the kernel's own. -/
abbrev scM : Memref sig .tc .vmem S256x8192 .bf16 := Memref.whole cc1_scratch0

/-- The core's scoped buffers that are neither a staging buffer of this region nor its scratch, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant, with the scratch operand (the last of the scoped rest) as a memref owned at some contents. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  unfold Pipeline.ΦA; rw [scopedRest1_eq]; simp only [scM, owns_whole]; try rfl

/-- The same with the scratch split off in front. -/
theorem PhiA_split (c : Dev nD) :
    (Pipeline.ΦA spec1 c : sProp 𝕄) ⊣⊢ iprop(((∃ d, owns (c : Thread nD τ) scM fullShare d) ∗ others c) ∗ (∃ r, prngReg c r)) := by
  rw [PhiA_eq]; unfold others
  constructor
  · iintro ⟨⟨H1, H2, H3, H4, H5, H6, H7, H8, H9, Hs⟩, Hp⟩
    isplitr [Hp]
    · isplitl [Hs]; · iexact Hs
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hp
  · iintro ⟨⟨Hs, H1, H2, H3, H4, H5, H6, H7, H8, H9⟩, Hp⟩
    isplitr [Hp]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hs
    iexact Hp

/-- The quantized hidden block the scratch holds after position `n`. -/
def scrAt (c : Dev nD) (n : ℕ) (hn : n < cfg1.N) : Vec F S256x8192 .bf16 := hquant (iblk V c 0 (anchor ⟨n, hn⟩))

/-- The region invariant before position `n`: before the first point the class's (the scratch at anything); afterwards the
    scratch at the quantized hidden block of the point before. -/
def Phi (c : Dev nD) : (n : ℕ) → n ≤ cfg1.N → sProp 𝕄
  | 0, _ => Pipeline.ΦA spec1 c
  | n + 1, hn => iprop((owns (c : Thread nD τ) scM fullShare (scrAt V c n hn) ∗ others c) ∗ (∃ r, prngReg c r))

theorem Phi_succ (c : Dev nD) (n : ℕ) (hn : n < cfg1.N) :
    Phi V c (n + 1) hn = iprop((owns (c : Thread nD τ) scM fullShare (scrAt V c n hn) ∗ others c) ∗ (∃ r, prngReg c r)) := rfl
theorem Phi_pos (c : Dev nD) (n : ℕ) (h : n ≤ cfg1.N) (hz : n ≠ 0) :
    Phi V c n h = iprop((owns (c : Thread nD τ) scM fullShare (scrAt V c (n - 1) (by omega)) ∗ others c) ∗ (∃ r, prngReg c r)) := by
  cases n with
  | zero => exact absurd rfl hz
  | succ n => rfl
/-- At any position the invariant holds the scratch at some contents. -/
theorem Phi_weak (c : Dev nD) (n : ℕ) (h : n ≤ cfg1.N) :
    Phi V c n h ⊢ iprop(((∃ d, owns (c : Thread nD τ) scM fullShare d) ∗ others c) ∗ (∃ r, prngReg c r)) := by
  cases n with
  | zero => exact (PhiA_split c).1
  | succ n =>
    rw [Phi_succ]
    iintro ⟨⟨Hs, Ho⟩, Hp⟩
    isplitr [Hp]
    · isplitl [Hs]
      · iexists _; iexact Hs
      iexact Ho
    iexact Hp

/-- The proof data of the region on core `c`: the arrays as the region finds them; after the body each input's buffer at its
    block and the output's at the product; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => proj (hquant (iblk V c 0 (anchor t))) (iblk V c 1 t)
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) :
    (dat V c).after 2 t = proj (hquant (iblk V c 0 (anchor t))) (iblk V c 1 t) := by dsimp only [dat]
theorem Phi_castSucc (c : Dev nD) (t : Fin cfg1.N) : (dat V c).Φ t.castSucc = Phi V c t.val (Nat.le_of_lt t.isLt) := by
  dsimp only [dat]; simp only [Fin.coe_castSucc]
theorem Phi_at_succ (c : Dev nD) (t : Fin cfg1.N) : (dat V c).Φ t.succ = Phi V c (t.val + 1) t.isLt := by
  dsimp only [dat]; simp only [Fin.val_succ]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))
/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: at a first tile the scratch is rewritten, at a later one it is read as the point before left it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl,
    after_0, after_1, after_2, Phi_castSucc, Phi_at_succ, Phi_succ]
  by_cases h : t.val % 8 = 0
  · iintro ⟨HΦ, Ho, ⟨%d0, H0⟩, ⟨%d1, H1⟩, ⟨%d2, H2⟩⟩
    ihave HΦ' := (Phi_weak V c t.val (Nat.le_of_lt t.isLt)) $$ HΦ
    icases HΦ' with ⟨⟨Hs, Hoth⟩, Hp⟩
    iapply (sound_first c Set.univ (grid1.coords t) ((hcond1 t).mpr h) _ _ _ _ _ _ _ _ (iblk V c 0 t) (iblk V c 1 t) _)
    isplitl [H0]; · iexact H0
    isplitl [H1]; · iexact H1
    isplitl [H2]; · iexists _; iexact H2
    isplitl [Hs]; · iexact Hs
    iintro ⟨H0, H1, H2, Hs⟩
    unfold scrAt
    rw [show (⟨t.val, t.isLt⟩ : Fin cfg1.N) = t from rfl, anchor_self t h]
    isplitl [Hs Hoth Hp]
    · isplitr [Hp]
      · isplitl [Hs]; · iexact Hs
        iexact Hoth
      iexact Hp
    isplitl [Ho]; · iexact Ho
    isplitl [H0]; · iexact H0
    isplitl [H1]; · iexact H1
    iexact H2
  · have hz : t.val ≠ 0 := fun e => h (by rw [e])
    rw [Phi_pos V c t.val (Nat.le_of_lt t.isLt) hz]
    unfold scrAt
    rw [anchor_prev t h, show (⟨t.val, t.isLt⟩ : Fin cfg1.N) = t from rfl]
    iintro ⟨⟨⟨Hs, Hoth⟩, Hp⟩, Ho, ⟨%d0, H0⟩, ⟨%d1, H1⟩, ⟨%d2, H2⟩⟩
    iapply (sound_later c Set.univ (grid1.coords t) (fun hc => h ((hcond1 t).mp hc)) _ _ _ _ _ _ _ _ (iblk V c 0 t) (iblk V c 1 t) (hquant (iblk V c 0 (anchor t))) _)
    isplitl [H0]; · iexact H0
    isplitl [H1]; · iexact H1
    isplitl [H2]; · iexists _; iexact H2
    isplitl [Hs]; · iexact Hs
    iintro ⟨H0, H1, H2, Hs⟩
    isplitl [Hs Hoth Hp]
    · isplitr [Hp]
      · isplitl [Hs]; · iexact Hs
        iexact Hoth
      iexact Hp
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W1, bigSep_W1]
  exact sound_body V c t

end

end Cert.KernelIdeal.Down

end
-- ==== Proof.KernelRun.lean ====
/- The whole kernel program's run: the host prelude (the three weight matrices quantized, the token array flattened), the
   gate/up region, the down-projection region, and the final reshape, composed in order. Between two items a core holds
   every unscoped buffer at known contents: the launch contents, then each host stretch applied, then each region's arrays at
   what its write-backs leave. Every weakly fair execution terminates with every unscoped buffer at the last of these. -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import proofs.«170583_j85718957293662_2_alg».proof.Proof.GateData
import proofs.«170583_j85718957293662_2_alg».proof.Proof.DownData
import proofs.«170583_j85718957293662_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- The gate/up region's entry contents (after the host prelude), read at the TensorCore's references. -/
abbrev Ve0 : (c : Dev nD) → (b : Ref sig .tc) → Buf (Elt F) ((c : Thread nD τ).loc b) := fun c b => V16 m c b
/-- The gate/up region's proof data at them. -/
abbrev dat0 (c : Dev nD) := GateUp.dat (Ve0 m) c
/-- At the gate/up region's exit: its arrays at what the pipeline leaves, every other buffer as entered. -/
def W17 (c : Dev nD) : Valuation τ sig (Elt F) :=
  Pipeline.withArrays spec0 c (V16 m c) fun w => (dat0 m c).arrAt w cfg0.N
theorem W17_arr (c : Dev nD) (w : Fin cfg0.W) :
    W17 m c (Proc.devRef .tc (Pipeline.arrRef spec0 w)) = (dat0 m c).arrAt w cfg0.N := by
  unfold W17; exact Pipeline.withArrays_arr spec0 launch0.win.arr_inj c _ _ w
theorem W17_of_ne (c : Dev nD) (b : Ref sig .tc) (hb : ∀ w, Pipeline.arrRef spec0 w ≠ b) :
    W17 m c (Proc.devRef .tc b) = V16 m c (Proc.devRef .tc b) := by
  unfold W17; exact Pipeline.withArrays_of_ne spec0 c _ _ b hb
/-- The down-projection region's entry contents. -/
abbrev Ve1 : (c : Dev nD) → (b : Ref sig .tc) → Buf (Elt F) ((c : Thread nD τ).loc b) := fun c b => W17 m c b
theorem hF0 (c : Dev nD) (w : Fin cfg0.W) : (dat0 m c).arrAt w cfg0.N = Ve1 m c (Pipeline.arrRef spec0 w) := (W17_arr m c w).symm
theorem hrest0 (c : Dev nD) : ∀ b, b ∉ Finset.univ.image (Pipeline.arrRef spec0) → Ve1 m c b = Ve0 m c b :=
  fun b hb => W17_of_ne m c b fun w e => hb (Finset.mem_image.mpr ⟨w, Finset.mem_univ _, e⟩)
/-- The down-projection region's proof data. -/
abbrev dat1 (c : Dev nD) := Down.dat (Ve1 m) c
/-- At the down-projection region's exit. -/
def W18 (c : Dev nD) : Valuation τ sig (Elt F) :=
  Pipeline.withArrays spec1 c (W17 m c) fun w => (dat1 m c).arrAt w cfg1.N
theorem W18_arr (c : Dev nD) (w : Fin cfg1.W) :
    W18 m c (Proc.devRef .tc (Pipeline.arrRef spec1 w)) = (dat1 m c).arrAt w cfg1.N := by
  unfold W18; exact Pipeline.withArrays_arr spec1 launch1.win.arr_inj c _ _ w
theorem W18_of_ne (c : Dev nD) (b : Ref sig .tc) (hb : ∀ w, Pipeline.arrRef spec1 w ≠ b) :
    W18 m c (Proc.devRef .tc b) = W17 m c (Proc.devRef .tc b) := by
  unfold W18; exact Pipeline.withArrays_of_ne spec1 c _ _ b hb
abbrev Ve2 : (c : Dev nD) → (b : Ref sig .tc) → Buf (Elt F) ((c : Thread nD τ).loc b) := fun c b => W18 m c b
theorem hF1 (c : Dev nD) (w : Fin cfg1.W) : (dat1 m c).arrAt w cfg1.N = Ve2 m c (Pipeline.arrRef spec1 w) := (W18_arr m c w).symm
theorem hrest1 (c : Dev nD) : ∀ b, b ∉ Finset.univ.image (Pipeline.arrRef spec1) → Ve2 m c b = Ve1 m c b :=
  fun b hb => W18_of_ne m c b fun w e => hb (Finset.mem_image.mpr ⟨w, Finset.mem_univ _, e⟩)
/-- After the final reshape. -/
abbrev W19 (c : Dev nD) : Valuation τ sig (Elt F) := StableHlo.after hostOps2 (W18 m c)

/-! ## The arguments end as launched -/

theorem V16_arg0 (c : Dev nD) : V16 m c main_arg0 = m ((c : Thread nD τ).loc main_arg0) := (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem V16_arg1 (c : Dev nD) : V16 m c main_arg1 = m ((c : Thread nD τ).loc main_arg1) := (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem V16_arg2 (c : Dev nD) : V16 m c main_arg2 = m ((c : Thread nD τ).loc main_arg2) := (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem V16_arg3 (c : Dev nD) : V16 m c main_arg3 = m ((c : Thread nD τ).loc main_arg3) := (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-- A buffer that is no array of either region and that the final reshape does not write ends at its contents after the prelude. -/
theorem W19_of (c : Dev nD) (r : Ref sig .tc) (h2 : r ∉ hostOps2_W) (h1 : ∀ w, Pipeline.arrRef spec1 w ≠ r) (h0 : ∀ w, Pipeline.arrRef spec0 w ≠ r) :
    W19 m c r = V16 m c r :=
  (StableHlo.after_of_writes_sub hostOps2 _ hostOps2_writes h2).trans ((W18_of_ne m c r h1).trans (W17_of_ne m c r h0))
theorem W19_arg0 (c : Dev nD) : W19 m c main_arg0 = m ((c : Thread nD τ).loc main_arg0) :=
  (W19_of m c main_arg0 (by decide) (by decide) (by decide)).trans (V16_arg0 m c)
theorem W19_arg1 (c : Dev nD) : W19 m c main_arg1 = m ((c : Thread nD τ).loc main_arg1) :=
  (W19_of m c main_arg1 (by decide) (by decide) (by decide)).trans (V16_arg1 m c)
theorem W19_arg2 (c : Dev nD) : W19 m c main_arg2 = m ((c : Thread nD τ).loc main_arg2) :=
  (W19_of m c main_arg2 (by decide) (by decide) (by decide)).trans (V16_arg2 m c)
theorem W19_arg3 (c : Dev nD) : W19 m c main_arg3 = m ((c : Thread nD τ).loc main_arg3) :=
  (W19_of m c main_arg3 (by decide) (by decide) (by decide)).trans (V16_arg3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 m c
  | ⟨1, _⟩ => fun c => dat1 m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
/-- The final reshape as a segment, from the down-projection region's exit contents. -/
def segLast : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W18 m) (E 2)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W19 m c) ∗ ∃ r, prngReg c r)

/-- The last thread state, regrouped: the buffers with the generator register, beside the core owing nothing. -/
theorem lastChain (c : Dev nD) :
    iprop(StableHlo.held (c : Thread nD τ) (Pipeline.ucRefs τ sig) (W19 m c) ∗ R c)
      ⊢ (iprop(Tₙ m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The regions as segments -/

set_option backward.isDefEq.respectTransparency.types false in
/-- The gate/up region over the thread state: entered from every unscoped buffer at the prelude's contents, left with its arrays at
    what the pipeline leaves; its scratch goes into the invariant at anything and comes back at something. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (GateUp.body_obligation (Ve0 m) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = GateUp.Phi (Ve0 m) c cfg0.N (le_refl _) from rfl]
    refine (GateUp.Phi_weak (Ve0 m) c cfg0.N (le_refl _)).trans ?_
    rw [← GateUp.PhiA_eq]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region over the thread state, in the same way. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (Ve1 m) c).loose
  hwaits := Pipeline.hwaits_of_owed_zero _ _ _ _ L lv 1 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Down.Phi (Ve1 m) c cfg1.N (le_refl _) from rfl]
    refine (Down.Phi_weak (Ve1 m) c cfg1.N (le_refl _)).trans ?_
    refine (Down.PhiA_split c).2.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's items in order: the sixteen stretches of the host prelude, the two regions, the final reshape. -/
abbrev segs : List (Seg (pcfgs (F := F)) adm (pdats m) () defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E), .host (seg5 m 𝒱₀ L lv E), .host (seg6 m 𝒱₀ L lv E), .host (seg7 m 𝒱₀ L lv E), .host (seg8 m 𝒱₀ L lv E), .host (seg9 m 𝒱₀ L lv E), .host (seg10 m 𝒱₀ L lv E), .host (seg11 m 𝒱₀ L lv E), .host (seg12 m 𝒱₀ L lv E), .host (seg13 m 𝒱₀ L lv E), .host (seg14 m 𝒱₀ L lv E), .host (seg15 m 𝒱₀ L lv E), .region (reg0 m), .region (reg1 m), .host (segLast m)]

set_option backward.isDefEq.respectTransparency.types false in
/-- THE RUN. At the compiled mesh, from any memory with zero counters, every weakly fair execution of @main on the TensorCores
    terminates, nothing faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, .rfl, .rfl, lastChain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

end Cert.KernelIdeal.Whole

end
-- ==== Proof.WGateBody.lean ====
/- The gate/up region's kernel body as a Hoare triple, in its two control cases.
   A token block of 512 rows is quantized row by row once, at the first of its sixteen feature tiles, into a scratch buffer
   that the later tiles read; every tile stores silu(q·wgᵀ)·(q·wuᵀ) of the quantized block and its two weight tiles. -/
import proofs.«170583_j85718957293662_2_alg».proof.Proof.Gen.Kernel.Launch
import proofs.«170583_j85718957293662_2_alg».proof.Proof.Gen.Kernel.Skeleton
import proofs.«170583_j85718957293662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block access are all zero. -/
theorem hz2 : (![0, 0] : Fin 2 → Nat) = fun _ => 0 := by funext a; fin_cases a <;> rfl

/-- The whole 512×2048 block, as a rectangle of itself. -/
abbrev rX : Rect S512x2048 := Rect.unit (s := S512x2048) ![0, 0] S512x2048.size inb_S512x2048_S512x2048_0_0
/-- The whole 512×512 block, as a rectangle of itself. -/
abbrev rH : Rect S512x512 := Rect.unit (s := S512x512) ![0, 0] S512x512.size inb_S512x512_S512x512_0_0

/-- The body's branch condition: the second grid coordinate is zero (the first feature tile of a token block). -/
abbrev cond0 (i : grid0.Coords) : Prop := (Scalar.cmpi .ne (Scalar.extui (Scalar.cmpi .eq (BitVec.ofNat 32 (i 1).val) 0#32)) 0#32) = 1#1
/-- It holds exactly at the points whose position is a multiple of 16 (sixteen feature tiles per token block). -/
theorem hcond0 : ∀ t : Fin cfg0.N, cond0 (grid0.coords t) ↔ t.val % 16 = 0 :=
  (by decide +kernel : ∀ t : Fin grid0.N, cond0 (grid0.coords t) ↔ t.val % 16 = 0)

/-- The row-quantized token block: what the scratch buffer holds once the first tile of a token block has run. -/
def quant (x0 : Vec F S512x2048 .f32) : Vec F S512x2048 .bf16 := k0_pay1 x0
/-- The gated product silu(q·wgᵀ)·(q·wuᵀ) of a quantized token block with a gate tile and an up tile. -/
def gated (q x1 x2 : Vec F S512x2048 .bf16) : Vec F S512x512 .f32 := k0_pay2 q x1 x2

theorem coverX (p0 : Vec F S512x2048 .bf16) (y : S512x2048.Idx) :
    ∃ pc ∈ ([⟨rX, p0⟩] : List (View.Piece (Elt F) S512x2048 .bf16)), y ∈ pc.1.set :=
  View.cover_of_tiled [⟨rX, p0⟩] S512x2048.size (by rfl) y
theorem coverH (p0 : Vec F S512x512 .f32) (y : S512x512.Idx) :
    ∃ pc ∈ ([⟨rH, p0⟩] : List (View.Piece (Elt F) S512x512 .f32)), y ∈ pc.1.set :=
  View.cover_of_tiled [⟨rH, p0⟩] S512x512.size (by rfl) y

set_option maxHeartbeats 1000000 in
/-- The body at a first tile (the branch taken): whatever the scratch held, it ends at the quantized token block, and
    the output block at the gated product of that with the two weight tiles; the three inputs are as they were. -/
theorem sound_first (c : Dev nD) (E : Set ℕ) (i : grid0.Coords) (hc : cond0 i)
    (arg2 : Memref sig .tc .vmem S512x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S512x512 .f32) (harg5 : arg5.IsWhole)
    (arg6 : Memref sig .tc .vmem S512x2048 .bf16) (harg6 : arg6.IsWhole)
    (x0 : Vec F S512x2048 .f32) (x1 x2 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ s, owns (c : Thread nD τ) arg6 fullShare s)
        ∗ (iprop(owns (c : Thread nD τ) arg2 fullShare x0 ∗ owns (c : Thread nD τ) arg3 fullShare x1 ∗ owns (c : Thread nD τ) arg4 fullShare x2
            ∗ owns (c : Thread nD τ) arg5 fullShare (gated (quant x0) x1 x2) ∗ owns (c : Thread nD τ) arg6 fullShare (quant x0)) -∗ K ⟨⟩))
      ⊢ wp frame (wpE (defs₀ (F := F)) Variants.none c none) E (cc0__gate_up_kernel i arg2 harg2 arg3 harg3 arg4 harg4 arg5 harg5 arg6 harg6) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverH _), View.canon_unit_zero (S := S512x512) hz2]
    unfold gated quant
    sl_unfold_run_names
    simp only [View.readCov_unit_zero (S := S512x2048) _ hz2, View.readAt_eq_ld, View.ld_unit_zero (S := S512x2048) hz2]
  iexists _; isplitr
  swap; · iexact H6
  ipureintro
  sl_unfold_run_names
  rw [View.read_writes_eq_canon _ _ _ (coverX _), View.canon_unit_zero (S := S512x2048) hz2]
  unfold quant
  simp only [View.readAt_eq_ld, View.ld_unit_zero (S := S512x2048) hz2]

set_option maxHeartbeats 1000000 in
/-- The body at a later tile (the branch not taken): the scratch keeps the quantized token block it holds, and the
    output block ends at the gated product of that with the two weight tiles. -/
theorem sound_later (c : Dev nD) (E : Set ℕ) (i : grid0.Coords) (hc : ¬ cond0 i)
    (arg2 : Memref sig .tc .vmem S512x2048 .f32) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S512x512 .f32) (harg5 : arg5.IsWhole)
    (arg6 : Memref sig .tc .vmem S512x2048 .bf16) (harg6 : arg6.IsWhole)
    (x0 : Vec F S512x2048 .f32) (x1 x2 q : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare q
        ∗ (iprop(owns (c : Thread nD τ) arg2 fullShare x0 ∗ owns (c : Thread nD τ) arg3 fullShare x1 ∗ owns (c : Thread nD τ) arg4 fullShare x2
            ∗ owns (c : Thread nD τ) arg5 fullShare (gated q x1 x2) ∗ owns (c : Thread nD τ) arg6 fullShare q) -∗ K ⟨⟩))
      ⊢ wp frame (wpE (defs₀ (F := F)) Variants.none c none) E (cc0__gate_up_kernel i arg2 harg2 arg3 harg3 arg4 harg4 arg5 harg5 arg6 harg6) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_eq_canon _ _ _ (coverH _), View.canon_unit_zero (S := S512x512) hz2]
    unfold gated
    try sl_unfold_run_names
    simp only [View.readAt_eq_ld, View.ld_unit_zero (S := S512x2048) hz2]
  iexists f6; isplitr; · ipureintro; rfl
  iexact H6

end Cert.Kernel.GateUp

end
-- ==== Proof.WGateData.lean ====
/- The gate/up region's proof data and body obligation, at any contents `V` of the core's buffers at region entry.
   After the body at grid position n the output tile holds the gated product of the quantized token block of that position's
   token block with the position's two weight tiles, and the scratch buffer holds that quantized token block: it was written at the
   first tile of the token block, position 16·(n/16), and the fifteen tiles after it leave it alone. -/
import proofs.«170583_j85718957293662_2_alg».proof.Proof.Gen.Kernel.Launch
import proofs.«170583_j85718957293662_2_alg».proof.Proof.Gen.Kernel.Skeleton
import proofs.«170583_j85718957293662_2_alg».proof.Proof.Gen.Kernel.Points
import proofs.«170583_j85718957293662_2_alg».proof.Proof.WGateBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data whose
    array is `V`'s and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The first tile of the token block that position `t` belongs to. -/
def anchor (t : Fin cfg0.N) : Fin cfg0.N := ⟨16 * (t.val / 16), by have := t.isLt; have hN : cfg0.N = 128 := N_0; omega⟩
theorem anchor_self (t : Fin cfg0.N) (h : t.val % 16 = 0) : anchor t = t := Fin.ext (by show 16 * (t.val / 16) = t.val; omega)
theorem anchor_prev (t : Fin cfg0.N) (h : t.val % 16 ≠ 0) (h' : t.val - 1 < cfg0.N) : anchor ⟨t.val - 1, h'⟩ = anchor t :=
  Fin.ext (by show 16 * ((t.val - 1) / 16) = 16 * (t.val / 16); omega)

/-- The scratch operand, a whole scoped buffer of the kernel's own. -/
abbrev scM : Memref sig .tc .vmem S512x2048 .bf16 := Memref.whole cc0_scratch0

/-- The core's scoped buffers that are neither a staging buffer of this region nor its scratch, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, with the scratch operand split off as a memref owned at some contents. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA others; rw [scopedRest0_eq]; simp only [scM, owns_whole]; try rfl

/-- The quantized token block the scratch holds after position `n`. -/
def scrAt (c : Dev nD) (n : ℕ) (hn : n < cfg0.N) : Vec F S512x2048 .bf16 := quant (iblk V c 0 (anchor ⟨n, hn⟩))

/-- The region invariant before position `n`: before the first point the class's (the scratch at anything); afterwards the
    scratch at the quantized token block of the point before. -/
def Phi (c : Dev nD) : (n : ℕ) → n ≤ cfg0.N → sProp 𝕄
  | 0, _ => Pipeline.ΦA spec0 c
  | n + 1, hn => iprop((owns (c : Thread nD τ) scM fullShare (scrAt V c n hn) ∗ others c) ∗ (∃ r, prngReg c r))

theorem Phi_succ (c : Dev nD) (n : ℕ) (hn : n < cfg0.N) :
    Phi V c (n + 1) hn = iprop((owns (c : Thread nD τ) scM fullShare (scrAt V c n hn) ∗ others c) ∗ (∃ r, prngReg c r)) := rfl
theorem Phi_pos (c : Dev nD) (n : ℕ) (h : n ≤ cfg0.N) (hz : n ≠ 0) :
    Phi V c n h = iprop((owns (c : Thread nD τ) scM fullShare (scrAt V c (n - 1) (by omega)) ∗ others c) ∗ (∃ r, prngReg c r)) := by
  cases n with
  | zero => exact absurd rfl hz
  | succ n => rfl
/-- At any position the invariant holds the scratch at some contents. -/
theorem Phi_weak (c : Dev nD) (n : ℕ) (h : n ≤ cfg0.N) :
    Phi V c n h ⊢ iprop(((∃ d, owns (c : Thread nD τ) scM fullShare d) ∗ others c) ∗ (∃ r, prngReg c r)) := by
  cases n with
  | zero => rw [show Phi V c 0 h = Pipeline.ΦA spec0 c from rfl, PhiA_eq]
  | succ n =>
    rw [Phi_succ]
    iintro ⟨⟨Hs, Ho⟩, Hp⟩
    isplitr [Hp]
    · isplitl [Hs]
      · iexists _; iexact Hs
      iexact Ho
    iexact Hp

/-- The proof data of the region on core `c`: the arrays as the region finds them; after the body each input's buffer at its
    block and the output's at the gated product; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => gated (quant (iblk V c 0 (anchor t))) (iblk V c 1 t) (iblk V c 2 t)
  Φ t := Phi V c t.val (Nat.le_of_lt_succ t.isLt)
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = gated (quant (iblk V c 0 (anchor t))) (iblk V c 1 t) (iblk V c 2 t) := by dsimp only [dat]
theorem Phi_castSucc (c : Dev nD) (t : Fin cfg0.N) : (dat V c).Φ t.castSucc = Phi V c t.val (Nat.le_of_lt t.isLt) := by
  dsimp only [dat]; simp only [Fin.coe_castSucc]
theorem Phi_at_succ (c : Dev nD) (t : Fin cfg0.N) : (dat V c).Φ t.succ = Phi V c (t.val + 1) t.isLt := by
  dsimp only [dat]; simp only [Fin.val_succ]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))
/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: at a first tile the scratch is rewritten, at a later one it is read as the point before left it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    after_0, after_1, after_2, after_3, Phi_castSucc, Phi_at_succ, Phi_succ]
  by_cases h : t.val % 16 = 0
  · iintro ⟨HΦ, Ho, ⟨%d0, H0⟩, ⟨%d1, H1⟩, ⟨%d2, H2⟩, ⟨%d3, H3⟩⟩
    ihave HΦ' := (Phi_weak V c t.val (Nat.le_of_lt t.isLt)) $$ HΦ
    icases HΦ' with ⟨⟨Hs, Hoth⟩, Hp⟩
    iapply (sound_first c Set.univ (grid0.coords t) ((hcond0 t).mpr h) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [Hs]; · iexact Hs
    iintro ⟨H0, H1, H2, H3, Hs⟩
    unfold scrAt
    rw [show (⟨t.val, t.isLt⟩ : Fin cfg0.N) = t from rfl, anchor_self t h]
    isplitl [Hs Hoth Hp]
    · isplitr [Hp]
      · isplitl [Hs]; · iexact Hs
        iexact Hoth
      iexact Hp
    isplitl [Ho]; · iexact Ho
    isplitl [H0]; · iexact H0
    isplitl [H1]; · iexact H1
    isplitl [H2]; · iexact H2
    iexact H3
  · have hz : t.val ≠ 0 := fun e => h (by rw [e])
    rw [Phi_pos V c t.val (Nat.le_of_lt t.isLt) hz]
    unfold scrAt
    rw [anchor_prev t h, show (⟨t.val, t.isLt⟩ : Fin cfg0.N) = t from rfl]
    iintro ⟨⟨⟨Hs, Hoth⟩, Hp⟩, Ho, ⟨%d0, H0⟩, ⟨%d1, H1⟩, ⟨%d2, H2⟩, ⟨%d3, H3⟩⟩
    iapply (sound_later c Set.univ (grid0.coords t) (fun hc => h ((hcond0 t).mp hc)) _ _ _ _ _ _ _ _ _ _ (iblk V c 0 t) (iblk V c 1 t) (iblk V c 2 t) (quant (iblk V c 0 (anchor t))) _)
    isplitl [H0]; · iexact H0
    isplitl [H1]; · iexact H1
    isplitl [H2]; · iexact H2
    isplitl [H3]; · iexists _; iexact H3
    isplitl [Hs]; · iexact Hs
    iintro ⟨H0, H1, H2, H3, Hs⟩
    isplitl [Hs Hoth Hp]
    · isplitr [Hp]
      · isplitl [Hs]; · iexact Hs
        iexact Hoth
      iexact Hp
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end

end Cert.Kernel.GateUp

end
-- ==== Proof.WDownBody.lean ====
/- The down-projection region's kernel body as a Hoare triple, in its two control cases.
   A block of 256 hidden rows of length 8192 is quantized row by row once, at the first of its eight output tiles, into a
   scratch buffer, in four column chunks of 2048: the sum of squares and the largest magnitude of a row are accumulated over
   the four chunks, then each chunk is scaled, clamped, rounded and stored. Every tile stores the product of the quantized
   block with its weight tile. -/
import proofs.«170583_j85718957293662_2_alg».proof.Proof.Gen.Kernel.Launch
import proofs.«170583_j85718957293662_2_alg».proof.Proof.Gen.Kernel.Skeleton
import proofs.«170583_j85718957293662_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block access are all zero. -/
theorem hz2 : (![0, 0] : Fin 2 → Nat) = fun _ => 0 := by funext a; fin_cases a <;> rfl

/-- The body's branch condition: the second grid coordinate is zero (the first output tile of a row block). -/
abbrev cond1 (i : grid1.Coords) : Prop := k1_cond1 i = 1#1
/-- It holds exactly at the points whose position is a multiple of 8 (eight output tiles per row block). -/
theorem hcond1 : ∀ t : Fin cfg1.N, cond1 (grid1.coords t) ↔ t.val % 8 = 0 :=
  (by decide +kernel : ∀ t : Fin grid1.N, cond1 (grid1.coords t) ↔ t.val % 8 = 0)

/-- The four column chunks of the 256×8192 block, and the whole block and the whole output tile as rectangles of themselves. -/
abbrev rc0 : Rect S256x8192 := Rect.unit (s := S256x8192) ![0, 0] S256x2048.size (by decide)
abbrev rc1 : Rect S256x8192 := Rect.unit (s := S256x8192) ![0, 2048] S256x2048.size (by decide)
abbrev rc2 : Rect S256x8192 := Rect.unit (s := S256x8192) ![0, 4096] S256x2048.size (by decide)
abbrev rc3 : Rect S256x8192 := Rect.unit (s := S256x8192) ![0, 6144] S256x2048.size (by decide)
abbrev rW : Rect S256x8192 := Rect.unit (s := S256x8192) ![0, 0] S256x8192.size inb_S256x8192_S256x8192_0_0
abbrev rO : Rect S256x256 := Rect.unit (s := S256x256) ![0, 0] S256x256.size inb_S256x256_S256x256_0_0

/-- The reciprocal root of the rows' mean squares, from the four chunks. -/
def rrOf (c0 c1 c2 c3 : Vec F S256x2048 .f32) : FVec F S256x1 .f32 := k1_pay4 (k1_pay3 c0 c1 c2 c3)
/-- The rows' largest normalized magnitudes, from the four chunks. -/
def mxOf (c0 c1 c2 c3 : Vec F S256x2048 .f32) : FVec F S256x1 .f32 := k1_pay5 (k1_pay3 c0 c1 c2 c3) c0 c1 c2 c3

/-- The four stores of the quantization, last first: each chunk scaled, clamped, rounded and scaled back. -/
def pieces (x0 : Vec F S256x8192 .f32) : List (View.Piece (Elt F) S256x8192 .bf16) :=
  [⟨rc3, k1_pay1 (k1_pay11 (rrOf (View.ld x0 rc0) (View.ld x0 rc1) (View.ld x0 rc2) (View.ld x0 rc3))
        (k1_pay6 (mxOf (View.ld x0 rc0) (View.ld x0 rc1) (View.ld x0 rc2) (View.ld x0 rc3))) (View.ld x0 rc3))⟩,
   ⟨rc2, k1_pay10 (rrOf (View.ld x0 rc0) (View.ld x0 rc1) (View.ld x0 rc2) (View.ld x0 rc3))
        (k1_pay6 (mxOf (View.ld x0 rc0) (View.ld x0 rc1) (View.ld x0 rc2) (View.ld x0 rc3))) (View.ld x0 rc2)⟩,
   ⟨rc1, k1_pay9 (k1_pay8 (rrOf (View.ld x0 rc0) (View.ld x0 rc1) (View.ld x0 rc2) (View.ld x0 rc3))
        (mxOf (View.ld x0 rc0) (View.ld x0 rc1) (View.ld x0 rc2) (View.ld x0 rc3)) (View.ld x0 rc1))⟩,
   ⟨rc0, k1_pay7 (rrOf (View.ld x0 rc0) (View.ld x0 rc1) (View.ld x0 rc2) (View.ld x0 rc3))
        (mxOf (View.ld x0 rc0) (View.ld x0 rc1) (View.ld x0 rc2) (View.ld x0 rc3)) (View.ld x0 rc0)⟩]

/-- The row-quantized hidden block: what the scratch buffer holds once the first tile of a row block has run. -/
def hquant (x0 : Vec F S256x8192 .f32) : Vec F S256x8192 .bf16 := View.canon (pieces x0)
/-- The product of a quantized hidden block with a weight tile. -/
def proj (q x1 : Vec F S256x8192 .bf16) : Vec F S256x256 .f32 := k1_pay2 q x1

/-- The four chunks tile the block. -/
theorem cover (x0 : Vec F S256x8192 .f32) (y : S256x8192.Idx) : ∃ pc ∈ pieces x0, y ∈ pc.1.set :=
  View.cover_of_tiledL (pieces x0) S256x2048.size (by sl_kernel_rfl) y
theorem coverO (p0 : Vec F S256x256 .f32) (y : S256x256.Idx) :
    ∃ pc ∈ ([⟨rO, p0⟩] : List (View.Piece (Elt F) S256x256 .f32)), y ∈ pc.1.set :=
  View.cover_of_tiled [⟨rO, p0⟩] S256x256.size (by rfl) y

set_option maxHeartbeats 4000000 in
/-- The body at a first tile (the branch taken): whatever the scratch held, it ends at the quantized hidden block, and the
    output tile at the product of that with the weight tile; the two inputs are as they were. -/
theorem sound_first (c : Dev nD) (E : Set ℕ) (i : grid1.Coords) (hc : cond1 i)
    (arg2 : Memref sig .tc .vmem S256x8192 .f32) (harg2 : arg2.IsWhole) (arg3 : Memref sig .tc .vmem S256x8192 .bf16) (harg3 : arg3.IsWhole)
    (arg4 : Memref sig .tc .vmem S256x256 .f32) (harg4 : arg4.IsWhole) (arg5 : Memref sig .tc .vmem S256x8192 .bf16) (harg5 : arg5.IsWhole)
    (x0 : Vec F S256x8192 .f32) (x1 : Vec F S256x8192 .bf16) (K : PUnit → sProp 𝕄) :
    iprop(owns (c : Thread nD τ) arg2 fullShare x0 ∗ owns (c : Thread nD τ) arg3 fullShare x1
        ∗ (∃ d, owns (c : Thread nD τ) arg4 fullShare d) ∗ (∃ s, owns (c : Thread nD τ) arg5 fullShare s)
        ∗ (iprop(owns (c : Thread nD τ) arg2 fullShare x0 ∗ owns (c : Thread nD τ) arg3 fullShare x1
            ∗ owns (c : Thread nD τ) arg4 fullShare (proj (hquant x0) x1) ∗ owns (c : Thread nD τ) arg5 fullShare (hquant x0)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (coverO _), View.canon_unit_zero (S := S256x256) hz2]
    sl_unfold_run_names
    simp only [View.readAt_eq_ld, View.ld_unit_zero (S := S256x8192) hz2]
    show k1_pay2 (arg5.view.readCov (pieces (View.read (Elt F) arg2.view f0)) rW.toLoadRect) (View.read (Elt F) arg3.view f1) = _
    rw [View.readCov_eq_canon_ld _ _ _ (cover _), View.ld_unit_zero (S := S256x8192) hz2]
    rfl
  iexists _; isplitr
  swap; · iexact H5
  ipureintro
  sl_unfold_run_names
  simp only [View.readAt_eq_ld]
  show View.read (Elt F) arg5.view (arg5.view.writes (Elt F) f5 (pieces (View.read (Elt F) arg2.view f0))) = _
  rw [View.read_writes_eq_canon _ _ _ (cover _)]
  rfl

set_option maxHeartbeats 1000000 in
/-- The body at a later tile (the branch not taken): the scratch keeps the quantized hidden block it holds, and the output
    tile ends at the product of that with the weight tile. -/
theorem sound_later (c : Dev nD) (E : Set ℕ) (i : grid1.Coords) (hc : ¬ cond1 i)
    (arg2 : Memref sig .tc .vmem S256x8192 .f32) (harg2 : arg2.IsWhole) (arg3 : Memref sig .tc .vmem S256x8192 .bf16) (harg3 : arg3.IsWhole)
    (arg4 : Memref sig .tc .vmem S256x256 .f32) (harg4 : arg4.IsWhole) (arg5 : Memref sig .tc .vmem S256x8192 .bf16) (harg5 : arg5.IsWhole)
    (x0 : Vec F S256x8192 .f32) (x1 q : Vec F S256x8192 .bf16) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare q
        ∗ (iprop(owns (c : Thread nD τ) arg2 fullShare x0 ∗ owns (c : Thread nD τ) arg3 fullShare x1
            ∗ owns (c : Thread nD τ) arg4 fullShare (proj q x1) ∗ owns (c : Thread nD τ) arg5 fullShare q) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (coverO _), View.canon_unit_zero (S := S256x256) hz2]
    unfold proj
    try sl_unfold_run_names
    simp only [View.readAt_eq_ld, View.ld_unit_zero (S := S256x8192) hz2]
  iexists f5; isplitr; · ipureintro; rfl
  iexact H5

end Cert.Kernel.Down

end
-- ==== Proof.WDownData.lean ====
/- The down-projection region's proof data and body obligation, at any contents `V` of the core's buffers at region entry.
   After the body at grid position n the output tile holds the product of the quantized hidden block of that position's row
   block with the position's weight tile, and the scratch buffer holds that quantized block: it was written at the first tile
   of the row block, position 8·(n/8), and the seven tiles after it leave it alone. -/
import proofs.«170583_j85718957293662_2_alg».proof.Proof.Gen.Kernel.Launch
import proofs.«170583_j85718957293662_2_alg».proof.Proof.Gen.Kernel.Skeleton
import proofs.«170583_j85718957293662_2_alg».proof.Proof.Gen.Kernel.Points
import proofs.«170583_j85718957293662_2_alg».proof.Proof.WDownBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is `V`'s and whose body leaves the block in place. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first tile of the row block that position `t` belongs to. -/
def anchor (t : Fin cfg1.N) : Fin cfg1.N := ⟨8 * (t.val / 8), by have := t.isLt; have hN : cfg1.N = 128 := N_1; omega⟩
theorem anchor_self (t : Fin cfg1.N) (h : t.val % 8 = 0) : anchor t = t := Fin.ext (by show 8 * (t.val / 8) = t.val; omega)
theorem anchor_prev (t : Fin cfg1.N) (h : t.val % 8 ≠ 0) (h' : t.val - 1 < cfg1.N) : anchor ⟨t.val - 1, h'⟩ = anchor t :=
  Fin.ext (by show 8 * ((t.val - 1) / 8) = 8 * (t.val / 8); omega)

/-- The scratch operand, a whole scoped buffer of the kernel's own. -/
abbrev scM : Memref sig .tc .vmem S256x8192 .bf16 := Memref.whole cc1_scratch0

/-- The core's scoped buffers that are neither a staging buffer of this region nor its scratch, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant, with the scratch operand (the last of the scoped rest) as a memref owned at some contents. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  unfold Pipeline.ΦA; rw [scopedRest1_eq]; simp only [scM, owns_whole]; try rfl

/-- The same with the scratch split off in front. -/
theorem PhiA_split (c : Dev nD) :
    (Pipeline.ΦA spec1 c : sProp 𝕄) ⊣⊢ iprop(((∃ d, owns (c : Thread nD τ) scM fullShare d) ∗ others c) ∗ (∃ r, prngReg c r)) := by
  rw [PhiA_eq]; unfold others
  constructor
  · iintro ⟨⟨H1, H2, H3, H4, H5, H6, H7, H8, H9, Hs⟩, Hp⟩
    isplitr [Hp]
    · isplitl [Hs]; · iexact Hs
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hp
  · iintro ⟨⟨Hs, H1, H2, H3, H4, H5, H6, H7, H8, H9⟩, Hp⟩
    isplitr [Hp]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hs
    iexact Hp

/-- The quantized hidden block the scratch holds after position `n`. -/
def scrAt (c : Dev nD) (n : ℕ) (hn : n < cfg1.N) : Vec F S256x8192 .bf16 := hquant (iblk V c 0 (anchor ⟨n, hn⟩))

/-- The region invariant before position `n`: before the first point the class's (the scratch at anything); afterwards the
    scratch at the quantized hidden block of the point before. -/
def Phi (c : Dev nD) : (n : ℕ) → n ≤ cfg1.N → sProp 𝕄
  | 0, _ => Pipeline.ΦA spec1 c
  | n + 1, hn => iprop((owns (c : Thread nD τ) scM fullShare (scrAt V c n hn) ∗ others c) ∗ (∃ r, prngReg c r))

theorem Phi_succ (c : Dev nD) (n : ℕ) (hn : n < cfg1.N) :
    Phi V c (n + 1) hn = iprop((owns (c : Thread nD τ) scM fullShare (scrAt V c n hn) ∗ others c) ∗ (∃ r, prngReg c r)) := rfl
theorem Phi_pos (c : Dev nD) (n : ℕ) (h : n ≤ cfg1.N) (hz : n ≠ 0) :
    Phi V c n h = iprop((owns (c : Thread nD τ) scM fullShare (scrAt V c (n - 1) (by omega)) ∗ others c) ∗ (∃ r, prngReg c r)) := by
  cases n with
  | zero => exact absurd rfl hz
  | succ n => rfl
/-- At any position the invariant holds the scratch at some contents. -/
theorem Phi_weak (c : Dev nD) (n : ℕ) (h : n ≤ cfg1.N) :
    Phi V c n h ⊢ iprop(((∃ d, owns (c : Thread nD τ) scM fullShare d) ∗ others c) ∗ (∃ r, prngReg c r)) := by
  cases n with
  | zero => exact (PhiA_split c).1
  | succ n =>
    rw [Phi_succ]
    iintro ⟨⟨Hs, Ho⟩, Hp⟩
    isplitr [Hp]
    · isplitl [Hs]
      · iexists _; iexact Hs
      iexact Ho
    iexact Hp

/-- The proof data of the region on core `c`: the arrays as the region finds them; after the body each input's buffer at its
    block and the output's at the product; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => proj (hquant (iblk V c 0 (anchor t))) (iblk V c 1 t)
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) :
    (dat V c).after 2 t = proj (hquant (iblk V c 0 (anchor t))) (iblk V c 1 t) := by dsimp only [dat]
theorem Phi_castSucc (c : Dev nD) (t : Fin cfg1.N) : (dat V c).Φ t.castSucc = Phi V c t.val (Nat.le_of_lt t.isLt) := by
  dsimp only [dat]; simp only [Fin.coe_castSucc]
theorem Phi_at_succ (c : Dev nD) (t : Fin cfg1.N) : (dat V c).Φ t.succ = Phi V c (t.val + 1) t.isLt := by
  dsimp only [dat]; simp only [Fin.val_succ]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))
/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: at a first tile the scratch is rewritten, at a later one it is read as the point before left it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl,
    after_0, after_1, after_2, Phi_castSucc, Phi_at_succ, Phi_succ]
  by_cases h : t.val % 8 = 0
  · iintro ⟨HΦ, Ho, ⟨%d0, H0⟩, ⟨%d1, H1⟩, ⟨%d2, H2⟩⟩
    ihave HΦ' := (Phi_weak V c t.val (Nat.le_of_lt t.isLt)) $$ HΦ
    icases HΦ' with ⟨⟨Hs, Hoth⟩, Hp⟩
    iapply (sound_first c Set.univ (grid1.coords t) ((hcond1 t).mpr h) _ _ _ _ _ _ _ _ (iblk V c 0 t) (iblk V c 1 t) _)
    isplitl [H0]; · iexact H0
    isplitl [H1]; · iexact H1
    isplitl [H2]; · iexists _; iexact H2
    isplitl [Hs]; · iexact Hs
    iintro ⟨H0, H1, H2, Hs⟩
    unfold scrAt
    rw [show (⟨t.val, t.isLt⟩ : Fin cfg1.N) = t from rfl, anchor_self t h]
    isplitl [Hs Hoth Hp]
    · isplitr [Hp]
      · isplitl [Hs]; · iexact Hs
        iexact Hoth
      iexact Hp
    isplitl [Ho]; · iexact Ho
    isplitl [H0]; · iexact H0
    isplitl [H1]; · iexact H1
    iexact H2
  · have hz : t.val ≠ 0 := fun e => h (by rw [e])
    rw [Phi_pos V c t.val (Nat.le_of_lt t.isLt) hz]
    unfold scrAt
    rw [anchor_prev t h, show (⟨t.val, t.isLt⟩ : Fin cfg1.N) = t from rfl]
    iintro ⟨⟨⟨Hs, Hoth⟩, Hp⟩, Ho, ⟨%d0, H0⟩, ⟨%d1, H1⟩, ⟨%d2, H2⟩⟩
    iapply (sound_later c Set.univ (grid1.coords t) (fun hc => h ((hcond1 t).mp hc)) _ _ _ _ _ _ _ _ (iblk V c 0 t) (iblk V c 1 t) (hquant (iblk V c 0 (anchor t))) _)
    isplitl [H0]; · iexact H0
    isplitl [H1]; · iexact H1
    isplitl [H2]; · iexists _; iexact H2
    isplitl [Hs]; · iexact Hs
    iintro ⟨H0, H1, H2, Hs⟩
    isplitl [Hs Hoth Hp]
    · isplitr [Hp]
      · isplitl [Hs]; · iexact Hs
        iexact Hoth
      iexact Hp
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W1, bigSep_W1]
  exact sound_body V c t

end

end Cert.Kernel.Down

end
-- ==== Proof.WKernelRun.lean ====
/- The whole kernel program's run: the host prelude (the three weight matrices quantized, the token array flattened), the
   gate/up region, the down-projection region, and the final reshape, composed in order. Between two items a core holds
   every unscoped buffer at known contents: the launch contents, then each host stretch applied, then each region's arrays at
   what its write-backs leave. Every weakly fair execution terminates with every unscoped buffer at the last of these. -/
import proofs.«170583_j85718957293662_2_alg».proof.Proof.Gen.Kernel.Launch
import proofs.«170583_j85718957293662_2_alg».proof.Proof.Gen.Kernel.Skeleton
import proofs.«170583_j85718957293662_2_alg».proof.Proof.Gen.Kernel.Points
import proofs.«170583_j85718957293662_2_alg».proof.Proof.WGateData
import proofs.«170583_j85718957293662_2_alg».proof.Proof.WDownData
import proofs.«170583_j85718957293662_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- The gate/up region's entry contents (after the host prelude), read at the TensorCore's references. -/
abbrev Ve0 : (c : Dev nD) → (b : Ref sig .tc) → Buf (Elt F) ((c : Thread nD τ).loc b) := fun c b => V16 m c b
/-- The gate/up region's proof data at them. -/
abbrev dat0 (c : Dev nD) := GateUp.dat (Ve0 m) c
/-- At the gate/up region's exit: its arrays at what the pipeline leaves, every other buffer as entered. -/
def W17 (c : Dev nD) : Valuation τ sig (Elt F) :=
  Pipeline.withArrays spec0 c (V16 m c) fun w => (dat0 m c).arrAt w cfg0.N
theorem W17_arr (c : Dev nD) (w : Fin cfg0.W) :
    W17 m c (Proc.devRef .tc (Pipeline.arrRef spec0 w)) = (dat0 m c).arrAt w cfg0.N := by
  unfold W17; exact Pipeline.withArrays_arr spec0 launch0.win.arr_inj c _ _ w
theorem W17_of_ne (c : Dev nD) (b : Ref sig .tc) (hb : ∀ w, Pipeline.arrRef spec0 w ≠ b) :
    W17 m c (Proc.devRef .tc b) = V16 m c (Proc.devRef .tc b) := by
  unfold W17; exact Pipeline.withArrays_of_ne spec0 c _ _ b hb
/-- The down-projection region's entry contents. -/
abbrev Ve1 : (c : Dev nD) → (b : Ref sig .tc) → Buf (Elt F) ((c : Thread nD τ).loc b) := fun c b => W17 m c b
theorem hF0 (c : Dev nD) (w : Fin cfg0.W) : (dat0 m c).arrAt w cfg0.N = Ve1 m c (Pipeline.arrRef spec0 w) := (W17_arr m c w).symm
theorem hrest0 (c : Dev nD) : ∀ b, b ∉ Finset.univ.image (Pipeline.arrRef spec0) → Ve1 m c b = Ve0 m c b :=
  fun b hb => W17_of_ne m c b fun w e => hb (Finset.mem_image.mpr ⟨w, Finset.mem_univ _, e⟩)
/-- The down-projection region's proof data. -/
abbrev dat1 (c : Dev nD) := Down.dat (Ve1 m) c
/-- At the down-projection region's exit. -/
def W18 (c : Dev nD) : Valuation τ sig (Elt F) :=
  Pipeline.withArrays spec1 c (W17 m c) fun w => (dat1 m c).arrAt w cfg1.N
theorem W18_arr (c : Dev nD) (w : Fin cfg1.W) :
    W18 m c (Proc.devRef .tc (Pipeline.arrRef spec1 w)) = (dat1 m c).arrAt w cfg1.N := by
  unfold W18; exact Pipeline.withArrays_arr spec1 launch1.win.arr_inj c _ _ w
theorem W18_of_ne (c : Dev nD) (b : Ref sig .tc) (hb : ∀ w, Pipeline.arrRef spec1 w ≠ b) :
    W18 m c (Proc.devRef .tc b) = W17 m c (Proc.devRef .tc b) := by
  unfold W18; exact Pipeline.withArrays_of_ne spec1 c _ _ b hb
abbrev Ve2 : (c : Dev nD) → (b : Ref sig .tc) → Buf (Elt F) ((c : Thread nD τ).loc b) := fun c b => W18 m c b
theorem hF1 (c : Dev nD) (w : Fin cfg1.W) : (dat1 m c).arrAt w cfg1.N = Ve2 m c (Pipeline.arrRef spec1 w) := (W18_arr m c w).symm
theorem hrest1 (c : Dev nD) : ∀ b, b ∉ Finset.univ.image (Pipeline.arrRef spec1) → Ve2 m c b = Ve1 m c b :=
  fun b hb => W18_of_ne m c b fun w e => hb (Finset.mem_image.mpr ⟨w, Finset.mem_univ _, e⟩)
/-- After the final reshape. -/
abbrev W19 (c : Dev nD) : Valuation τ sig (Elt F) := StableHlo.after hostOps2 (W18 m c)

/-! ## The arguments end as launched -/

theorem V16_arg0 (c : Dev nD) : V16 m c main_arg0 = m ((c : Thread nD τ).loc main_arg0) := (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem V16_arg1 (c : Dev nD) : V16 m c main_arg1 = m ((c : Thread nD τ).loc main_arg1) := (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem V16_arg2 (c : Dev nD) : V16 m c main_arg2 = m ((c : Thread nD τ).loc main_arg2) := (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem V16_arg3 (c : Dev nD) : V16 m c main_arg3 = m ((c : Thread nD τ).loc main_arg3) := (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-- A buffer that is no array of either region and that the final reshape does not write ends at its contents after the prelude. -/
theorem W19_of (c : Dev nD) (r : Ref sig .tc) (h2 : r ∉ hostOps2_W) (h1 : ∀ w, Pipeline.arrRef spec1 w ≠ r) (h0 : ∀ w, Pipeline.arrRef spec0 w ≠ r) :
    W19 m c r = V16 m c r :=
  (StableHlo.after_of_writes_sub hostOps2 _ hostOps2_writes h2).trans ((W18_of_ne m c r h1).trans (W17_of_ne m c r h0))
theorem W19_arg0 (c : Dev nD) : W19 m c main_arg0 = m ((c : Thread nD τ).loc main_arg0) :=
  (W19_of m c main_arg0 (by decide) (by decide) (by decide)).trans (V16_arg0 m c)
theorem W19_arg1 (c : Dev nD) : W19 m c main_arg1 = m ((c : Thread nD τ).loc main_arg1) :=
  (W19_of m c main_arg1 (by decide) (by decide) (by decide)).trans (V16_arg1 m c)
theorem W19_arg2 (c : Dev nD) : W19 m c main_arg2 = m ((c : Thread nD τ).loc main_arg2) :=
  (W19_of m c main_arg2 (by decide) (by decide) (by decide)).trans (V16_arg2 m c)
theorem W19_arg3 (c : Dev nD) : W19 m c main_arg3 = m ((c : Thread nD τ).loc main_arg3) :=
  (W19_of m c main_arg3 (by decide) (by decide) (by decide)).trans (V16_arg3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 m c
  | ⟨1, _⟩ => fun c => dat1 m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
/-- The final reshape as a segment, from the down-projection region's exit contents. -/
def segLast : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W18 m) (E 2)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W19 m c) ∗ ∃ r, prngReg c r)

/-- The last thread state, regrouped: the buffers with the generator register, beside the core owing nothing. -/
theorem lastChain (c : Dev nD) :
    iprop(StableHlo.held (c : Thread nD τ) (Pipeline.ucRefs τ sig) (W19 m c) ∗ R c)
      ⊢ (iprop(Tₙ m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The regions as segments -/

set_option backward.isDefEq.respectTransparency.types false in
/-- The gate/up region over the thread state: entered from every unscoped buffer at the prelude's contents, left with its arrays at
    what the pipeline leaves; its scratch goes into the invariant at anything and comes back at something. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (GateUp.body_obligation (Ve0 m) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = GateUp.Phi (Ve0 m) c cfg0.N (le_refl _) from rfl]
    refine (GateUp.Phi_weak (Ve0 m) c cfg0.N (le_refl _)).trans ?_
    rw [← GateUp.PhiA_eq]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region over the thread state, in the same way. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (Ve1 m) c).loose
  hwaits := Pipeline.hwaits_of_owed_zero _ _ _ _ L lv 1 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Down.Phi (Ve1 m) c cfg1.N (le_refl _) from rfl]
    refine (Down.Phi_weak (Ve1 m) c cfg1.N (le_refl _)).trans ?_
    refine (Down.PhiA_split c).2.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's items in order: the sixteen stretches of the host prelude, the two regions, the final reshape. -/
abbrev segs : List (Seg (pcfgs (F := F)) adm (pdats m) () defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E), .host (seg5 m 𝒱₀ L lv E), .host (seg6 m 𝒱₀ L lv E), .host (seg7 m 𝒱₀ L lv E), .host (seg8 m 𝒱₀ L lv E), .host (seg9 m 𝒱₀ L lv E), .host (seg10 m 𝒱₀ L lv E), .host (seg11 m 𝒱₀ L lv E), .host (seg12 m 𝒱₀ L lv E), .host (seg13 m 𝒱₀ L lv E), .host (seg14 m 𝒱₀ L lv E), .host (seg15 m 𝒱₀ L lv E), .region (reg0 m), .region (reg1 m), .host (segLast m)]

set_option backward.isDefEq.respectTransparency.types false in
/-- THE RUN. At the compiled mesh, from any memory with zero counters, every weakly fair execution of @main on the TensorCores
    terminates, nothing faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, .rfl, .rfl, lastChain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

end Cert.Kernel.Whole

end
-- ==== Proof.KernelFrames.lean ====
/- The two kernel programs run to the end, fault nowhere and leave their argument arrays as launched: each argument is an unscoped
   buffer that no host stretch writes and no region changes, so the last boundary's contents at it are the launch contents. -/
import proofs.«170583_j85718957293662_2_alg».proof.Defs
import proofs.«170583_j85718957293662_2_alg».proof.Proof.KernelRun
import proofs.«170583_j85718957293662_2_alg».proof.Proof.WKernelRun
import proofs.«170583_j85718957293662_2_alg».proof.Proof.Gen.Pre_finite_inputs

noncomputable section

namespace Cert.Proof.Frames

open Idealize.ShloMosaic Idealize.ShloMosaic.TcCoe Idealize.SL.Sem

theorem frame_kernel : Cert.frame_Kernel := fun m ρ _ =>
  (θ_run Cert.Kernel.defs _ _).mono (fun r h c =>
    ⟨(h c _ (Cert.Kernel.Whole.mem_uc Cert.Kernel.main_arg0 (by decide))).trans (Cert.Kernel.Whole.W19_arg0 m c),
     (h c _ (Cert.Kernel.Whole.mem_uc Cert.Kernel.main_arg1 (by decide))).trans (Cert.Kernel.Whole.W19_arg1 m c),
     (h c _ (Cert.Kernel.Whole.mem_uc Cert.Kernel.main_arg2 (by decide))).trans (Cert.Kernel.Whole.W19_arg2 m c),
     (h c _ (Cert.Kernel.Whole.mem_uc Cert.Kernel.main_arg3 (by decide))).trans (Cert.Kernel.Whole.W19_arg3 m c)⟩)
    (Cert.Kernel.Whole.run (F := Bits) m ρ)

theorem frame_kernelIdeal : Cert.frame_KernelIdeal := fun m ρ _ =>
  (θ_run Cert.KernelIdeal.defs _ _).mono (fun r h c =>
    ⟨(h c _ (Cert.KernelIdeal.Whole.mem_uc Cert.KernelIdeal.main_arg0 (by decide))).trans (Cert.KernelIdeal.Whole.W19_arg0 m c),
     (h c _ (Cert.KernelIdeal.Whole.mem_uc Cert.KernelIdeal.main_arg1 (by decide))).trans (Cert.KernelIdeal.Whole.W19_arg1 m c),
     (h c _ (Cert.KernelIdeal.Whole.mem_uc Cert.KernelIdeal.main_arg2 (by decide))).trans (Cert.KernelIdeal.Whole.W19_arg2 m c),
     (h c _ (Cert.KernelIdeal.Whole.mem_uc Cert.KernelIdeal.main_arg3 (by decide))).trans (Cert.KernelIdeal.Whole.W19_arg3 m c)⟩)
    (Cert.KernelIdeal.Whole.run (F := Ideal) m ρ)

end Cert.Proof.Frames

end
-- ==== Proof.RefFrame.lean ====
/- The reference program runs to the end, faults nowhere and leaves its argument arrays as launched: its run with the result dropped. -/
import proofs.«170583_j85718957293662_2_alg».proof.Defs
import proofs.«170583_j85718957293662_2_alg».proof.Proof.RefRun
import proofs.«170583_j85718957293662_2_alg».proof.Proof.Gen.Pre_finite_inputs

noncomputable section

namespace Cert.Proof.Frames

open Idealize.ShloMosaic Idealize.ShloMosaic.TcCoe Idealize.SL.Sem

theorem frame_reference : Cert.frame_ReferenceIdeal := fun m ρ _ =>
  (θ_run Cert.ReferenceIdeal.defs _ _).mono (fun _ h c => (h c).2) (Cert.ReferenceIdeal.ValueP.run (F := Ideal) m ρ)

end Cert.Proof.Frames

end
-- ==== Proof.GateValue.lean ====
/- The gate/up region's output array after the run, as ONE function of the arrays the region finds: the tile at block row
   i₀/512 and block column i₁/512 is the gated product of the quantized token rows 512·(i₀/512)… with the gate rows and the up rows
   512·(i₁/512)…, read at (i₀ mod 512, i₁ mod 512). The 128 grid points' tiles tile the array, point t writing tile (t/16, t mod 16). -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import proofs.«170583_j85718957293662_2_alg».proof.Proof.GateData
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-- The 512 rows from row 512·k of a matrix of 4096 rows (token rows). -/
def rowsX (X : S4096x2048.Idx → Elt F .f32) (k : ℕ) : Vec F S512x2048 .f32 :=
  fun y => X (ix2 (⟨(512 * k + (y 0).val) % 4096, Nat.mod_lt _ (by decide)⟩ : Fin 4096) (⟨(y 1).val % 2048, Nat.mod_lt _ (by decide)⟩ : Fin 2048))
/-- The 512 rows from row 512·k of a matrix of 8192 rows (weight rows). -/
def rowsW (W : S8192x2048.Idx → Elt F .bf16) (k : ℕ) : Vec F S512x2048 .bf16 :=
  fun y => W (ix2 (⟨(512 * k + (y 0).val) % 8192, Nat.mod_lt _ (by decide)⟩ : Fin 8192) (⟨(y 1).val % 2048, Nat.mod_lt _ (by decide)⟩ : Fin 2048))

/-- The hidden array as one function of the flattened token array and the two quantized weight arrays. -/
def hidden (X : S4096x2048.Idx → Elt F .f32) (Wg Wu : S8192x2048.Idx → Elt F .bf16) : S4096x8192.Idx → Elt F .f32 := fun i =>
  gated (quant (rowsX X ((i 0).val / 512))) (rowsW Wg ((i 1).val / 512)) (rowsW Wu ((i 1).val / 512))
    (ix2 (⟨(i 0).val % 512, Nat.mod_lt _ (by decide)⟩ : Fin 512) (⟨(i 1).val % 512, Nat.mod_lt _ (by decide)⟩ : Fin 512))

/-- The printed index maps, decided over the grid: the token window follows the first coordinate, the weight windows the second,
    the output both. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = t.val % 16 :=
  (by decide +kernel : ∀ t : Fin grid0.N, _)

section
variable (V : (c : Dev nD) → (b : Ref sig .tc) → Buf (Elt F) ((c : Thread nD τ).loc b))

/-- The token block the scratch was quantized from is the token rows of the point's block row. -/
theorem iblk_tokens (c : Dev nD) (t : Fin cfg0.N) :
    (iblk V c 0 (anchor t) : Vec F S512x2048 .f32) = rowsX (V c main_v0) (t.val / 16) := by
  funext y
  show V c main_v0 (((cfg0.win 0).blk (anchor t)).view.emb y) = V c main_v0 _
  refine congrArg _ ?_
  obtain ⟨e0, e1, -⟩ := idx_facts (anchor t)
  have ha : (anchor t).val = 16 * (t.val / 16) := rfl
  have ht : t.val < 128 := lt_of_lt_of_eq t.isLt N_0
  funext a; apply Fin.ext
  match a with
  | ⟨0, _⟩ => show win0_0.index (anchor t) (0 : Fin 2) * 512 + 1 * (y 0).val = (512 * (t.val / 16) + (y 0).val) % 4096; have hy : (y 0).val < 512 := (y 0).isLt; omega
  | ⟨1, _⟩ => show win0_0.index (anchor t) (1 : Fin 2) * 2048 + 1 * (y 1).val = (y 1).val % 2048; have hy : (y 1).val < 2048 := (y 1).isLt; omega
/-- The gate tile is the gate rows of the point's block column. -/
theorem iblk_gate (c : Dev nD) (t : Fin cfg0.N) :
    (iblk V c 1 t : Vec F S512x2048 .bf16) = rowsW (V c main_v12) (t.val % 16) := by
  funext y
  show V c main_v12 (((cfg0.win 1).blk t).view.emb y) = V c main_v12 _
  refine congrArg _ ?_
  obtain ⟨-, -, e0, e1, -⟩ := idx_facts t
  funext a; apply Fin.ext
  match a with
  | ⟨0, _⟩ => show win0_1.index t (0 : Fin 2) * 512 + 1 * (y 0).val = (512 * (t.val % 16) + (y 0).val) % 8192; have hy : (y 0).val < 512 := (y 0).isLt; omega
  | ⟨1, _⟩ => show win0_1.index t (1 : Fin 2) * 2048 + 1 * (y 1).val = (y 1).val % 2048; have hy : (y 1).val < 2048 := (y 1).isLt; omega
/-- The up tile is the up rows of the point's block column. -/
theorem iblk_up (c : Dev nD) (t : Fin cfg0.N) :
    (iblk V c 2 t : Vec F S512x2048 .bf16) = rowsW (V c main_v24) (t.val % 16) := by
  funext y
  show V c main_v24 (((cfg0.win 2).blk t).view.emb y) = V c main_v24 _
  refine congrArg _ ?_
  obtain ⟨-, -, -, -, e0, e1, -⟩ := idx_facts t
  funext a; apply Fin.ext
  match a with
  | ⟨0, _⟩ => show win0_2.index t (0 : Fin 2) * 512 + 1 * (y 0).val = (512 * (t.val % 16) + (y 0).val) % 8192; have hy : (y 0).val < 512 := (y 0).isLt; omega
  | ⟨1, _⟩ => show win0_2.index t (1 : Fin 2) * 2048 + 1 * (y 1).val = (y 1).val % 2048; have hy : (y 1).val < 2048 := (y 1).isLt; omega

/-- What point `t` writes back is block `t` of the hidden array. -/
theorem flushed_eq (c : Dev nD) (t : Fin cfg0.N) :
    (dat V c).flushed 3 t = ((cfg0.win 3).blk t).view.read (Elt F) (hidden (V c main_v0) (V c main_v12) (V c main_v24)) := by
  show (cfg0.win 3).cut (grid0.coords t) ((dat V c).after 3 t) = _
  rw [after_3]
  funext j
  show gated (quant (iblk V c 0 (anchor t))) (iblk V c 1 t) (iblk V c 2 t) j
    = hidden (V c main_v0) (V c main_v12) (V c main_v24) (((cfg0.win 3).blk t).view.emb j)
  rw [iblk_tokens, iblk_gate, iblk_up]
  obtain ⟨-, -, -, -, -, -, e0, e1⟩ := idx_facts t
  have h0 : ((((cfg0.win 3).blk t).view.emb j) 0).val = win0_3.index t (0 : Fin 2) * 512 + 1 * (j 0).val := rfl
  have h1 : ((((cfg0.win 3).blk t).view.emb j) 1).val = win0_3.index t (1 : Fin 2) * 512 + 1 * (j 1).val := rfl
  have hj0 : (j 0).val < 512 := (j 0).isLt
  have hj1 : (j 1).val < 512 := (j 1).isLt
  unfold hidden
  have q0 : ((((cfg0.win 3).blk t).view.emb j) 0).val / 512 = t.val / 16 := by omega
  have q1 : ((((cfg0.win 3).blk t).view.emb j) 1).val / 512 = t.val % 16 := by omega
  rw [q0, q1]
  refine congrArg _ ?_
  funext a
  match a with
  | ⟨0, _⟩ => exact Fin.ext (by show (j 0).val = ((((cfg0.win 3).blk t).view.emb j) 0).val % 512; omega)
  | ⟨1, _⟩ => exact Fin.ext (by show (j 1).val = ((((cfg0.win 3).blk t).view.emb j) 1).val % 512; omega)

/-- An index of the array is in point `t`'s block iff each coordinate is in the block's range on its axis. -/
theorem mem_blk (t : Fin cfg0.N) (i : S4096x8192.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v37).slice (win0_3.rect t)).set ↔ _
  rw [View.set_slice_whole, Rect.mem_set_unit]
  exact Iff.rfl

/-- Every index of the hidden array is in the block of the point (i₀/512, i₁/512). -/
theorem covered (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 128 := N_0
  let t : Fin cfg0.N := ⟨16 * ((i 0).val / 512) + (i 1).val / 512, by omega⟩
  have htv : t.val = 16 * ((i 0).val / 512) + (i 1).val / 512 := rfl
  obtain ⟨-, -, -, -, -, -, e0, e1⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE HIDDEN ARRAY after the region's run. -/
theorem final (c : Dev nD) : (dat V c).arrAt 3 cfg0.N = hidden (V c main_v0) (V c main_v12) (V c main_v24) :=
  (dat V c).arrAt_eq_of_cover 3 _ (fun t _ => flushed_eq V c t) covered

end

end Cert.KernelIdeal.GateUp

end
-- ==== Proof.DownValue.lean ====
/- The down-projection region's output array after the run, as ONE function of the arrays the region finds: the tile at block
   row i₀/256 and block column i₁/256 is the product of the quantized hidden rows 256·(i₀/256)… with the weight rows 256·(i₁/256)…,
   read at (i₀ mod 256, i₁ mod 256). The 128 grid points' tiles tile the array, point t writing tile (t/8, t mod 8). -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import proofs.«170583_j85718957293662_2_alg».proof.Proof.DownData
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-- The 256 rows from row 256·k of the hidden array. -/
def rowsH (H : S4096x8192.Idx → Elt F .f32) (k : ℕ) : Vec F S256x8192 .f32 :=
  fun y => H (ix2 (⟨(256 * k + (y 0).val) % 4096, Nat.mod_lt _ (by decide)⟩ : Fin 4096) (⟨(y 1).val % 8192, Nat.mod_lt _ (by decide)⟩ : Fin 8192))
/-- The 256 rows from row 256·k of the down weight array. -/
def rowsD (W : S2048x8192.Idx → Elt F .bf16) (k : ℕ) : Vec F S256x8192 .bf16 :=
  fun y => W (ix2 (⟨(256 * k + (y 0).val) % 2048, Nat.mod_lt _ (by decide)⟩ : Fin 2048) (⟨(y 1).val % 8192, Nat.mod_lt _ (by decide)⟩ : Fin 8192))

/-- The result array as one function of the hidden array and the quantized down weight array. -/
def result (H : S4096x8192.Idx → Elt F .f32) (Wd : S2048x8192.Idx → Elt F .bf16) : S4096x2048.Idx → Elt F .f32 := fun i =>
  proj (hquant (rowsH H ((i 0).val / 256))) (rowsD Wd ((i 1).val / 256))
    (ix2 (⟨(i 0).val % 256, Nat.mod_lt _ (by decide)⟩ : Fin 256) (⟨(i 1).val % 256, Nat.mod_lt _ (by decide)⟩ : Fin 256))

/-- The printed index maps, decided over the grid. -/
theorem idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

section
variable (V : (c : Dev nD) → (b : Ref sig .tc) → Buf (Elt F) ((c : Thread nD τ).loc b))

/-- The hidden block the scratch was quantized from is the hidden rows of the point's block row. -/
theorem iblk_hidden (c : Dev nD) (t : Fin cfg1.N) :
    (iblk V c 0 (anchor t) : Vec F S256x8192 .f32) = rowsH (V c main_v37) (t.val / 8) := by
  funext y
  show V c main_v37 (((cfg1.win 0).blk (anchor t)).view.emb y) = V c main_v37 _
  refine congrArg _ ?_
  obtain ⟨e0, e1, -⟩ := idx_facts (anchor t)
  have ha : (anchor t).val = 8 * (t.val / 8) := rfl
  have ht : t.val < 128 := lt_of_lt_of_eq t.isLt N_1
  funext a; apply Fin.ext
  match a with
  | ⟨0, _⟩ => show win1_0.index (anchor t) (0 : Fin 2) * 256 + 1 * (y 0).val = (256 * (t.val / 8) + (y 0).val) % 4096; have hy : (y 0).val < 256 := (y 0).isLt; omega
  | ⟨1, _⟩ => show win1_0.index (anchor t) (1 : Fin 2) * 8192 + 1 * (y 1).val = (y 1).val % 8192; have hy : (y 1).val < 8192 := (y 1).isLt; omega
/-- The weight tile is the weight rows of the point's block column. -/
theorem iblk_weight (c : Dev nD) (t : Fin cfg1.N) :
    (iblk V c 1 t : Vec F S256x8192 .bf16) = rowsD (V c main_v36) (t.val % 8) := by
  funext y
  show V c main_v36 (((cfg1.win 1).blk t).view.emb y) = V c main_v36 _
  refine congrArg _ ?_
  obtain ⟨-, -, e0, e1, -⟩ := idx_facts t
  funext a; apply Fin.ext
  match a with
  | ⟨0, _⟩ => show win1_1.index t (0 : Fin 2) * 256 + 1 * (y 0).val = (256 * (t.val % 8) + (y 0).val) % 2048; have hy : (y 0).val < 256 := (y 0).isLt; omega
  | ⟨1, _⟩ => show win1_1.index t (1 : Fin 2) * 8192 + 1 * (y 1).val = (y 1).val % 8192; have hy : (y 1).val < 8192 := (y 1).isLt; omega

/-- What point `t` writes back is block `t` of the result array. -/
theorem flushed_eq (c : Dev nD) (t : Fin cfg1.N) :
    (dat V c).flushed 2 t = ((cfg1.win 2).blk t).view.read (Elt F) (result (V c main_v37) (V c main_v36)) := by
  show (cfg1.win 2).cut (grid1.coords t) ((dat V c).after 2 t) = _
  rw [after_2]
  funext j
  show proj (hquant (iblk V c 0 (anchor t))) (iblk V c 1 t) j
    = result (V c main_v37) (V c main_v36) (((cfg1.win 2).blk t).view.emb j)
  rw [iblk_hidden, iblk_weight]
  obtain ⟨-, -, -, -, e0, e1⟩ := idx_facts t
  have h0 : ((((cfg1.win 2).blk t).view.emb j) 0).val = win1_2.index t (0 : Fin 2) * 256 + 1 * (j 0).val := rfl
  have h1 : ((((cfg1.win 2).blk t).view.emb j) 1).val = win1_2.index t (1 : Fin 2) * 256 + 1 * (j 1).val := rfl
  have hj0 : (j 0).val < 256 := (j 0).isLt
  have hj1 : (j 1).val < 256 := (j 1).isLt
  unfold result
  have q0 : ((((cfg1.win 2).blk t).view.emb j) 0).val / 256 = t.val / 8 := by omega
  have q1 : ((((cfg1.win 2).blk t).view.emb j) 1).val / 256 = t.val % 8 := by omega
  rw [q0, q1]
  refine congrArg _ ?_
  funext a
  match a with
  | ⟨0, _⟩ => exact Fin.ext (by show (j 0).val = ((((cfg1.win 2).blk t).view.emb j) 0).val % 256; omega)
  | ⟨1, _⟩ => exact Fin.ext (by show (j 1).val = ((((cfg1.win 2).blk t).view.emb j) 1).val % 256; omega)

/-- An index of the array is in point `t`'s block iff each coordinate is in the block's range on its axis. -/
theorem mem_blk (t : Fin cfg1.N) (i : S4096x2048.Idx) :
    i ∈ ((cfg1.win 2).blk t).view.set ↔ ∀ a : Fin 2, win1_2.index t a * S256x256.size a ≤ (i a).val ∧ (i a).val < win1_2.index t a * S256x256.size a + S256x256.size a := by
  show i ∈ ((View.whole main_v38).slice (win1_2.rect t)).set ↔ _
  rw [View.set_slice_whole, Rect.mem_set_unit]
  exact Iff.rfl

/-- Every index of the result array is in the block of the point (i₀/256, i₁/256). -/
theorem covered (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  have hN : cfg1.N = 128 := N_1
  let t : Fin cfg1.N := ⟨8 * ((i 0).val / 256) + (i 1).val / 256, by omega⟩
  have htv : t.val = 8 * ((i 0).val / 256) + (i 1).val / 256 := rfl
  obtain ⟨-, -, -, -, e0, e1⟩ := idx_facts t
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 256 ≤ (i 1).val ∧ (i 1).val < win1_2.index t (1 : Fin 2) * 256 + 256; omega

/-- THE RESULT ARRAY after the region's run. -/
theorem final (c : Dev nD) : (dat V c).arrAt 2 cfg1.N = result (V c main_v37) (V c main_v36) :=
  (dat V c).arrAt_eq_of_cover 2 _ (fun t _ => flushed_eq V c t) covered

end

end Cert.KernelIdeal.Down

end
-- ==== Proof.KernelValue.lean ====
/- The kernel program's result buffer after the run, as one term of the argument arrays: the token array flattened to 4096 rows,
   the hidden array of the gate/up region over it and the quantized gate and up weights, the result array of the down-projection
   region over that and the quantized down weights, reshaped back to [2, 2048, 2048]. -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import proofs.«170583_j85718957293662_2_alg».proof.Proof.KernelRun
import proofs.«170583_j85718957293662_2_alg».proof.Proof.GateValue
import proofs.«170583_j85718957293662_2_alg».proof.Proof.DownValue
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- The down-projection region's output array after the run. -/
theorem v38_eq (c : Dev nD) :
    (W18 m c main_v38 : S4096x2048.Idx → Elt F .f32) = Down.result (W17 m c main_v37) (W17 m c main_v36) :=
  (W18_arr m c 2).trans (Down.final (Ve1 m) c)
/-- The gate/up region's output array after the run. -/
theorem v37_eq (c : Dev nD) :
    (W17 m c main_v37 : S4096x8192.Idx → Elt F .f32) = GateUp.hidden (V16 m c main_v0) (V16 m c main_v12) (V16 m c main_v24) :=
  (W17_arr m c 3).trans (GateUp.final (Ve0 m) c)
/-- The gate/up region leaves the quantized down weights alone. -/
theorem v36_eq (c : Dev nD) : (W17 m c main_v36 : S2048x8192.Idx → Elt F .bf16) = V16 m c main_v36 :=
  W17_of_ne m c main_v36 (by decide)
/-- The final reshape. -/
theorem v39_eq (c : Dev nD) :
    (W19 m c main_v39 : S2x2048x2048.Idx → Elt F .f32)
      = shapeCast S2x2048x2048 (W18 m c main_v38 : S4096x2048.Idx → Elt F .f32) shapeCasts_S4096x2048_S2x2048x2048 := by
  show StableHlo.after hostOps2 (W18 m c) (Proc.devRef .tc main_v39) = _
  after_results
  rfl
/-- The flattened token array. -/
theorem v0_eq (c : Dev nD) :
    (V16 m c main_v0 : S4096x2048.Idx → Elt F .f32)
      = shapeCast S4096x2048 (m ((c : Thread nD τ).loc main_arg0) : S2x2048x2048.Idx → Elt F .f32) shapeCasts_S2x2048x2048_S4096x2048 := by
  refine ((V16_of m c main_v0 (by decide)).trans <| (V15_of m c main_v0 (by decide)).trans <| (V14_of m c main_v0 (by decide)).trans <| (V13_of m c main_v0 (by decide)).trans <| (V12_of m c main_v0 (by decide)).trans <| (V11_of m c main_v0 (by decide)).trans <| (V10_of m c main_v0 (by decide)).trans <| (V9_of m c main_v0 (by decide)).trans <| (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))).trans ?_
  show StableHlo.after hostOps0 (V0 m c) (Proc.devRef .tc main_v0) = _
  after_results
  rfl

/-- The kernel program's result from the token array and the three quantized weight arrays. -/
def kval (x0 : S2x2048x2048.Idx → Elt F .f32) (wg wu : S8192x2048.Idx → Elt F .bf16) (wd : S2048x8192.Idx → Elt F .bf16) :
    S2x2048x2048.Idx → Elt F .f32 :=
  shapeCast S2x2048x2048
    (Down.result (GateUp.hidden (shapeCast S4096x2048 x0 shapeCasts_S2x2048x2048_S4096x2048) wg wu) wd)
    shapeCasts_S4096x2048_S2x2048x2048

/-- THE RESULT BUFFER after the run. -/
theorem result_eq (c : Dev nD) :
    (W19 m c main_v39 : S2x2048x2048.Idx → Elt F .f32)
      = kval (m ((c : Thread nD τ).loc main_arg0)) (V16 m c main_v12) (V16 m c main_v24) (V16 m c main_v36) := by
  rw [v39_eq, v38_eq, v37_eq, v36_eq, v0_eq]
  rfl

end Cert.KernelIdeal.Whole

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.HostPrelude.lean ====
/- The host prelude of the kernel program: each of the three weight matrices quantized to the ternary values over its scale. -/
import proofs.«170583_j85718957293662_2_alg».proof.Proof.Gen.KernelIdeal.Launch
import proofs.«170583_j85718957293662_2_alg».proof.Proof.Gen.KernelIdeal.Skeleton
import proofs.«170583_j85718957293662_2_alg».proof.Proof.Gen.KernelIdeal.Points
import proofs.«170583_j85718957293662_2_alg».proof.Proof.KernelRun
import proofs.«170583_j85718957293662_2_alg».proof.Proof.LibCallBuffers
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- The scale of the ternary weight quantization of a 8192×2048 matrix: one over its mean magnitude, the latter kept above the small constant. -/
def wscaleA (w : S8192x2048.Idx → Elt F .f32) : (⟨S_, .f32⟩ : BufTy).Contents (Elt F) :=
  Host.divf (constant S_ .f32 0x3F800000#32)
    (maximumf (id (constant S_ .f32 0x3727C5AC#32))
      (Host.divf (Host.reduceAdd (Host.absf w) (constant S_ .f32 0x00000000#32) reducesTo_S8192x2048_S_d0_1 h_S_) (constant S_ .f32 0x4B800000#32)))
/-- The quantized matrix: scaled, clamped to [-1, 1], rounded half to even, scaled back, in the short format. -/
def wquantA (w : S8192x2048.Idx → Elt F .f32) : S8192x2048.Idx → Elt F .bf16 :=
  truncf .bf16
    (Host.divf
      (Host.roundeven
        (minimumf (broadcastInDim S8192x2048 ![] bcast_S_S8192x2048 (id (constant S_ .f32 0x3F800000#32)))
          (maximumf (broadcastInDim S8192x2048 ![] bcast_S_S8192x2048 (id (constant S_ .f32 0xBF800000#32)))
            (mulf w (broadcastInDim S8192x2048 ![] bcast_S_S8192x2048 (wscaleA w))))))
      (broadcastInDim S8192x2048 ![] bcast_S_S8192x2048 (wscaleA w)))
    bitsLt_bf16_f32

/-- The scale of the ternary weight quantization of a 2048×8192 matrix: one over its mean magnitude, the latter kept above the small constant. -/
def wscaleB (w : S2048x8192.Idx → Elt F .f32) : (⟨S_, .f32⟩ : BufTy).Contents (Elt F) :=
  Host.divf (constant S_ .f32 0x3F800000#32)
    (maximumf (id (constant S_ .f32 0x3727C5AC#32))
      (Host.divf (Host.reduceAdd (Host.absf w) (constant S_ .f32 0x00000000#32) reducesTo_S2048x8192_S_d0_1 h_S_) (constant S_ .f32 0x4B800000#32)))
/-- The quantized matrix: scaled, clamped to [-1, 1], rounded half to even, scaled back, in the short format. -/
def wquantB (w : S2048x8192.Idx → Elt F .f32) : S2048x8192.Idx → Elt F .bf16 :=
  truncf .bf16
    (Host.divf
      (Host.roundeven
        (minimumf (broadcastInDim S2048x8192 ![] bcast_S_S2048x8192 (id (constant S_ .f32 0x3F800000#32)))
          (maximumf (broadcastInDim S2048x8192 ![] bcast_S_S2048x8192 (id (constant S_ .f32 0xBF800000#32)))
            (mulf w (broadcastInDim S2048x8192 ![] bcast_S_S2048x8192 (wscaleB w))))))
      (broadcastInDim S2048x8192 ![] bcast_S_S2048x8192 (wscaleB w)))
    bitsLt_bf16_f32

variable (m : (ℓ : Loc nD τ sig) → Buf (Elt F) ℓ)

set_option maxHeartbeats 4000000 in
/-- The gate weights as the gate/up region finds them. -/
theorem v12_eq (c : Dev nD) :
    (V16 m c main_v12 : S8192x2048.Idx → Elt F .bf16) = wquantA (m ((c : Thread nD τ).loc main_arg1)) := by
  dsimp only [V16, V15, V14, V13, V12, V11, V10, V9, V8, V7, V6, V5, V4, V3, V2, V1, V0]
  simp only [← StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.append_nil, List.cons_append, List.nil_append, List.append_assoc]
  after_results_simp
  simp only [TRef.ofBuf_toBuf]
  rfl

set_option maxHeartbeats 4000000 in
/-- The up weights as the gate/up region finds them. -/
theorem v24_eq (c : Dev nD) :
    (V16 m c main_v24 : S8192x2048.Idx → Elt F .bf16) = wquantA (m ((c : Thread nD τ).loc main_arg2)) := by
  dsimp only [V16, V15, V14, V13, V12, V11, V10, V9, V8, V7, V6, V5, V4, V3, V2, V1, V0]
  simp only [← StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.append_nil, List.cons_append, List.nil_append, List.append_assoc]
  after_results_simp
  simp only [TRef.ofBuf_toBuf]
  rfl

set_option maxHeartbeats 4000000 in
/-- The down weights as the down-projection region finds them. -/
theorem v36_eq_prelude (c : Dev nD) :
    (V16 m c main_v36 : S2048x8192.Idx → Elt F .bf16) = wquantB (m ((c : Thread nD τ).loc main_arg3)) := by
  dsimp only [V16, V15, V14, V13, V12, V11, V10, V9, V8, V7, V6, V5, V4, V3, V2, V1, V0]
  simp only [← StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.append_nil, List.cons_append, List.nil_append, List.append_assoc]
  after_results_simp
  simp only [TRef.ofBuf_toBuf]
  rfl

end Cert.KernelIdeal.Whole

end
-- ==== Proof.Spec.lean ====
/-
  The specification of the quantised SwiGLU block, as plain formulas over families of extended reals, and the small
  laws that relate two ways of cutting a row of 8192 entries into four chunks of 2048.

  A row `v` of length `n` is normalised by the reciprocal root of its mean square (`rr`, `xn`), scaled so that its
  largest magnitude becomes 127 (`amax`, `sc`), rounded to the nearest integer in [-128, 127] and scaled back (`aq`).
  A weight matrix is scaled by the reciprocal of its mean magnitude (`ws`), rounded to {-1, 0, 1} and scaled back
  (`wq`). The block is  out = aq(h) · wq(Wd)ᵀ  with  h = silu(aq(x) · wq(Wg)ᵀ) * (aq(x) · wq(Wu)ᵀ).
  Every float literal stays the word it was written as; the row length and the entry count enter as such words too.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-! ## Activation quantisation of one row -/

/-- The reciprocal root of the row's mean square plus the small constant; `dn` is the row length as a float. -/
def rr {n : Nat} (dn : EReal) (v : Fin n → EReal) : EReal :=
  Ideal.rsqrt (Ideal.div (∑ k : Fin n, v k * v k) dn + Ideal.ofBits .f32 0x358637BD#32)

/-- The normalised row. -/
def xn {n : Nat} (dn : EReal) (v : Fin n → EReal) (k : Fin n) : EReal := v k * rr dn v

/-- The largest magnitude of the normalised row: the fold of `max` from the word of -∞ over the row's magnitudes. -/
def amax {n : Nat} (dn : EReal) (v : Fin n → EReal) : EReal :=
  (Finset.univ : Finset (Fin n)).fold max (Ideal.ofBits .f32 0xFF800000#32) (fun k => max (xn dn v k) (-(xn dn v k)))

/-- The row's scale: 127 over its largest magnitude, the latter kept above the small constant. -/
def sc {n : Nat} (dn : EReal) (v : Fin n → EReal) : EReal :=
  Ideal.div (Ideal.ofBits .f32 0x42FE0000#32) (max (Ideal.ofBits .f32 0x3727C5AC#32) (amax dn v))

/-- The quantised row: scale, clamp to [-128, 127], round half to even, scale back. -/
def aq {n : Nat} (dn : EReal) (v : Fin n → EReal) (k : Fin n) : EReal :=
  Ideal.div
    (Ideal.liftRound Ideal.roundHalfEven
      (min (Ideal.ofBits .f32 0x42FE0000#32) (max (Ideal.ofBits .f32 0xC3000000#32) (xn dn v k * sc dn v))))
    (sc dn v)

/-! ## Weight quantisation of one matrix -/

/-- The matrix's scale: one over its mean magnitude, the latter kept above the small constant; `cnt` is the number
    of entries as a float. -/
def ws {a b : Nat} (cnt : EReal) (W : Fin a → Fin b → EReal) : EReal :=
  Ideal.div (Ideal.ofBits .f32 0x3F800000#32)
    (max (Ideal.ofBits .f32 0x3727C5AC#32) (Ideal.div (∑ i : Fin a, ∑ j : Fin b, max (W i j) (-(W i j))) cnt))

/-- The quantised matrix: scale, clamp to [-1, 1], round half to even, scale back. -/
def wq {a b : Nat} (cnt : EReal) (W : Fin a → Fin b → EReal) (i : Fin a) (j : Fin b) : EReal :=
  Ideal.div
    (Ideal.liftRound Ideal.roundHalfEven
      (min (Ideal.ofBits .f32 0x3F800000#32) (max (Ideal.ofBits .f32 0xBF800000#32) (W i j * ws cnt W))))
    (ws cnt W)

/-! ## The block -/

/-- x · sigmoid x. -/
def silu (g : EReal) : EReal := g * Ideal.logistic g

/-- A quantised row against a quantised matrix row: the linear layer with both operands quantised. -/
def lin {a b : Nat} (dn cnt : EReal) (v : Fin b → EReal) (W : Fin a → Fin b → EReal) (f : Fin a) : EReal :=
  ∑ d : Fin b, aq dn v d * wq cnt W f d

/-- The hidden row of token `r`: silu of the gate projection times the up projection. -/
def hid (X : Fin 4096 → Fin 2048 → EReal) (Wg Wu : Fin 8192 → Fin 2048 → EReal) (r : Fin 4096) (f : Fin 8192) : EReal :=
  silu (lin (Ideal.ofBits .f32 0x45000000#32) (Ideal.ofBits .f32 0x4B800000#32) (X r) Wg f)
    * lin (Ideal.ofBits .f32 0x45000000#32) (Ideal.ofBits .f32 0x4B800000#32) (X r) Wu f

/-- The block's result at token `r` and output feature `n`. -/
def out (X : Fin 4096 → Fin 2048 → EReal) (Wg Wu : Fin 8192 → Fin 2048 → EReal) (Wd : Fin 2048 → Fin 8192 → EReal)
    (r : Fin 4096) (n : Fin 2048) : EReal :=
  lin (Ideal.ofBits .f32 0x46000000#32) (Ideal.ofBits .f32 0x4B800000#32) (hid X Wg Wu r) Wd n

/-! ## The literals that have to be read -/

theorem word_2048 : Ideal.ofBits .f32 0x45000000#32 = ((2048 : ℝ) : EReal) := by
  simp [Ideal.ofBits, Ideal.ieee, -EReal.coe_mul]; norm_num
theorem word_8192 : Ideal.ofBits .f32 0x46000000#32 = ((8192 : ℝ) : EReal) := by
  simp [Ideal.ofBits, Ideal.ieee, -EReal.coe_mul]; norm_num
theorem word_4 : Ideal.ofBits .f32 0x40800000#32 = ((4 : ℝ) : EReal) := by
  simp [Ideal.ofBits, Ideal.ieee, -EReal.coe_mul]; norm_num
theorem word_one : Ideal.ofBits .f32 0x3F800000#32 = 1 := by
  simp [Ideal.ofBits, Ideal.ieee, -EReal.coe_mul]; norm_num
theorem word_ninf : Ideal.ofBits .f32 0xFF800000#32 = ⊥ := by
  simp [Ideal.ofBits, Ideal.ieee]

/-! ## Laws for a row held in four chunks -/

/-- (a) Dividing by 2048 and then by 4 is dividing by 8192, at the infinities too. -/
theorem div_2048_div_4 (a : EReal) :
    Ideal.div (Ideal.div a (Ideal.ofBits .f32 0x45000000#32)) (Ideal.ofBits .f32 0x40800000#32)
      = Ideal.div a (Ideal.ofBits .f32 0x46000000#32) := by
  rw [word_2048, word_4, word_8192, Ideal.div_coe (by norm_num), Ideal.div_coe (by norm_num),
    Ideal.div_coe (by norm_num), mul_assoc, ← EReal.coe_mul]
  norm_num

/-- Entry `j` of chunk `k` of a row of 8192 entries. -/
def chunk (k : Fin 4) (j : Fin 2048) : Fin 8192 := ⟨2048 * k.val + j.val, by omega⟩

theorem chunk_surj (f : Fin 8192) : ∃ k j, chunk k j = f :=
  ⟨⟨f.val / 2048, by omega⟩, ⟨f.val % 2048, Nat.mod_lt _ (by norm_num)⟩, Fin.ext (by simp only [chunk]; omega)⟩

/-- (b) A sum over the row is the sum over the chunks of the chunks' sums. -/
theorem sum_chunks {M : Type*} [AddCommMonoid M] (x : Fin 8192 → M) :
    ∑ f : Fin 8192, x f = ∑ k : Fin 4, ∑ j : Fin 2048, x (chunk k j) := by
  rw [← Fintype.sum_prod_type']
  refine (Fintype.sum_equiv (finProdFinEquiv (m := 4) (n := 2048)) _ _ fun p => ?_).symm
  exact congrArg x (Fin.ext (by simp only [finProdFinEquiv, Equiv.coe_fn_mk, chunk]; omega))

/-- (b), written out: the four chunk sums added from the left. -/
theorem sum_four_chunks {M : Type*} [AddCommMonoid M] (x : Fin 8192 → M) :
    ∑ f : Fin 8192, x f
      = (∑ j : Fin 2048, x (chunk 0 j)) + (∑ j : Fin 2048, x (chunk 1 j)) + (∑ j : Fin 2048, x (chunk 2 j))
        + (∑ j : Fin 2048, x (chunk 3 j)) := by
  rw [sum_chunks, Fin.sum_univ_four]

/-- (c) The largest of nonnegative entries over the row, folded from -∞, is the running maximum that starts at zero
    and takes in each chunk's maximum (itself folded from -∞) in turn. -/
theorem fold_max_four_chunks (y : Fin 8192 → EReal) (hy : ∀ f, 0 ≤ y f) :
    (Finset.univ : Finset (Fin 8192)).fold max (Ideal.ofBits .f32 0xFF800000#32) y
      = max (max (max (max (Ideal.ofBits .f32 0x00000000#32)
            ((Finset.univ : Finset (Fin 2048)).fold max (Ideal.ofBits .f32 0xFF800000#32) (fun j => y (chunk 0 j))))
            ((Finset.univ : Finset (Fin 2048)).fold max (Ideal.ofBits .f32 0xFF800000#32) (fun j => y (chunk 1 j))))
            ((Finset.univ : Finset (Fin 2048)).fold max (Ideal.ofBits .f32 0xFF800000#32) (fun j => y (chunk 2 j))))
            ((Finset.univ : Finset (Fin 2048)).fold max (Ideal.ofBits .f32 0xFF800000#32) (fun j => y (chunk 3 j))) := by
  rw [word_ninf, Ideal.ofBits_zero_f32]
  have hle : ∀ k j, y (chunk k j) ≤ (Finset.univ : Finset (Fin 8192)).fold max ⊥ y := fun k j =>
    (Finset.le_fold_max _).2 (Or.inr ⟨chunk k j, Finset.mem_univ _, le_rfl⟩)
  have hM : ∀ k, (Finset.univ : Finset (Fin 2048)).fold max ⊥ (fun j => y (chunk k j))
      ≤ (Finset.univ : Finset (Fin 8192)).fold max ⊥ y := fun k =>
    (Finset.fold_max_le _).2 ⟨bot_le, fun j _ => hle k j⟩
  refine le_antisymm ((Finset.fold_max_le _).2 ⟨bot_le, fun f _ => ?_⟩) ?_
  · obtain ⟨k, j, rfl⟩ := chunk_surj f
    have hj : y (chunk k j) ≤ (Finset.univ : Finset (Fin 2048)).fold max ⊥ (fun j => y (chunk k j)) :=
      (Finset.le_fold_max _).2 (Or.inr ⟨j, Finset.mem_univ _, le_rfl⟩)
    refine hj.trans ?_
    have h4 : ∀ k : Fin 4, k = 0 ∨ k = 1 ∨ k = 2 ∨ k = 3 := by decide
    rcases h4 k with rfl | rfl | rfl | rfl
    · exact le_max_of_le_left (le_max_of_le_left (le_max_of_le_left (le_max_right _ _)))
    · exact le_max_of_le_left (le_max_of_le_left (le_max_right _ _))
    · exact le_max_of_le_left (le_max_right _ _)
    · exact le_max_right _ _
  · exact max_le (max_le (max_le (max_le ((hy (chunk 0 0)).trans (hle 0 0)) (hM 0)) (hM 1)) (hM 2)) (hM 3)

/-- (d) Adding to the zero word changes nothing. -/
theorem zero_word_add (s : EReal) : Ideal.ofBits .f32 0x00000000#32 + s = s := by
  rw [Ideal.ofBits_zero_f32, zero_add]

end Cert.Spec
-- ==== Proof.PayMatmul.lean ====
/- The two matrix products of the kernel bodies, read at an index at the ideal values: each contracts the second axis of
   both operands, so entry (a, b) is the sum over d of lhs (a, d) * rhs (b, d); and the two payloads built from them — the
   gated product silu(q·wgᵀ) * (q·wuᵀ) of the first region and the plain product of the second. -/
import proofs.«170583_j85718957293662_2_alg».proof.Proof.Gen.KernelIdeal.Skeleton
import proofs.«170583_j85718957293662_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Payloads

open Cert.KernelIdeal Cert.KernelIdeal.Gen
open Idealize.ShloMosaic Idealize.ShloMosaic.ValueIdx

/-- The dimension numbers of the first region's products (512×2048 against 512×2048) and of the second's (256×8192 against 256×8192). -/
abbrev D0 : DotDims S512x2048 S512x2048 S512x512 := dot_S512x2048_S512x2048_S512x512_1_1_0_0_n_n
abbrev D1 : DotDims S256x8192 S256x8192 S256x256 := dot_S256x8192_S256x8192_S256x256_1_1_0_0_n_n

/-! ## The operand indices of the first region's product -/

theorem d0_lhs0 (i : S512x512.Idx) (q : D0.contr.Idx) : (D0.lhsIdx i q 0).val = (i 0).val := by
  unfold DotDims.lhsIdx
  rw [dif_neg (show ¬(0 : Fin S512x2048.rank) ∈ D0.lhsBatch by decide), dif_pos (show (0 : Fin S512x2048.rank) ∈ D0.lhsNonContracting by decide)]
  rfl
theorem d0_lhs1 (i : S512x512.Idx) (q : D0.contr.Idx) : (D0.lhsIdx i q 1).val = (q ⟨0, by decide⟩).val :=
  D0.lhsIdx_val_of_single rfl i q
theorem d0_rhs0 (i : S512x512.Idx) (q : D0.contr.Idx) : (D0.rhsIdx i q 0).val = (i 1).val := by
  unfold DotDims.rhsIdx
  rw [dif_neg (show ¬(0 : Fin S512x2048.rank) ∈ D0.rhsBatch by decide), dif_pos (show (0 : Fin S512x2048.rank) ∈ D0.rhsNonContracting by decide)]
  rfl
theorem d0_rhs1 (i : S512x512.Idx) (q : D0.contr.Idx) : (D0.rhsIdx i q 1).val = (q ⟨0, by decide⟩).val :=
  D0.rhsIdx_val_of_single rfl i q

/-- The first region's product into the zero accumulator, at (a, b). -/
theorem matmul512_apply (l r : FVec Ideal S512x2048 .bf16) (a b : Fin 512) :
    matmul D0 none l r (constant (F := Ideal) S512x512 .f32 0x00000000#32) (ix2 a b)
      = ∑ d : Fin 2048, l (ix2 a d) * r (ix2 b d) := by
  show FloatOps.matmul D0 none l r (constant (F := Ideal) S512x512 .f32 0x00000000#32) (ix2 a b) = _
  rw [Ideal.matmul_constant_zero_apply, ← Equiv.sum_comp (contrEquiv1 D0 2048 rfl rfl).symm]
  refine Finset.sum_congr rfl fun k _ => ?_
  have hk := contrEquiv1_symm_val D0 2048 rfl rfl k
  have el : D0.lhsIdx (ix2 a b) ((contrEquiv1 D0 2048 rfl rfl).symm k) = ix2 a k := funext fun d => Fin.ext (by
    match d with
    | ⟨0, _⟩ => exact d0_lhs0 _ _
    | ⟨1, _⟩ => exact (d0_lhs1 _ _).trans hk)
  have er : D0.rhsIdx (ix2 a b) ((contrEquiv1 D0 2048 rfl rfl).symm k) = ix2 b k := funext fun d => Fin.ext (by
    match d with
    | ⟨0, _⟩ => exact d0_rhs0 _ _
    | ⟨1, _⟩ => exact (d0_rhs1 _ _).trans hk)
  rw [el, er]

/-! ## The operand indices of the second region's product -/

theorem d1_lhs0 (i : S256x256.Idx) (q : D1.contr.Idx) : (D1.lhsIdx i q 0).val = (i 0).val := by
  unfold DotDims.lhsIdx
  rw [dif_neg (show ¬(0 : Fin S256x8192.rank) ∈ D1.lhsBatch by decide), dif_pos (show (0 : Fin S256x8192.rank) ∈ D1.lhsNonContracting by decide)]
  rfl
theorem d1_lhs1 (i : S256x256.Idx) (q : D1.contr.Idx) : (D1.lhsIdx i q 1).val = (q ⟨0, by decide⟩).val :=
  D1.lhsIdx_val_of_single rfl i q
theorem d1_rhs0 (i : S256x256.Idx) (q : D1.contr.Idx) : (D1.rhsIdx i q 0).val = (i 1).val := by
  unfold DotDims.rhsIdx
  rw [dif_neg (show ¬(0 : Fin S256x8192.rank) ∈ D1.rhsBatch by decide), dif_pos (show (0 : Fin S256x8192.rank) ∈ D1.rhsNonContracting by decide)]
  rfl
theorem d1_rhs1 (i : S256x256.Idx) (q : D1.contr.Idx) : (D1.rhsIdx i q 1).val = (q ⟨0, by decide⟩).val :=
  D1.rhsIdx_val_of_single rfl i q

/-- The second region's product into the zero accumulator, at (a, b). -/
theorem matmul256_apply (l r : FVec Ideal S256x8192 .bf16) (a b : Fin 256) :
    matmul D1 none l r (constant (F := Ideal) S256x256 .f32 0x00000000#32) (ix2 a b)
      = ∑ f : Fin 8192, l (ix2 a f) * r (ix2 b f) := by
  show FloatOps.matmul D1 none l r (constant (F := Ideal) S256x256 .f32 0x00000000#32) (ix2 a b) = _
  rw [Ideal.matmul_constant_zero_apply, ← Equiv.sum_comp (contrEquiv1 D1 8192 rfl rfl).symm]
  refine Finset.sum_congr rfl fun k _ => ?_
  have hk := contrEquiv1_symm_val D1 8192 rfl rfl k
  have el : D1.lhsIdx (ix2 a b) ((contrEquiv1 D1 8192 rfl rfl).symm k) = ix2 a k := funext fun d => Fin.ext (by
    match d with
    | ⟨0, _⟩ => exact d1_lhs0 _ _
    | ⟨1, _⟩ => exact (d1_lhs1 _ _).trans hk)
  have er : D1.rhsIdx (ix2 a b) ((contrEquiv1 D1 8192 rfl rfl).symm k) = ix2 b k := funext fun d => Fin.ext (by
    match d with
    | ⟨0, _⟩ => exact d1_rhs0 _ _
    | ⟨1, _⟩ => exact (d1_rhs1 _ _).trans hk)
  rw [el, er]

/-! ## The two payloads -/

/-- The first region's output tile at (a, b): silu of the gate product times the up product. -/
theorem k0_pay2_apply (q x1 x2 : Vec Ideal S512x2048 .bf16) (a b : Fin 512) :
    k0_pay2 q x1 x2 (ix2 a b)
      = Cert.Spec.silu (∑ d : Fin 2048, q (ix2 a d) * x1 (ix2 b d)) * (∑ d : Fin 2048, q (ix2 a d) * x2 (ix2 b d)) := by
  unfold k0_pay2
  simp only [shapeCast_self]
  show (matmul D0 none q x1 (constant (F := Ideal) S512x512 .f32 0x00000000#32) (ix2 a b)
      * Ideal.logistic (matmul D0 none q x1 (constant (F := Ideal) S512x512 .f32 0x00000000#32) (ix2 a b)))
      * matmul D0 none q x2 (constant (F := Ideal) S512x512 .f32 0x00000000#32) (ix2 a b) = _
  rw [matmul512_apply q x1 a b, matmul512_apply q x2 a b]
  rfl

/-- The second region's output tile at (a, b): the product of the quantized rows with the weight rows. -/
theorem k1_pay2_apply (q x1 : Vec Ideal S256x8192 .bf16) (a b : Fin 256) :
    k1_pay2 q x1 (ix2 a b) = ∑ f : Fin 8192, q (ix2 a f) * x1 (ix2 b f) := by
  unfold k1_pay2
  simp only [shapeCast_self]
  exact matmul256_apply q x1 a b

end Cert.KernelIdeal.Payloads

end
-- ==== Proof.KernelSpec.lean ====
/- The kernel program's result, read at an index at the ideal values, is the specification: the final reshape sends (b, s, n) to
   row 2048·b + s; the down-projection tile at (r, n) is the product of the quantized hidden row r with the quantized weight row n;
   the hidden row r is silu(gate)·up of the quantized token row r; the token rows are the flattened token array's. The tiles'
   block arithmetic (a row r is row r mod 256 of block r / 256, and so on) cancels. The three payload readings — the row
   quantization of a 512×2048 block, of a 256×8192 block in four chunks, and the weight quantization — are taken as hypotheses here and
   supplied where the pieces are assembled. -/
import proofs.«170583_j85718957293662_2_alg».proof.Proof.KernelValue
import proofs.«170583_j85718957293662_2_alg».proof.Proof.HostPrelude
import proofs.«170583_j85718957293662_2_alg».proof.Proof.PayMatmul
import proofs.«170583_j85718957293662_2_alg».proof.Proof.Spec
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen
open Idealize.ShloMosaic Idealize.ShloMosaic.ValueIdx

/-- A token row of the [2, 2048, 2048] token array: row r is (r / 2048, r mod 2048). -/
def tokRow (x0 : S2x2048x2048.Idx → Elt Ideal .f32) (r : Fin 4096) (d : Fin 2048) : EReal :=
  x0 (ix3 (⟨r.val / 2048, by have := r.isLt; omega⟩ : Fin 2) (⟨r.val % 2048, Nat.mod_lt _ (by decide)⟩ : Fin 2048) d)

/-! ## The tiles' block arithmetic cancels -/

theorem rowsH_at (H : S4096x8192.Idx → Elt Ideal .f32) (r : Fin 4096) (f : Fin 8192) :
    Down.rowsH H (r.val / 256) (ix2 (⟨r.val % 256, Nat.mod_lt _ (by decide)⟩ : Fin 256) f) = H (ix2 r f) := by
  show H (ix2 (⟨(256 * (r.val / 256) + r.val % 256) % 4096, _⟩ : Fin 4096) (⟨f.val % 8192, _⟩ : Fin 8192)) = H (ix2 r f)
  have e1 : (⟨(256 * (r.val / 256) + r.val % 256) % 4096, Nat.mod_lt _ (by decide)⟩ : Fin 4096) = r :=
    Fin.ext (by show (256 * (r.val / 256) + r.val % 256) % 4096 = r.val; have := r.isLt; omega)
  have e2 : (⟨f.val % 8192, Nat.mod_lt _ (by decide)⟩ : Fin 8192) = f := Fin.ext (by show f.val % 8192 = f.val; have := f.isLt; omega)
  rw [e1, e2]
theorem rowsD_at (W : S2048x8192.Idx → Elt Ideal .bf16) (n : Fin 2048) (f : Fin 8192) :
    Down.rowsD W (n.val / 256) (ix2 (⟨n.val % 256, Nat.mod_lt _ (by decide)⟩ : Fin 256) f) = W (ix2 n f) := by
  show W (ix2 (⟨(256 * (n.val / 256) + n.val % 256) % 2048, _⟩ : Fin 2048) (⟨f.val % 8192, _⟩ : Fin 8192)) = W (ix2 n f)
  have e1 : (⟨(256 * (n.val / 256) + n.val % 256) % 2048, Nat.mod_lt _ (by decide)⟩ : Fin 2048) = n :=
    Fin.ext (by show (256 * (n.val / 256) + n.val % 256) % 2048 = n.val; have := n.isLt; omega)
  have e2 : (⟨f.val % 8192, Nat.mod_lt _ (by decide)⟩ : Fin 8192) = f := Fin.ext (by show f.val % 8192 = f.val; have := f.isLt; omega)
  rw [e1, e2]
theorem rowsX_at (X : S4096x2048.Idx → Elt Ideal .f32) (r : Fin 4096) (d : Fin 2048) :
    GateUp.rowsX X (r.val / 512) (ix2 (⟨r.val % 512, Nat.mod_lt _ (by decide)⟩ : Fin 512) d) = X (ix2 r d) := by
  show X (ix2 (⟨(512 * (r.val / 512) + r.val % 512) % 4096, _⟩ : Fin 4096) (⟨d.val % 2048, _⟩ : Fin 2048)) = X (ix2 r d)
  have e1 : (⟨(512 * (r.val / 512) + r.val % 512) % 4096, Nat.mod_lt _ (by decide)⟩ : Fin 4096) = r :=
    Fin.ext (by show (512 * (r.val / 512) + r.val % 512) % 4096 = r.val; have := r.isLt; omega)
  have e2 : (⟨d.val % 2048, Nat.mod_lt _ (by decide)⟩ : Fin 2048) = d := Fin.ext (by show d.val % 2048 = d.val; have := d.isLt; omega)
  rw [e1, e2]
theorem rowsW_at (W : S8192x2048.Idx → Elt Ideal .bf16) (f : Fin 8192) (d : Fin 2048) :
    GateUp.rowsW W (f.val / 512) (ix2 (⟨f.val % 512, Nat.mod_lt _ (by decide)⟩ : Fin 512) d) = W (ix2 f d) := by
  show W (ix2 (⟨(512 * (f.val / 512) + f.val % 512) % 8192, _⟩ : Fin 8192) (⟨d.val % 2048, _⟩ : Fin 2048)) = W (ix2 f d)
  have e1 : (⟨(512 * (f.val / 512) + f.val % 512) % 8192, Nat.mod_lt _ (by decide)⟩ : Fin 8192) = f :=
    Fin.ext (by show (512 * (f.val / 512) + f.val % 512) % 8192 = f.val; have := f.isLt; omega)
  have e2 : (⟨d.val % 2048, Nat.mod_lt _ (by decide)⟩ : Fin 2048) = d := Fin.ext (by show d.val % 2048 = d.val; have := d.isLt; omega)
  rw [e1, e2]

/-! ## The two reshapes -/

/-- The flattened token array at row r. -/
theorem flat_apply (x0 : S2x2048x2048.Idx → Elt Ideal .f32) (r : Fin 4096) (d : Fin 2048) :
    shapeCast S4096x2048 x0 shapeCasts_S2x2048x2048_S4096x2048 (ix2 r d) = tokRow x0 r d := by
  unfold tokRow
  refine shapeCast_apply x0 _ _ _ ?_
  rw [Shape.rowMajor_val_three, Shape.rowMajor_val_two]
  show ((r.val / 2048) * 2048 + r.val % 2048) * 2048 + d.val = r.val * 2048 + d.val
  have := r.isLt; omega
/-- The result reshaped back: (b, s, n) is row 2048·b + s, column n. -/
theorem unflat_apply (Y : S4096x2048.Idx → Elt Ideal .f32) (i : S2x2048x2048.Idx) :
    shapeCast S2x2048x2048 Y shapeCasts_S4096x2048_S2x2048x2048 i
      = Y (ix2 (⟨(i 0).val * 2048 + (i 1).val, by have h0 : (i 0).val < 2 := (i 0).isLt; have h1 : (i 1).val < 2048 := (i 1).isLt; omega⟩ : Fin 4096) (⟨(i 2).val, (i 2).isLt⟩ : Fin 2048)) := by
  refine shapeCast_apply Y _ _ _ ?_
  rw [Shape.rowMajor_val_three, Shape.rowMajor_val_two]
  rfl

/-! ## The result at an index -/

/-- The two arrays at an index, by definition: the tile's payload at the index inside the tile. -/
theorem result_at (H : S4096x8192.Idx → Elt Ideal .f32) (Wd : S2048x8192.Idx → Elt Ideal .bf16) (r : Fin 4096) (n : Fin 2048) :
    Down.result H Wd (ix2 r n)
      = Down.proj (Down.hquant (Down.rowsH H (r.val / 256))) (Down.rowsD Wd (n.val / 256))
          (ix2 (⟨r.val % 256, Nat.mod_lt _ (by decide)⟩ : Fin 256) (⟨n.val % 256, Nat.mod_lt _ (by decide)⟩ : Fin 256)) := rfl
theorem hidden_at (X : S4096x2048.Idx → Elt Ideal .f32) (Wg Wu : S8192x2048.Idx → Elt Ideal .bf16) (r : Fin 4096) (f : Fin 8192) :
    GateUp.hidden X Wg Wu (ix2 r f)
      = GateUp.gated (GateUp.quant (GateUp.rowsX X (r.val / 512))) (GateUp.rowsW Wg (f.val / 512)) (GateUp.rowsW Wu (f.val / 512))
          (ix2 (⟨r.val % 512, Nat.mod_lt _ (by decide)⟩ : Fin 512) (⟨f.val % 512, Nat.mod_lt _ (by decide)⟩ : Fin 512)) := rfl

section
variable
  (hQuant : ∀ (x : Vec Ideal S512x2048 .f32) (a : Fin 512) (d : Fin 2048),
    GateUp.quant x (ix2 a d) = Cert.Spec.aq (Ideal.ofBits .f32 0x45000000#32) (fun d' => x (ix2 a d')) d)
  (hHQuant : ∀ (x : Vec Ideal S256x8192 .f32) (a : Fin 256) (f : Fin 8192),
    Down.hquant x (ix2 a f) = Cert.Spec.aq (Ideal.ofBits .f32 0x46000000#32) (fun f' => x (ix2 a f')) f)
  (hWA : ∀ (w : S8192x2048.Idx → Elt Ideal .f32) (f : Fin 8192) (d : Fin 2048),
    wquantA w (ix2 f d) = Cert.Spec.wq (Ideal.ofBits .f32 0x4B800000#32) (fun f d => w (ix2 f d)) f d)
  (hWB : ∀ (w : S2048x8192.Idx → Elt Ideal .f32) (n : Fin 2048) (f : Fin 8192),
    wquantB w (ix2 n f) = Cert.Spec.wq (Ideal.ofBits .f32 0x4B800000#32) (fun n f => w (ix2 n f)) n f)

include hQuant hWA in
/-- The hidden array over the flattened tokens and the quantized gate and up weights, at (r, f). -/
theorem hidden_apply (x0 : S2x2048x2048.Idx → Elt Ideal .f32) (w1 w2 : S8192x2048.Idx → Elt Ideal .f32) (r : Fin 4096) (f : Fin 8192) :
    GateUp.hidden (shapeCast S4096x2048 x0 shapeCasts_S2x2048x2048_S4096x2048) (wquantA w1) (wquantA w2) (ix2 r f)
      = Cert.Spec.hid (tokRow x0) (fun f d => w1 (ix2 f d)) (fun f d => w2 (ix2 f d)) r f := by
  rw [hidden_at]
  unfold GateUp.gated
  rw [Payloads.k0_pay2_apply]
  unfold Cert.Spec.hid Cert.Spec.lin
  simp only [hQuant, rowsX_at, rowsW_at, hWA]
  have hf : (fun d' => shapeCast S4096x2048 x0 shapeCasts_S2x2048x2048_S4096x2048 (ix2 r d')) = tokRow x0 r :=
    funext fun d' => flat_apply x0 r d'
  rw [hf]

include hQuant hHQuant hWA hWB in
/-- THE KERNEL'S RESULT at an index is the specification. -/
theorem kval_apply (x0 : S2x2048x2048.Idx → Elt Ideal .f32) (w1 w2 : S8192x2048.Idx → Elt Ideal .f32) (w3 : S2048x8192.Idx → Elt Ideal .f32)
    (i : S2x2048x2048.Idx) :
    kval (F := Ideal) x0 (wquantA w1) (wquantA w2) (wquantB w3) i
      = Cert.Spec.out (tokRow x0) (fun f d => w1 (ix2 f d)) (fun f d => w2 (ix2 f d)) (fun n f => w3 (ix2 n f))
          (⟨(i 0).val * 2048 + (i 1).val, by have h0 : (i 0).val < 2 := (i 0).isLt; have h1 : (i 1).val < 2048 := (i 1).isLt; omega⟩ : Fin 4096) (⟨(i 2).val, (i 2).isLt⟩ : Fin 2048) := by
  unfold kval
  rw [unflat_apply]
  generalize (⟨(i 0).val * 2048 + (i 1).val, _⟩ : Fin 4096) = r
  generalize (⟨(i 2).val, (i 2).isLt⟩ : Fin 2048) = n
  have hHid : ∀ f', GateUp.hidden (shapeCast S4096x2048 x0 shapeCasts_S2x2048x2048_S4096x2048) (wquantA w1) (wquantA w2) (ix2 r f')
      = Cert.Spec.hid (tokRow x0) (fun f d => w1 (ix2 f d)) (fun f d => w2 (ix2 f d)) r f' :=
    fun f' => hidden_apply hQuant hWA x0 w1 w2 r f'
  have hWd : ∀ f, wquantB w3 (ix2 n f) = Cert.Spec.wq (Ideal.ofBits .f32 0x4B800000#32) (fun n f => w3 (ix2 n f)) n f :=
    fun f => hWB w3 n f
  generalize GateUp.hidden (shapeCast S4096x2048 x0 shapeCasts_S2x2048x2048_S4096x2048) (wquantA w1) (wquantA w2) = H at hHid ⊢
  generalize wquantB w3 = Wd at hWd ⊢
  rw [result_at]
  unfold Down.proj
  rw [Payloads.k1_pay2_apply]
  unfold Cert.Spec.out Cert.Spec.lin
  refine Finset.sum_congr rfl fun f _ => ?_
  rw [hHQuant, rowsD_at, hWd]
  refine congrArg (· * _) ?_
  refine congrFun (congrArg _ ?_) f
  funext f'
  rw [rowsH_at]
  exact hHid f'

end

end Cert.KernelIdeal.Whole

end
-- ==== Proof.HostMax.lean ====
/-
  The host's maximum over the last axis of a rank-3 array, read at a row: the fold of max, from the initial value, over
  the row's entries.
-/
import Idealize.ShloMosaic.PureOps.Ideal
import Idealize.ShloMosaic.PureOps.Ideal.Laws
import Idealize.ShloMosaic.PureOps.Reduce
import Idealize.ShloMosaic.Lib.ValueIdx

noncomputable section

namespace Cert.RefSpec

open Idealize.ShloMosaic Idealize.ShloMosaic.ValueIdx

/-- The row index (b, s) with the entry's position put back on the last axis is (b, s, k). -/
theorem lift_last3 {B S D : Nat} (h : (⟨3, ![B, S, D]⟩ : Shape).Reduces [2] (⟨2, ![B, S]⟩ : Shape)) (b : Fin B) (s : Fin S)
    (k : Fin ((⟨3, ![B, S, D]⟩ : Shape).size 2)) : h.lift (ix2 b s) k = ix3 b s (⟨k.val, k.isLt⟩ : Fin D) := by
  funext c; apply Fin.ext
  fin_cases c <;> rfl

/-- The host's reduce with a maximum body over the last axis of a rank-3 array of ideal values, at row (b, s). -/
theorem hostMax3_apply {B S D : Nat} (x : FVec Ideal ⟨3, ![B, S, D]⟩ .f32) (init : FVec Ideal ⟨0, ![]⟩ .f32)
    (h' : (⟨3, ![B, S, D]⟩ : Shape).ReducesTo [2] (⟨2, ![B, S]⟩ : Shape))
    (h : (⟨3, ![B, S, D]⟩ : Shape).Reduces [2] (⟨2, ![B, S]⟩ : Shape)) (hu : 0 < (⟨0, ![]⟩ : Shape).numel)
    (b : Fin B) (s : Fin S) :
    Host.reduce FloatOps.maximumf x init h' hu (ix2 b s)
      = (Finset.univ : Finset (Fin D)).fold max (init (Shape.Idx.first hu)) (fun k => x (ix3 b s k)) := by
  rw [Host.reduce_eq_fold_single FloatOps.maximumf x init h' h hu]
  have hf : (x ∘ h.lift (ix2 b s)) = fun k : Fin D => x (ix3 b s k) :=
    funext fun k => congrArg x (lift_last3 h b s k)
  exact congrArg (fun f => Finset.fold max (init (Shape.Idx.first hu)) f (Finset.univ : Finset (Fin D))) hf

end Cert.RefSpec
-- ==== Proof.RefWa.lean ====
/-
  The reference's quantisation of the gate weight matrix, read at an index: the printed operations, chained, are
  the specification's scale (one over the mean magnitude, kept above the small constant) and the quantised entry in
  the straight-through spelling  w + (wq - w). The sum over the whole matrix is re-indexed by its two coordinates.
-/
import proofs.«170583_j85718957293662_2_alg».proof.Proof.RefRead
import proofs.«170583_j85718957293662_2_alg».proof.Proof.Spec
import proofs.«170583_j85718957293662_2_alg».proof.Proof.HostMax

noncomputable section

namespace Cert.RefSpec

open Cert.ReferenceIdeal Cert.ReferenceIdeal.Gen Cert.ReferenceIdeal.ReadP Idealize.ShloMosaic Idealize.ShloMosaic.ValueIdx

/-- The matrix's scale, at the scalar's one index. -/
theorem wa_ws (x1 : (⟨S8192x2048, .f32⟩ : BufTy).Contents (Elt Ideal)) (j : S_.Idx) :
    val_main_v28 (F := Ideal) x1 j = Spec.ws (Ideal.ofBits .f32 0x4B800000#32) (fun f d => x1 (ix2 f d)) := by
  rw [val_main_v28_apply, val_main_cst_10_apply, val_main_v27_apply, val_main_call3_v0_apply, val_main_cst_9_apply, val_main_v26_apply, val_main_v25_apply,
    val_main_cst_7_apply, val_main_cst_8_apply]
  simp only [val_main_v24_apply, Ideal.hostDivf_def, Ideal.maximumf_def, Ideal.hostAbsf_def, Ideal.absf_def, Ideal.ofBits_def]
  rw [Spec.zero_word_add, sum_idx2]
  rfl

/-- The quantised matrix, read at (f, d). -/
theorem wa_q (x1 : (⟨S8192x2048, .f32⟩ : BufTy).Contents (Elt Ideal)) (f : Fin 8192) (d : Fin 2048) :
    val_main_v34 (F := Ideal) x1 (ix2 f d) = Spec.wq (Ideal.ofBits .f32 0x4B800000#32) (fun f d => x1 (ix2 f d)) f d := by
  rw [val_main_v34_apply, val_main_v32_apply, val_main_v31_apply, val_main_call4_v4_apply, val_main_call4_v3_apply, val_main_cst_12_apply,
    val_main_call4_v2_apply, val_main_call4_v1_apply, val_main_call4_v0_apply, val_main_cst_11_apply, val_main_v30_apply, val_main_v29_apply, val_main_v33_apply]
  simp only [wa_ws, Ideal.hostDivf_def, Ideal.hostUnary_roundeven_def, Ideal.minimumf_def, Ideal.maximumf_def, Ideal.mulf_def, Ideal.ofBits_def]
  rfl

/-- The quantised matrix in the straight-through spelling, read at (f, d). -/
theorem wa_ste (x1 : (⟨S8192x2048, .f32⟩ : BufTy).Contents (Elt Ideal)) (f : Fin 8192) (d : Fin 2048) :
    val_main_v36 (F := Ideal) x1 (ix2 f d)
      = x1 (ix2 f d) + (Spec.wq (Ideal.ofBits .f32 0x4B800000#32) (fun f d => x1 (ix2 f d)) f d - x1 (ix2 f d)) := by
  rw [val_main_v36_apply, val_main_v35_apply, wa_q]
  rfl

end Cert.RefSpec
-- ==== Proof.RefWc.lean ====
/-
  The reference's quantisation of the down weight matrix, read at an index: the printed operations, chained, are
  the specification's scale (one over the mean magnitude, kept above the small constant) and the quantised entry in
  the straight-through spelling  w + (wq - w). The sum over the whole matrix is re-indexed by its two coordinates.
-/
import proofs.«170583_j85718957293662_2_alg».proof.Proof.RefRead
import proofs.«170583_j85718957293662_2_alg».proof.Proof.Spec
import proofs.«170583_j85718957293662_2_alg».proof.Proof.HostMax

noncomputable section

namespace Cert.RefSpec

open Cert.ReferenceIdeal Cert.ReferenceIdeal.Gen Cert.ReferenceIdeal.ReadP Idealize.ShloMosaic Idealize.ShloMosaic.ValueIdx

/-- The matrix's scale, at the scalar's one index. -/
theorem wc_ws (x3 : (⟨S2048x8192, .f32⟩ : BufTy).Contents (Elt Ideal)) (j : S_.Idx) :
    val_main_v106 (F := Ideal) x3 j = Spec.ws (Ideal.ofBits .f32 0x4B800000#32) (fun f d => x3 (ix2 f d)) := by
  rw [val_main_v106_apply, val_main_cst_38_apply, val_main_v105_apply, val_main_call16_v0_apply, val_main_cst_37_apply, val_main_v104_apply, val_main_v103_apply,
    val_main_cst_35_apply, val_main_cst_36_apply]
  simp only [val_main_v102_apply, Ideal.hostDivf_def, Ideal.maximumf_def, Ideal.hostAbsf_def, Ideal.absf_def, Ideal.ofBits_def]
  rw [Spec.zero_word_add, sum_idx2]
  rfl

/-- The quantised matrix, read at (f, d). -/
theorem wc_q (x3 : (⟨S2048x8192, .f32⟩ : BufTy).Contents (Elt Ideal)) (f : Fin 2048) (d : Fin 8192) :
    val_main_v112 (F := Ideal) x3 (ix2 f d) = Spec.wq (Ideal.ofBits .f32 0x4B800000#32) (fun f d => x3 (ix2 f d)) f d := by
  rw [val_main_v112_apply, val_main_v110_apply, val_main_v109_apply, val_main_call17_v4_apply, val_main_call17_v3_apply, val_main_cst_40_apply,
    val_main_call17_v2_apply, val_main_call17_v1_apply, val_main_call17_v0_apply, val_main_cst_39_apply, val_main_v108_apply, val_main_v107_apply, val_main_v111_apply]
  simp only [wc_ws, Ideal.hostDivf_def, Ideal.hostUnary_roundeven_def, Ideal.minimumf_def, Ideal.maximumf_def, Ideal.mulf_def, Ideal.ofBits_def]
  rfl

/-- The quantised matrix in the straight-through spelling, read at (f, d). -/
theorem wc_ste (x3 : (⟨S2048x8192, .f32⟩ : BufTy).Contents (Elt Ideal)) (f : Fin 2048) (d : Fin 8192) :
    val_main_v114 (F := Ideal) x3 (ix2 f d)
      = x3 (ix2 f d) + (Spec.wq (Ideal.ofBits .f32 0x4B800000#32) (fun f d => x3 (ix2 f d)) f d - x3 (ix2 f d)) := by
  rw [val_main_v114_apply, val_main_v113_apply, wc_q]
  rfl

end Cert.RefSpec
-- ==== Proof.WeightSpec.lean ====
/- The kernel program's quantized weights, read at an index at the ideal values, are the specification's: the host prelude's
   operations are those of the reference's weight quantization before its straight-through step, and a change of float format is the
   identity at the ideal values. -/
import proofs.«170583_j85718957293662_2_alg».proof.Proof.HostPrelude
import proofs.«170583_j85718957293662_2_alg».proof.Proof.RefWa
import proofs.«170583_j85718957293662_2_alg».proof.Proof.RefWc

set_option maxRecDepth 16384

noncomputable section

namespace Cert.KernelIdeal.Whole

open Idealize.ShloMosaic Idealize.ShloMosaic.ValueIdx

/-- A quantized 8192×2048 weight matrix at (f, d). -/
theorem wquantA_apply (w : Cert.KernelIdeal.S8192x2048.Idx → Elt Ideal .f32) (f : Fin 8192) (d : Fin 2048) :
    wquantA (F := Ideal) w (ix2 f d) = Cert.Spec.wq (Ideal.ofBits .f32 0x4B800000#32) (fun f d => w (ix2 f d)) f d :=
  (show wquantA (F := Ideal) w (ix2 f d) = Cert.ReferenceIdeal.ReadP.val_main_v34 (F := Ideal) w (ix2 f d) from rfl).trans
    (Cert.RefSpec.wa_q w f d)

/-- The quantized 2048×8192 weight matrix at (n, f). -/
theorem wquantB_apply (w : Cert.KernelIdeal.S2048x8192.Idx → Elt Ideal .f32) (n : Fin 2048) (f : Fin 8192) :
    wquantB (F := Ideal) w (ix2 n f) = Cert.Spec.wq (Ideal.ofBits .f32 0x4B800000#32) (fun n f => w (ix2 n f)) n f :=
  (show wquantB (F := Ideal) w (ix2 n f) = Cert.ReferenceIdeal.ReadP.val_main_v112 (F := Ideal) w (ix2 n f) from rfl).trans
    (Cert.RefSpec.wc_q w n f)

end Cert.KernelIdeal.Whole

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«170583_j85718957293662_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.PayQuant.lean ====
/- The first region's quantization payload, read at an index at the ideal values: entry (a, d) of the quantized 512×2048
   block is the specification's quantized row a at position d. The payload is cut into its three stages — the column of
   the rows' normalisers, the normalised block, the column of the rows' scales — and each is read at an index. -/
import proofs.«170583_j85718957293662_2_alg».proof.Proof.Gen.KernelIdeal.Skeleton
import proofs.«170583_j85718957293662_2_alg».proof.Proof.Spec
import proofs.«170583_j85718957293662_2_alg».proof.Proof.LibKeepdims
import proofs.«170583_j85718957293662_2_alg».proof.Proof.LibSoftmaxRows
import Idealize.ShloMosaic.PureOps.Ideal.Laws
import Idealize.ShloMosaic.Lib.ValueIdx
import Idealize.ShloMosaic.Lib.Pipeline.Value

noncomputable section

open scoped BigOperators

namespace Cert.KernelIdeal.Payloads

open Cert.KernelIdeal Cert.KernelIdeal.Gen
open Idealize.ShloMosaic Idealize.ShloMosaic.ValueIdx

/-- Rounding to the nearest integer, ties to even, at an index. -/
theorem roundeven_apply {s : Shape} {φ : FTy} (v : FVec Ideal s φ) (i : s.Idx) :
    roundeven v i = Ideal.liftRound Ideal.roundHalfEven (v i) := rfl

/-- The column of the rows' normalisers: the reciprocal root of each row's mean square plus the small constant. -/
def rrCol0 (x : FVec Ideal S512x2048 .f32) : FVec Ideal S512x1 .f32 :=
  rsqrt (addf (divf (shapeCast S512x1 (multiReduction .add [1] S512 (mulf x x) 0x00000000#32 reduces_S512x2048_S512 (.inl rfl) rfl) shapeCasts_S512_S512x1)
    (broadcast S512x1 (FloatOps.ofBits (F := Ideal) .f32 0x45000000#32))) (broadcast S512x1 (FloatOps.ofBits (F := Ideal) .f32 0x358637BD#32)))

/-- The normalised block. -/
def xnBlk0 (x : FVec Ideal S512x2048 .f32) : FVec Ideal S512x2048 .f32 :=
  mulf x (broadcastTo S512x2048 (rrCol0 x) broadcasts_S512x1_S512x2048)

/-- The column of the rows' scales: 127 over the row's largest normalised magnitude, kept above the small constant. -/
def scCol0 (x : FVec Ideal S512x2048 .f32) : FVec Ideal S512x1 .f32 :=
  divf (broadcast S512x1 (FloatOps.ofBits (F := Ideal) .f32 0x42FE0000#32))
    (maximumf (broadcast S512x1 (FloatOps.ofBits (F := Ideal) .f32 0x3727C5AC#32))
      (shapeCast S512x1 (multiReduction .maximumf [1] S512 (absf (xnBlk0 x)) 0xFF800000#32 reduces_S512x2048_S512 (.inl rfl) rfl) shapeCasts_S512_S512x1))

/-- The payload is: scale, clamp, round, scale back, narrow. -/
theorem k0_pay1_eq (x : Vec Ideal S512x2048 .f32) :
    k0_pay1 x = truncf .bf16 (divf (roundeven (minimumf (broadcast S512x2048 (FloatOps.ofBits (F := Ideal) .f32 0x42FE0000#32))
        (maximumf (broadcast S512x2048 (FloatOps.ofBits (F := Ideal) .f32 0xC3000000#32))
          (mulf (xnBlk0 x) (broadcastTo S512x2048 (scCol0 x) broadcasts_S512x1_S512x2048)))))
        (broadcastTo S512x2048 (scCol0 x) broadcasts_S512x1_S512x2048)) bitsLt_bf16_f32 := by
  unfold k0_pay1
  simp only [shapeCast_self]
  rfl

/-- The normaliser of row a. -/
theorem rrCol0_apply (x : FVec Ideal S512x2048 .f32) (a : Fin 512) (z : Fin 1) :
    rrCol0 x (ix2 a z) = Cert.Spec.rr (Ideal.ofBits .f32 0x45000000#32) (fun d' => x (ix2 a d')) := by
  have hs : shapeCast S512x1 (multiReduction .add [1] S512 (mulf x x) 0x00000000#32 reduces_S512x2048_S512 (.inl rfl) rfl) shapeCasts_S512_S512x1 (ix2 a z)
      = ∑ c : Fin 2048, x (ix2 a c) * x (ix2 a c) :=
    (Keepdims.cast_col_apply _ shapeCasts_S512_S512x1 a z).trans
      (Keepdims.rowSum2_apply (mulf x x) 0x00000000#32 reduces_S512x2048_S512 (.inl rfl) rfl a)
  show Ideal.rsqrt (Ideal.div (shapeCast S512x1 (multiReduction .add [1] S512 (mulf x x) 0x00000000#32 reduces_S512x2048_S512 (.inl rfl) rfl) shapeCasts_S512_S512x1 (ix2 a z))
      (Ideal.ofBits .f32 0x45000000#32) + Ideal.ofBits .f32 0x358637BD#32) = _
  rw [hs]
  rfl

/-- The normalised block at (a, c). -/
theorem xnBlk0_apply (x : FVec Ideal S512x2048 .f32) (a : Fin 512) (c : Fin 2048) :
    xnBlk0 x (ix2 a c) = Cert.Spec.xn (Ideal.ofBits .f32 0x45000000#32) (fun d' => x (ix2 a d')) c := by
  show x (ix2 a c) * broadcastTo S512x2048 (rrCol0 x) broadcasts_S512x1_S512x2048 (ix2 a c) = _
  rw [Keepdims.bcast_col_apply (rrCol0 x) broadcasts_S512x1_S512x2048 a c, rrCol0_apply x a 0]
  rfl

/-- The scale of row a. -/
theorem scCol0_apply (x : FVec Ideal S512x2048 .f32) (a : Fin 512) (z : Fin 1) :
    scCol0 x (ix2 a z) = Cert.Spec.sc (Ideal.ofBits .f32 0x45000000#32) (fun d' => x (ix2 a d')) := by
  have hm : shapeCast S512x1 (multiReduction .maximumf [1] S512 (absf (xnBlk0 x)) 0xFF800000#32 reduces_S512x2048_S512 (.inl rfl) rfl) shapeCasts_S512_S512x1 (ix2 a z)
      = Cert.Spec.amax (Ideal.ofBits .f32 0x45000000#32) (fun d' => x (ix2 a d')) :=
    (Keepdims.cast_col_apply _ shapeCasts_S512_S512x1 a z).trans
      ((SoftmaxRows.rowMax2_apply (absf (xnBlk0 x)) 0xFF800000#32 reduces_S512x2048_S512 (.inl rfl) rfl a).trans
        (Finset.fold_congr fun c _ => by
          show max (xnBlk0 x (ix2 a c)) (-(xnBlk0 x (ix2 a c))) = _
          rw [xnBlk0_apply x a c]))
  unfold scCol0
  rw [divf_apply, maximumf_apply, broadcast_apply, broadcast_apply, hm]
  rfl

/-- The quantized block at (a, d) is the specification's quantized row a at d. -/
theorem k0_pay1_apply (x : Vec Ideal S512x2048 .f32) (a : Fin 512) (d : Fin 2048) :
    k0_pay1 x (ix2 a d) = Cert.Spec.aq (Ideal.ofBits .f32 0x45000000#32) (fun d' => x (ix2 a d')) d := by
  rw [k0_pay1_eq, truncf_apply, divf_apply, roundeven_apply, minimumf_apply, maximumf_apply, mulf_apply, broadcast_apply, broadcast_apply,
    Keepdims.bcast_col_apply (scCol0 x) broadcasts_S512x1_S512x2048 a d, scCol0_apply x a 0, xnBlk0_apply x a d]
  rfl

end Cert.KernelIdeal.Payloads

end
-- ==== Proof.PayChunks.lean ====
/- The second region's quantization, stage by stage, read at an index at the ideal values. A row of 8192 entries is held
   as four chunks of 2048; the stages are stated over four blocks c0 … c3 of 256×2048 and a row v of 8192 entries with
   chunk k of row a of the blocks being chunk k of v. The sum of squares is accumulated chunk by chunk from the zero word,
   the largest magnitude as a running maximum from the zero word; both are the whole row's. -/
import proofs.«170583_j85718957293662_2_alg».proof.Proof.Gen.KernelIdeal.Skeleton
import proofs.«170583_j85718957293662_2_alg».proof.Proof.Spec
import proofs.«170583_j85718957293662_2_alg».proof.Proof.LibKeepdims
import proofs.«170583_j85718957293662_2_alg».proof.Proof.LibSoftmaxRows
import Idealize.ShloMosaic.PureOps.Ideal.Laws
import Idealize.ShloMosaic.Lib.ValueIdx
import Idealize.ShloMosaic.Lib.Pipeline.Value

noncomputable section

open scoped BigOperators

namespace Cert.KernelIdeal.Payloads

open Cert.KernelIdeal Cert.KernelIdeal.Gen
open Idealize.ShloMosaic Idealize.ShloMosaic.ValueIdx

/-- Rounding to the nearest integer, ties to even, at an index. -/
theorem roundeven_apply' {s : Shape} {φ : FTy} (u : FVec Ideal s φ) (i : s.Idx) :
    roundeven u i = Ideal.liftRound Ideal.roundHalfEven (u i) := rfl

/-- A magnitude at an index. -/
theorem absf_apply' {s : Shape} {φ : FTy} (u : FVec Ideal s φ) (i : s.Idx) : absf u i = max (u i) (-(u i)) := rfl

/-! ## The two reductions of a chunk, as columns -/

/-- The sum of squares of row a of a chunk. -/
theorem sumsqCol (c : FVec Ideal S256x2048 .f32) (a : Fin 256) (z : Fin 1) :
    shapeCast S256x1 (multiReduction .add [1] S256 (mulf c c) 0x00000000#32 reduces_S256x2048_S256 (.inl rfl) rfl) shapeCasts_S256_S256x1 (ix2 a z)
      = ∑ j : Fin 2048, c (ix2 a j) * c (ix2 a j) :=
  (Keepdims.cast_col_apply _ shapeCasts_S256_S256x1 a z).trans
    (Keepdims.rowSum2_apply (mulf c c) 0x00000000#32 reduces_S256x2048_S256 (.inl rfl) rfl a)

/-- The largest magnitude of row a of a chunk scaled by a column R, whatever the scaled entries are called. -/
theorem absmaxCol (c : FVec Ideal S256x2048 .f32) (R : FVec Ideal S256x1 .f32) (a : Fin 256) (z : Fin 1)
    (w : Fin 2048 → EReal) (hw : ∀ j, c (ix2 a j) * R (ix2 a 0) = w j) :
    shapeCast S256x1 (multiReduction .maximumf [1] S256 (absf (mulf c (broadcastTo S256x2048 R broadcasts_S256x1_S256x2048))) 0xFF800000#32
        reduces_S256x2048_S256 (.inl rfl) rfl) shapeCasts_S256_S256x1 (ix2 a z)
      = (Finset.univ : Finset (Fin 2048)).fold max (Ideal.ofBits .f32 0xFF800000#32) (fun j => max (w j) (-(w j))) :=
  by
  refine (Keepdims.cast_col_apply _ shapeCasts_S256_S256x1 a z).trans
    ((SoftmaxRows.rowMax2_apply (absf (mulf c (broadcastTo S256x2048 R broadcasts_S256x1_S256x2048))) 0xFF800000#32
      reduces_S256x2048_S256 (.inl rfl) rfl a).trans ?_)
  refine Finset.fold_congr fun j _ => ?_
  show absf (mulf c (broadcastTo S256x2048 R broadcasts_S256x1_S256x2048)) (ix2 a j) = _
  rw [absf_apply', mulf_apply, Keepdims.bcast_col_apply R broadcasts_S256x1_S256x2048 a j, hw j]

/-! ## The row's mean square, normaliser, largest magnitude and scale -/

section Row
variable (c0 c1 c2 c3 : Vec Ideal S256x2048 .f32) (v : Fin 8192 → EReal) (a : Fin 256) (z : Fin 1)

/-- The accumulated mean square plus the small constant: the whole row's. -/
theorem k1_pay3_apply (h0 : ∀ j, c0 (ix2 a j) = v (Cert.Spec.chunk 0 j)) (h1 : ∀ j, c1 (ix2 a j) = v (Cert.Spec.chunk 1 j))
    (h2 : ∀ j, c2 (ix2 a j) = v (Cert.Spec.chunk 2 j)) (h3 : ∀ j, c3 (ix2 a j) = v (Cert.Spec.chunk 3 j)) :
    k1_pay3 c0 c1 c2 c3 (ix2 a z)
      = Ideal.div (∑ f : Fin 8192, v f * v f) (Ideal.ofBits .f32 0x46000000#32) + Ideal.ofBits .f32 0x358637BD#32 := by
  unfold k1_pay3
  simp only [shapeCast_self, addf_apply, divf_apply, broadcast_apply, Ideal.ofBits_def]
  rw [sumsqCol c0 a z, sumsqCol c1 a z, sumsqCol c2 a z, sumsqCol c3 a z]
  simp only [h0, h1, h2, h3]
  rw [Cert.Spec.zero_word_add, ← Cert.Spec.sum_four_chunks (fun f => v f * v f), Cert.Spec.div_2048_div_4]

/-- The row's normaliser. -/
theorem rr_apply (h0 : ∀ j, c0 (ix2 a j) = v (Cert.Spec.chunk 0 j)) (h1 : ∀ j, c1 (ix2 a j) = v (Cert.Spec.chunk 1 j))
    (h2 : ∀ j, c2 (ix2 a j) = v (Cert.Spec.chunk 2 j)) (h3 : ∀ j, c3 (ix2 a j) = v (Cert.Spec.chunk 3 j)) :
    k1_pay4 (k1_pay3 c0 c1 c2 c3) (ix2 a z) = Cert.Spec.rr (Ideal.ofBits .f32 0x46000000#32) v := by
  unfold k1_pay4
  show Ideal.rsqrt (k1_pay3 c0 c1 c2 c3 (ix2 a z)) = _
  rw [k1_pay3_apply c0 c1 c2 c3 v a z h0 h1 h2 h3]
  rfl

/-- A magnitude is not negative. -/
theorem zero_le_max_neg (t : EReal) : 0 ≤ max t (-t) := by
  rcases le_total 0 t with h | h
  · exact le_max_of_le_left h
  · exact le_max_of_le_right (EReal.neg_nonneg.mpr h)

/-- The running maximum of the four chunks' largest normalised magnitudes: the whole row's. -/
theorem k1_pay5_apply (h0 : ∀ j, c0 (ix2 a j) = v (Cert.Spec.chunk 0 j)) (h1 : ∀ j, c1 (ix2 a j) = v (Cert.Spec.chunk 1 j))
    (h2 : ∀ j, c2 (ix2 a j) = v (Cert.Spec.chunk 2 j)) (h3 : ∀ j, c3 (ix2 a j) = v (Cert.Spec.chunk 3 j)) :
    k1_pay5 (k1_pay3 c0 c1 c2 c3) c0 c1 c2 c3 (ix2 a z) = Cert.Spec.amax (Ideal.ofBits .f32 0x46000000#32) v := by
  have hR := rr_apply c0 c1 c2 c3 v a 0 h0 h1 h2 h3
  have m0 := absmaxCol c0 (k1_pay4 (k1_pay3 c0 c1 c2 c3)) a z (fun j => Cert.Spec.xn (Ideal.ofBits .f32 0x46000000#32) v (Cert.Spec.chunk 0 j))
    (fun j => by rw [h0 j, hR]; rfl)
  have m1 := absmaxCol c1 (k1_pay4 (k1_pay3 c0 c1 c2 c3)) a z (fun j => Cert.Spec.xn (Ideal.ofBits .f32 0x46000000#32) v (Cert.Spec.chunk 1 j))
    (fun j => by rw [h1 j, hR]; rfl)
  have m2 := absmaxCol c2 (k1_pay4 (k1_pay3 c0 c1 c2 c3)) a z (fun j => Cert.Spec.xn (Ideal.ofBits .f32 0x46000000#32) v (Cert.Spec.chunk 2 j))
    (fun j => by rw [h2 j, hR]; rfl)
  have m3 := absmaxCol c3 (k1_pay4 (k1_pay3 c0 c1 c2 c3)) a z (fun j => Cert.Spec.xn (Ideal.ofBits .f32 0x46000000#32) v (Cert.Spec.chunk 3 j))
    (fun j => by rw [h3 j, hR]; rfl)
  unfold k1_pay5
  simp only [shapeCast_self]
  rw [maximumf_apply, maximumf_apply, maximumf_apply, maximumf_apply, broadcast_apply, Ideal.ofBits_def, m0, m1, m2, m3]
  exact (Cert.Spec.fold_max_four_chunks (fun f => max (Cert.Spec.xn (Ideal.ofBits .f32 0x46000000#32) v f) (-(Cert.Spec.xn (Ideal.ofBits .f32 0x46000000#32) v f)))
    (fun f => zero_le_max_neg _)).symm

end Row

/-- The scale column from the largest-magnitude column. -/
theorem k1_pay6_apply (M : FVec Ideal S256x1 .f32) (a : Fin 256) (z : Fin 1) :
    k1_pay6 M (ix2 a z) = Ideal.div (Ideal.ofBits .f32 0x42FE0000#32) (max (Ideal.ofBits .f32 0x3727C5AC#32) (M (ix2 a z))) := by
  unfold k1_pay6
  rw [divf_apply, maximumf_apply, broadcast_apply, broadcast_apply]
  rfl

/-! ## A chunk scaled, clamped, rounded and scaled back -/

/-- What each of the four stores holds, from the normaliser column R, the scale column S and the chunk. -/
def quantChunk (R S : FVec Ideal S256x1 .f32) (c : FVec Ideal S256x2048 .f32) : FVec Ideal S256x2048 .bf16 :=
  truncf .bf16 (divf (roundeven (minimumf (broadcast S256x2048 (FloatOps.ofBits (F := Ideal) .f32 0x42FE0000#32))
      (maximumf (broadcast S256x2048 (FloatOps.ofBits (F := Ideal) .f32 0xC3000000#32))
        (mulf (mulf c (broadcastTo S256x2048 R broadcasts_S256x1_S256x2048)) (broadcastTo S256x2048 S broadcasts_S256x1_S256x2048)))))
      (broadcastTo S256x2048 S broadcasts_S256x1_S256x2048)) bitsLt_bf16_f32

theorem k1_pay7_eq (R M : FVec Ideal S256x1 .f32) (c : Vec Ideal S256x2048 .f32) : k1_pay7 R M c = quantChunk R (k1_pay6 M) c := by
  unfold k1_pay7
  simp only [shapeCast_self]
  rfl
theorem k1_pay8_eq (R M : FVec Ideal S256x1 .f32) (c : Vec Ideal S256x2048 .f32) : k1_pay8 R M c = quantChunk R (k1_pay6 M) c := by
  unfold k1_pay8
  simp only [shapeCast_self]
  rfl
theorem k1_pay10_eq (R S : FVec Ideal S256x1 .f32) (c : Vec Ideal S256x2048 .f32) : k1_pay10 R S c = quantChunk R S c := by
  unfold k1_pay10
  simp only [shapeCast_self]
  rfl
theorem k1_pay11_eq (R S : FVec Ideal S256x1 .f32) (c : Vec Ideal S256x2048 .f32) : k1_pay11 R S c = quantChunk R S c := by
  unfold k1_pay11
  simp only [shapeCast_self]
  rfl
theorem k1_pay9_eq (u : FVec Ideal S256x2048 .bf16) : k1_pay9 u = u := by
  unfold k1_pay9
  exact shapeCast_self _ _
theorem k1_pay1_eq (u : FVec Ideal S256x2048 .bf16) : k1_pay1 u = u := by
  unfold k1_pay1
  exact shapeCast_self _ _

/-- A stored chunk at (a, j). -/
theorem quantChunk_apply (R S : FVec Ideal S256x1 .f32) (c : FVec Ideal S256x2048 .f32) (a : Fin 256) (j : Fin 2048) :
    quantChunk R S c (ix2 a j)
      = Ideal.div (Ideal.liftRound Ideal.roundHalfEven (min (Ideal.ofBits .f32 0x42FE0000#32) (max (Ideal.ofBits .f32 0xC3000000#32)
          (c (ix2 a j) * R (ix2 a 0) * S (ix2 a 0))))) (S (ix2 a 0)) := by
  unfold quantChunk
  rw [truncf_apply, divf_apply, roundeven_apply', minimumf_apply, maximumf_apply, mulf_apply, mulf_apply, broadcast_apply, broadcast_apply,
    Keepdims.bcast_col_apply S broadcasts_S256x1_S256x2048 a j, Keepdims.bcast_col_apply R broadcasts_S256x1_S256x2048 a j]
  rfl

/-- Chunk k, stored with the row's own normaliser and scale, is the specification's quantized row at chunk k. -/
theorem quantChunk_row (c0 c1 c2 c3 : Vec Ideal S256x2048 .f32) (v : Fin 8192 → EReal) (a : Fin 256)
    (h0 : ∀ j, c0 (ix2 a j) = v (Cert.Spec.chunk 0 j)) (h1 : ∀ j, c1 (ix2 a j) = v (Cert.Spec.chunk 1 j))
    (h2 : ∀ j, c2 (ix2 a j) = v (Cert.Spec.chunk 2 j)) (h3 : ∀ j, c3 (ix2 a j) = v (Cert.Spec.chunk 3 j))
    (ck : FVec Ideal S256x2048 .f32) (k : Fin 4) (hk : ∀ j, ck (ix2 a j) = v (Cert.Spec.chunk k j)) (j : Fin 2048) :
    quantChunk (k1_pay4 (k1_pay3 c0 c1 c2 c3)) (k1_pay6 (k1_pay5 (k1_pay3 c0 c1 c2 c3) c0 c1 c2 c3)) ck (ix2 a j)
      = Cert.Spec.aq (Ideal.ofBits .f32 0x46000000#32) v (Cert.Spec.chunk k j) := by
  rw [quantChunk_apply, k1_pay6_apply, k1_pay5_apply c0 c1 c2 c3 v a 0 h0 h1 h2 h3, rr_apply c0 c1 c2 c3 v a 0 h0 h1 h2 h3, hk j]
  rfl

end Cert.KernelIdeal.Payloads

end
-- ==== Proof.PayHQuant.lean ====
/- The second region's scratch block and output tile, read at an index at the ideal values: entry (a, f) of the quantized
   256×8192 block is the specification's quantized row a at position f, and entry (a, b) of the output tile is the product of
   the quantized rows with the weight rows. The block is what four stores leave, one per column chunk of 2048; each store's
   payload is the specification's quantized row read at the store's rectangle, and the four rectangles tile the block. -/
import proofs.«170583_j85718957293662_2_alg».proof.Proof.DownBody
import proofs.«170583_j85718957293662_2_alg».proof.Proof.PayChunks
import proofs.«170583_j85718957293662_2_alg».proof.Proof.PayMatmul

noncomputable section

open scoped BigOperators

namespace Cert.KernelIdeal.Payloads

open Cert.KernelIdeal Cert.KernelIdeal.Gen
open Idealize.ShloMosaic Idealize.ShloMosaic.ValueIdx

/-! ## The four column chunks of the block, loaded -/

theorem ld_rc0 (x : Vec Ideal S256x8192 .f32) (a : Fin 256) (j : Fin 2048) :
    View.ld x Down.rc0 (ix2 a j) = x (ix2 a (Cert.Spec.chunk 0 j)) :=
  congrArg x (funext fun d => Fin.ext (by
    match d with
    | ⟨0, _⟩ => show 0 + 1 * a.val = a.val; omega
    | ⟨1, _⟩ => show 0 + 1 * j.val = 2048 * 0 + j.val; omega))
theorem ld_rc1 (x : Vec Ideal S256x8192 .f32) (a : Fin 256) (j : Fin 2048) :
    View.ld x Down.rc1 (ix2 a j) = x (ix2 a (Cert.Spec.chunk 1 j)) :=
  congrArg x (funext fun d => Fin.ext (by
    match d with
    | ⟨0, _⟩ => show 0 + 1 * a.val = a.val; omega
    | ⟨1, _⟩ => show 2048 + 1 * j.val = 2048 * 1 + j.val; omega))
theorem ld_rc2 (x : Vec Ideal S256x8192 .f32) (a : Fin 256) (j : Fin 2048) :
    View.ld x Down.rc2 (ix2 a j) = x (ix2 a (Cert.Spec.chunk 2 j)) :=
  congrArg x (funext fun d => Fin.ext (by
    match d with
    | ⟨0, _⟩ => show 0 + 1 * a.val = a.val; omega
    | ⟨1, _⟩ => show 4096 + 1 * j.val = 2048 * 2 + j.val; omega))
theorem ld_rc3 (x : Vec Ideal S256x8192 .f32) (a : Fin 256) (j : Fin 2048) :
    View.ld x Down.rc3 (ix2 a j) = x (ix2 a (Cert.Spec.chunk 3 j)) :=
  congrArg x (funext fun d => Fin.ext (by
    match d with
    | ⟨0, _⟩ => show 0 + 1 * a.val = a.val; omega
    | ⟨1, _⟩ => show 6144 + 1 * j.val = 2048 * 3 + j.val; omega))

/-! ## The specification's quantized block as a function of the block index -/

/-- Row a of the block quantized, at position f. -/
def aqAt (x : Vec Ideal S256x8192 .f32) (a : Fin 256) (f : Fin 8192) : EReal :=
  Cert.Spec.aq (Ideal.ofBits .f32 0x46000000#32) (fun f' => x (ix2 a f')) f

/-- The same at a block index. -/
def G (x : Vec Ideal S256x8192 .f32) (y : S256x8192.Idx) : Elt Ideal .bf16 :=
  aqAt x ⟨(y 0).val, idx2_lt0 y⟩ ⟨(y 1).val, idx2_lt1 y⟩

theorem G_emb0 (x : Vec Ideal S256x8192 .f32) (a : Fin 256) (j : Fin 2048) :
    G x (Down.rc0.emb (ix2 a j)) = aqAt x a (Cert.Spec.chunk 0 j) :=
  congrArg₂ (aqAt x) (Fin.ext (by show 0 + 1 * a.val = a.val; omega)) (Fin.ext (by show 0 + 1 * j.val = 2048 * 0 + j.val; omega))
theorem G_emb1 (x : Vec Ideal S256x8192 .f32) (a : Fin 256) (j : Fin 2048) :
    G x (Down.rc1.emb (ix2 a j)) = aqAt x a (Cert.Spec.chunk 1 j) :=
  congrArg₂ (aqAt x) (Fin.ext (by show 0 + 1 * a.val = a.val; omega)) (Fin.ext (by show 2048 + 1 * j.val = 2048 * 1 + j.val; omega))
theorem G_emb2 (x : Vec Ideal S256x8192 .f32) (a : Fin 256) (j : Fin 2048) :
    G x (Down.rc2.emb (ix2 a j)) = aqAt x a (Cert.Spec.chunk 2 j) :=
  congrArg₂ (aqAt x) (Fin.ext (by show 0 + 1 * a.val = a.val; omega)) (Fin.ext (by show 4096 + 1 * j.val = 2048 * 2 + j.val; omega))
theorem G_emb3 (x : Vec Ideal S256x8192 .f32) (a : Fin 256) (j : Fin 2048) :
    G x (Down.rc3.emb (ix2 a j)) = aqAt x a (Cert.Spec.chunk 3 j) :=
  congrArg₂ (aqAt x) (Fin.ext (by show 0 + 1 * a.val = a.val; omega)) (Fin.ext (by show 6144 + 1 * j.val = 2048 * 3 + j.val; omega))

/-- Each of the four stores holds the specification's quantized block at its rectangle. -/
theorem pieces_agree (x : Vec Ideal S256x8192 .f32) :
    ∀ p ∈ Down.pieces x, ∀ xi : p.1.shape.Idx, p.2 xi = G x (p.1.emb xi) := by
  intro p hp
  unfold Down.pieces at hp
  simp only [List.mem_cons, List.not_mem_nil, or_false] at hp
  rcases hp with rfl | rfl | rfl | rfl
  · intro (xi : S256x2048.Idx)
    obtain ⟨a, j, rfl⟩ : ∃ (a : Fin 256) (j : Fin 2048), xi = ix2 a j := ⟨xi 0, xi 1, eq_ix2 xi⟩
    refine Eq.trans ?_ (G_emb3 x a j).symm
    show k1_pay1 (k1_pay11 _ _ (View.ld x Down.rc3)) (ix2 a j) = _
    rw [k1_pay1_eq, k1_pay11_eq]
    exact quantChunk_row (View.ld x Down.rc0) (View.ld x Down.rc1) (View.ld x Down.rc2) (View.ld x Down.rc3) (fun f' => x (ix2 a f')) a
      (ld_rc0 x a) (ld_rc1 x a) (ld_rc2 x a) (ld_rc3 x a) (View.ld x Down.rc3) 3 (ld_rc3 x a) j
  · intro (xi : S256x2048.Idx)
    obtain ⟨a, j, rfl⟩ : ∃ (a : Fin 256) (j : Fin 2048), xi = ix2 a j := ⟨xi 0, xi 1, eq_ix2 xi⟩
    refine Eq.trans ?_ (G_emb2 x a j).symm
    show k1_pay10 _ _ (View.ld x Down.rc2) (ix2 a j) = _
    rw [k1_pay10_eq]
    exact quantChunk_row (View.ld x Down.rc0) (View.ld x Down.rc1) (View.ld x Down.rc2) (View.ld x Down.rc3) (fun f' => x (ix2 a f')) a
      (ld_rc0 x a) (ld_rc1 x a) (ld_rc2 x a) (ld_rc3 x a) (View.ld x Down.rc2) 2 (ld_rc2 x a) j
  · intro (xi : S256x2048.Idx)
    obtain ⟨a, j, rfl⟩ : ∃ (a : Fin 256) (j : Fin 2048), xi = ix2 a j := ⟨xi 0, xi 1, eq_ix2 xi⟩
    refine Eq.trans ?_ (G_emb1 x a j).symm
    show k1_pay9 (k1_pay8 _ _ (View.ld x Down.rc1)) (ix2 a j) = _
    rw [k1_pay9_eq, k1_pay8_eq]
    exact quantChunk_row (View.ld x Down.rc0) (View.ld x Down.rc1) (View.ld x Down.rc2) (View.ld x Down.rc3) (fun f' => x (ix2 a f')) a
      (ld_rc0 x a) (ld_rc1 x a) (ld_rc2 x a) (ld_rc3 x a) (View.ld x Down.rc1) 1 (ld_rc1 x a) j
  · intro (xi : S256x2048.Idx)
    obtain ⟨a, j, rfl⟩ : ∃ (a : Fin 256) (j : Fin 2048), xi = ix2 a j := ⟨xi 0, xi 1, eq_ix2 xi⟩
    refine Eq.trans ?_ (G_emb0 x a j).symm
    show k1_pay7 _ _ (View.ld x Down.rc0) (ix2 a j) = _
    rw [k1_pay7_eq]
    exact quantChunk_row (View.ld x Down.rc0) (View.ld x Down.rc1) (View.ld x Down.rc2) (View.ld x Down.rc3) (fun f' => x (ix2 a f')) a
      (ld_rc0 x a) (ld_rc1 x a) (ld_rc2 x a) (ld_rc3 x a) (View.ld x Down.rc0) 0 (ld_rc0 x a) j

/-- The quantized hidden block at (a, f) is the specification's quantized row a at f. -/
theorem hquant_apply (x : Vec Ideal S256x8192 .f32) (a : Fin 256) (f : Fin 8192) :
    Down.hquant x (ix2 a f) = Cert.Spec.aq (Ideal.ofBits .f32 0x46000000#32) (fun f' => x (ix2 a f')) f := by
  unfold Down.hquant
  exact View.canon_apply_of_pieces (G x) (Down.pieces x) (pieces_agree x) (ix2 a f) (Down.cover x (ix2 a f))

/-- The output tile at (a, b): the quantized rows against the weight rows. -/
theorem proj_apply (q x1 : Vec Ideal S256x8192 .bf16) (a b : Fin 256) :
    Down.proj q x1 (ix2 a b) = ∑ f : Fin 8192, q (ix2 a f) * x1 (ix2 b f) :=
  k1_pay2_apply q x1 a b

end Cert.KernelIdeal.Payloads

end
-- ==== Proof.RefFold.lean ====
/-
  The reference's run, read back in nine stretches: the quantisation of the token rows (twice), of the three weight
  matrices, the two projections with the gate's silu, the product of the two, the quantisation of the hidden rows and
  the last projection. Each stretch, run from ANY contents of the buffers, leaves its result buffer at the stretch's
  pure term of the buffers it reads; a buffer a stretch does not write keeps its contents; chained, the buffer of the
  result after the whole list of operations is the last stage of the reference's reading at the argument arrays.
-/
import proofs.«170583_j85718957293662_2_alg».proof.Proof.RefRun
import proofs.«170583_j85718957293662_2_alg».proof.Proof.RefRead
import proofs.«170583_j85718957293662_2_alg».proof.Proof.LibCallBuffers

noncomputable section

namespace Cert.ReferenceIdeal.FoldP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- A list of operations run as its first `n` and then the rest. -/
theorem after_take_drop (l : List (HloOp τ sig (Elt F))) (n : Nat) (V : Valuation τ sig (Elt F)) :
    after l V = after (l.drop n) (after (l.take n) V) := by
  rw [← after_append, List.take_append_drop]

/-! The operations left after each stretch (r) and the stretches (s): 39, 25, 10, 39, 25, 2, 39, 25 and 1 operations. -/
abbrev r1 : List (HloOp τ sig (Elt F)) := (ValueP.ops (F := F)).drop 39
abbrev r2 : List (HloOp τ sig (Elt F)) := (r1 (F := F)).drop 25
abbrev r3 : List (HloOp τ sig (Elt F)) := (r2 (F := F)).drop 10
abbrev r4 : List (HloOp τ sig (Elt F)) := (r3 (F := F)).drop 39
abbrev r5 : List (HloOp τ sig (Elt F)) := (r4 (F := F)).drop 25
abbrev r6 : List (HloOp τ sig (Elt F)) := (r5 (F := F)).drop 2
abbrev r7 : List (HloOp τ sig (Elt F)) := (r6 (F := F)).drop 39
abbrev r8 : List (HloOp τ sig (Elt F)) := (r7 (F := F)).drop 25
abbrev s1 : List (HloOp τ sig (Elt F)) := (ValueP.ops (F := F)).take 39
abbrev s2 : List (HloOp τ sig (Elt F)) := (r1 (F := F)).take 25
abbrev s3 : List (HloOp τ sig (Elt F)) := (r2 (F := F)).take 10
abbrev s4 : List (HloOp τ sig (Elt F)) := (r3 (F := F)).take 39
abbrev s5 : List (HloOp τ sig (Elt F)) := (r4 (F := F)).take 25
abbrev s6 : List (HloOp τ sig (Elt F)) := (r5 (F := F)).take 2
abbrev s7 : List (HloOp τ sig (Elt F)) := (r6 (F := F)).take 39
abbrev s8 : List (HloOp τ sig (Elt F)) := (r7 (F := F)).take 25
abbrev s9 : List (HloOp τ sig (Elt F)) := r8 (F := F)

variable (W : Valuation τ sig (Elt F))

abbrev s1a : List (HloOp τ sig (Elt F)) := (s1 (F := F)).take 13
abbrev s1b : List (HloOp τ sig (Elt F)) := ((s1 (F := F)).drop 13).take 11
abbrev s1c : List (HloOp τ sig (Elt F)) := ((s1 (F := F)).drop 13).drop 11
abbrev s1b1 : List (HloOp τ sig (Elt F)) := (s1b (F := F)).take 4
abbrev s1b2 : List (HloOp τ sig (Elt F)) := ((s1b (F := F)).drop 4).take 4
abbrev s1b3 : List (HloOp τ sig (Elt F)) := ((s1b (F := F)).drop 4).drop 4

theorem st1a : after s1a W (Proc.devRef (τ := τ) .tc main_v9) = val_main_v9 (F := F) (W (Proc.devRef (τ := τ) .tc main_arg0)) := by
  unfold s1a s1  ValueP.ops
  simp only [List.drop_succ_cons, List.drop_zero, List.take_succ_cons, List.take_zero]
  after_results_simp
  rfl

theorem st1b1 (x0 : (⟨S2x2048x2048, .f32⟩ : BufTy).Contents (Elt F)) (h9 : W (Proc.devRef (τ := τ) .tc main_v9) = val_main_v9 (F := F) x0) : after s1b1 W (Proc.devRef (τ := τ) .tc main_v12) = val_main_v12 (F := F) x0 := by
  unfold s1b1 s1b s1  ValueP.ops
  simp only [List.drop_succ_cons, List.drop_zero, List.take_succ_cons, List.take_zero]
  after_results_simp
  rw [h9]
  rfl

theorem st1b2 (x0 : (⟨S2x2048x2048, .f32⟩ : BufTy).Contents (Elt F)) (h12 : W (Proc.devRef (τ := τ) .tc main_v12) = val_main_v12 (F := F) x0) : after s1b2 W (Proc.devRef (τ := τ) .tc main_v13) = val_main_v13 (F := F) x0 := by
  unfold s1b2 s1b s1  ValueP.ops
  simp only [List.drop_succ_cons, List.drop_zero, List.take_succ_cons, List.take_zero]
  after_results_simp
  try simp only [TRef.ofBuf_toBuf]
  rw [h12]
  unfold val_main_v13 val_main_call0_v1 val_main_call0_v0 val_main_cst_3
  refine eq_of_heq ((cast_heq _ _).trans (heq_of_eq ?_))
  exact congrArg₂ maximumf (congrArg _ (congrArg id (eq_of_heq (cast_heq _ _)))) (eq_of_heq (cast_heq _ _))

theorem st1b3 (x0 : (⟨S2x2048x2048, .f32⟩ : BufTy).Contents (Elt F)) (h13 : W (Proc.devRef (τ := τ) .tc main_v13) = val_main_v13 (F := F) x0) : after s1b3 W (Proc.devRef (τ := τ) .tc main_v15) = val_main_v15 (F := F) x0 := by
  unfold s1b3 s1b s1  ValueP.ops
  simp only [List.drop_succ_cons, List.drop_zero, List.take_succ_cons, List.take_zero]
  after_results_simp
  rw [h13]
  rfl

theorem st1b (x0 : (⟨S2x2048x2048, .f32⟩ : BufTy).Contents (Elt F)) (h9 : W (Proc.devRef (τ := τ) .tc main_v9) = val_main_v9 (F := F) x0) : after s1b W (Proc.devRef (τ := τ) .tc main_v15) = val_main_v15 (F := F) x0 := by
  rw [after_take_drop (s1b (F := F)) 4, after_take_drop ((s1b (F := F)).drop 4) 4]
  exact st1b3 _ _ (st1b2 _ _ (st1b1 W _ h9))

theorem keep1b : after s1b W (Proc.devRef (τ := τ) .tc main_v9) = W (Proc.devRef (τ := τ) .tc main_v9) := by
  unfold s1b s1  ValueP.ops
  simp only [List.drop_succ_cons, List.drop_zero, List.take_succ_cons, List.take_zero]
  after_results_simp

theorem st1c (x0 : (⟨S2x2048x2048, .f32⟩ : BufTy).Contents (Elt F)) (h9 : W (Proc.devRef (τ := τ) .tc main_v9) = val_main_v9 (F := F) x0) (h15 : W (Proc.devRef (τ := τ) .tc main_v15) = val_main_v15 (F := F) x0) : after s1c W (Proc.devRef (τ := τ) .tc main_v23) = val_main_v23 (F := F) x0 := by
  unfold s1c s1  ValueP.ops
  simp only [List.drop_succ_cons, List.drop_zero, List.take_succ_cons, List.take_zero]
  after_results_simp
  try simp only [TRef.ofBuf_toBuf]
  rw [h9, h15]
  rfl

theorem st1 : after s1 W (Proc.devRef (τ := τ) .tc main_v23) = val_main_v23 (F := F) (W (Proc.devRef (τ := τ) .tc main_arg0)) := by
  rw [after_take_drop (s1 (F := F)) 13, after_take_drop ((s1 (F := F)).drop 13) 11]
  exact st1c _ _ ((keep1b _).trans (st1a W)) (st1b _ _ (st1a W))

theorem st2 : after s2 W (Proc.devRef (τ := τ) .tc main_v36) = val_main_v36 (F := F) (W (Proc.devRef (τ := τ) .tc main_arg1)) := by
  unfold s2 r1 ValueP.ops
  simp only [List.drop_succ_cons, List.drop_zero, List.take_succ_cons, List.take_zero]
  after_results_simp
  try simp only [TRef.ofBuf_toBuf]
  rfl

theorem st3 (x0 : (⟨S2x2048x2048, .f32⟩ : BufTy).Contents (Elt F)) (x1 : (⟨S8192x2048, .f32⟩ : BufTy).Contents (Elt F)) (h23 : W (Proc.devRef (τ := τ) .tc main_v23) = val_main_v23 (F := F) x0) (h36 : W (Proc.devRef (τ := τ) .tc main_v36) = val_main_v36 (F := F) x1) :
    after s3 W (Proc.devRef (τ := τ) .tc main_v38) = val_main_v38 (F := F) x0 x1 := by
  unfold s3 r2 r1 ValueP.ops
  simp only [List.drop_succ_cons, List.drop_zero, List.take_succ_cons, List.take_zero]
  after_results_simp
  try simp only [TRef.ofBuf_toBuf]
  rw [h23, h36]
  rfl

abbrev s4a : List (HloOp τ sig (Elt F)) := (s4 (F := F)).take 13
abbrev s4b : List (HloOp τ sig (Elt F)) := ((s4 (F := F)).drop 13).take 11
abbrev s4c : List (HloOp τ sig (Elt F)) := ((s4 (F := F)).drop 13).drop 11
abbrev s4b1 : List (HloOp τ sig (Elt F)) := (s4b (F := F)).take 4
abbrev s4b2 : List (HloOp τ sig (Elt F)) := ((s4b (F := F)).drop 4).take 4
abbrev s4b3 : List (HloOp τ sig (Elt F)) := ((s4b (F := F)).drop 4).drop 4

theorem st4a : after s4a W (Proc.devRef (τ := τ) .tc main_v48) = val_main_v48 (F := F) (W (Proc.devRef (τ := τ) .tc main_arg0)) := by
  unfold s4a s4 r3 r2 r1 ValueP.ops
  simp only [List.drop_succ_cons, List.drop_zero, List.take_succ_cons, List.take_zero]
  after_results_simp
  rfl

theorem st4b1 (x0 : (⟨S2x2048x2048, .f32⟩ : BufTy).Contents (Elt F)) (h9 : W (Proc.devRef (τ := τ) .tc main_v48) = val_main_v48 (F := F) x0) : after s4b1 W (Proc.devRef (τ := τ) .tc main_v51) = val_main_v51 (F := F) x0 := by
  unfold s4b1 s4b s4 r3 r2 r1 ValueP.ops
  simp only [List.drop_succ_cons, List.drop_zero, List.take_succ_cons, List.take_zero]
  after_results_simp
  rw [h9]
  rfl

theorem st4b2 (x0 : (⟨S2x2048x2048, .f32⟩ : BufTy).Contents (Elt F)) (h12 : W (Proc.devRef (τ := τ) .tc main_v51) = val_main_v51 (F := F) x0) : after s4b2 W (Proc.devRef (τ := τ) .tc main_v52) = val_main_v52 (F := F) x0 := by
  unfold s4b2 s4b s4 r3 r2 r1 ValueP.ops
  simp only [List.drop_succ_cons, List.drop_zero, List.take_succ_cons, List.take_zero]
  after_results_simp
  try simp only [TRef.ofBuf_toBuf]
  rw [h12]
  unfold val_main_v52 val_main_call7_v1 val_main_call7_v0 val_main_cst_17
  refine eq_of_heq ((cast_heq _ _).trans (heq_of_eq ?_))
  exact congrArg₂ maximumf (congrArg _ (congrArg id (eq_of_heq (cast_heq _ _)))) (eq_of_heq (cast_heq _ _))

theorem st4b3 (x0 : (⟨S2x2048x2048, .f32⟩ : BufTy).Contents (Elt F)) (h13 : W (Proc.devRef (τ := τ) .tc main_v52) = val_main_v52 (F := F) x0) : after s4b3 W (Proc.devRef (τ := τ) .tc main_v54) = val_main_v54 (F := F) x0 := by
  unfold s4b3 s4b s4 r3 r2 r1 ValueP.ops
  simp only [List.drop_succ_cons, List.drop_zero, List.take_succ_cons, List.take_zero]
  after_results_simp
  rw [h13]
  rfl

theorem st4b (x0 : (⟨S2x2048x2048, .f32⟩ : BufTy).Contents (Elt F)) (h9 : W (Proc.devRef (τ := τ) .tc main_v48) = val_main_v48 (F := F) x0) : after s4b W (Proc.devRef (τ := τ) .tc main_v54) = val_main_v54 (F := F) x0 := by
  rw [after_take_drop (s4b (F := F)) 4, after_take_drop ((s4b (F := F)).drop 4) 4]
  exact st4b3 _ _ (st4b2 _ _ (st4b1 W _ h9))

theorem keep4b : after s4b W (Proc.devRef (τ := τ) .tc main_v48) = W (Proc.devRef (τ := τ) .tc main_v48) := by
  unfold s4b s4 r3 r2 r1 ValueP.ops
  simp only [List.drop_succ_cons, List.drop_zero, List.take_succ_cons, List.take_zero]
  after_results_simp

theorem st4c (x0 : (⟨S2x2048x2048, .f32⟩ : BufTy).Contents (Elt F)) (h9 : W (Proc.devRef (τ := τ) .tc main_v48) = val_main_v48 (F := F) x0) (h15 : W (Proc.devRef (τ := τ) .tc main_v54) = val_main_v54 (F := F) x0) : after s4c W (Proc.devRef (τ := τ) .tc main_v62) = val_main_v62 (F := F) x0 := by
  unfold s4c s4 r3 r2 r1 ValueP.ops
  simp only [List.drop_succ_cons, List.drop_zero, List.take_succ_cons, List.take_zero]
  after_results_simp
  try simp only [TRef.ofBuf_toBuf]
  rw [h9, h15]
  rfl

theorem st4 : after s4 W (Proc.devRef (τ := τ) .tc main_v62) = val_main_v62 (F := F) (W (Proc.devRef (τ := τ) .tc main_arg0)) := by
  rw [after_take_drop (s4 (F := F)) 13, after_take_drop ((s4 (F := F)).drop 13) 11]
  exact st4c _ _ ((keep4b _).trans (st4a W)) (st4b _ _ (st4a W))

theorem st5 : after s5 W (Proc.devRef (τ := τ) .tc main_v75) = val_main_v75 (F := F) (W (Proc.devRef (τ := τ) .tc main_arg2)) := by
  unfold s5 r4 r3 r2 r1 ValueP.ops
  simp only [List.drop_succ_cons, List.drop_zero, List.take_succ_cons, List.take_zero]
  after_results_simp
  try simp only [TRef.ofBuf_toBuf]
  rfl

theorem st6 (x0 : (⟨S2x2048x2048, .f32⟩ : BufTy).Contents (Elt F)) (x1 : (⟨S8192x2048, .f32⟩ : BufTy).Contents (Elt F)) (x2 : (⟨S8192x2048, .f32⟩ : BufTy).Contents (Elt F)) (h38 : W (Proc.devRef (τ := τ) .tc main_v38) = val_main_v38 (F := F) x0 x1) (h62 : W (Proc.devRef (τ := τ) .tc main_v62) = val_main_v62 (F := F) x0)
    (h75 : W (Proc.devRef (τ := τ) .tc main_v75) = val_main_v75 (F := F) x2) :
    after s6 W (Proc.devRef (τ := τ) .tc main_v77) = val_main_v77 (F := F) x0 x1 x2 := by
  unfold s6 r5 r4 r3 r2 r1 ValueP.ops
  simp only [List.drop_succ_cons, List.drop_zero, List.take_succ_cons, List.take_zero]
  after_results_simp
  try simp only [TRef.ofBuf_toBuf]
  rw [h38, h62, h75]
  rfl

abbrev s7a : List (HloOp τ sig (Elt F)) := (s7 (F := F)).take 13
abbrev s7b : List (HloOp τ sig (Elt F)) := ((s7 (F := F)).drop 13).take 11
abbrev s7c : List (HloOp τ sig (Elt F)) := ((s7 (F := F)).drop 13).drop 11
abbrev s7b1 : List (HloOp τ sig (Elt F)) := (s7b (F := F)).take 4
abbrev s7b2 : List (HloOp τ sig (Elt F)) := ((s7b (F := F)).drop 4).take 4
abbrev s7b3 : List (HloOp τ sig (Elt F)) := ((s7b (F := F)).drop 4).drop 4

theorem st7a (x0 : (⟨S2x2048x2048, .f32⟩ : BufTy).Contents (Elt F)) (x1 : (⟨S8192x2048, .f32⟩ : BufTy).Contents (Elt F)) (x2 : (⟨S8192x2048, .f32⟩ : BufTy).Contents (Elt F)) (h77 : W (Proc.devRef (τ := τ) .tc main_v77) = val_main_v77 (F := F) x0 x1 x2) : after s7a W (Proc.devRef (τ := τ) .tc main_v87) = val_main_v87 (F := F) x0 x1 x2 := by
  unfold s7a s7 r6 r5 r4 r3 r2 r1 ValueP.ops
  simp only [List.drop_succ_cons, List.drop_zero, List.take_succ_cons, List.take_zero]
  after_results_simp
  rw [h77]
  rfl

theorem st7b1 (x0 : (⟨S2x2048x2048, .f32⟩ : BufTy).Contents (Elt F)) (x1 : (⟨S8192x2048, .f32⟩ : BufTy).Contents (Elt F)) (x2 : (⟨S8192x2048, .f32⟩ : BufTy).Contents (Elt F)) (h9 : W (Proc.devRef (τ := τ) .tc main_v87) = val_main_v87 (F := F) x0 x1 x2) : after s7b1 W (Proc.devRef (τ := τ) .tc main_v90) = val_main_v90 (F := F) x0 x1 x2 := by
  unfold s7b1 s7b s7 r6 r5 r4 r3 r2 r1 ValueP.ops
  simp only [List.drop_succ_cons, List.drop_zero, List.take_succ_cons, List.take_zero]
  after_results_simp
  rw [h9]
  rfl

theorem st7b2 (x0 : (⟨S2x2048x2048, .f32⟩ : BufTy).Contents (Elt F)) (x1 : (⟨S8192x2048, .f32⟩ : BufTy).Contents (Elt F)) (x2 : (⟨S8192x2048, .f32⟩ : BufTy).Contents (Elt F)) (h12 : W (Proc.devRef (τ := τ) .tc main_v90) = val_main_v90 (F := F) x0 x1 x2) : after s7b2 W (Proc.devRef (τ := τ) .tc main_v91) = val_main_v91 (F := F) x0 x1 x2 := by
  unfold s7b2 s7b s7 r6 r5 r4 r3 r2 r1 ValueP.ops
  simp only [List.drop_succ_cons, List.drop_zero, List.take_succ_cons, List.take_zero]
  after_results_simp
  try simp only [TRef.ofBuf_toBuf]
  rw [h12]
  unfold val_main_v91 val_main_call13_v1 val_main_call13_v0 val_main_cst_31
  refine eq_of_heq ((cast_heq _ _).trans (heq_of_eq ?_))
  exact congrArg₂ maximumf (congrArg _ (congrArg id (eq_of_heq (cast_heq _ _)))) (eq_of_heq (cast_heq _ _))

theorem st7b3 (x0 : (⟨S2x2048x2048, .f32⟩ : BufTy).Contents (Elt F)) (x1 : (⟨S8192x2048, .f32⟩ : BufTy).Contents (Elt F)) (x2 : (⟨S8192x2048, .f32⟩ : BufTy).Contents (Elt F)) (h13 : W (Proc.devRef (τ := τ) .tc main_v91) = val_main_v91 (F := F) x0 x1 x2) : after s7b3 W (Proc.devRef (τ := τ) .tc main_v93) = val_main_v93 (F := F) x0 x1 x2 := by
  unfold s7b3 s7b s7 r6 r5 r4 r3 r2 r1 ValueP.ops
  simp only [List.drop_succ_cons, List.drop_zero, List.take_succ_cons, List.take_zero]
  after_results_simp
  rw [h13]
  rfl

theorem st7b (x0 : (⟨S2x2048x2048, .f32⟩ : BufTy).Contents (Elt F)) (x1 : (⟨S8192x2048, .f32⟩ : BufTy).Contents (Elt F)) (x2 : (⟨S8192x2048, .f32⟩ : BufTy).Contents (Elt F)) (h9 : W (Proc.devRef (τ := τ) .tc main_v87) = val_main_v87 (F := F) x0 x1 x2) : after s7b W (Proc.devRef (τ := τ) .tc main_v93) = val_main_v93 (F := F) x0 x1 x2 := by
  rw [after_take_drop (s7b (F := F)) 4, after_take_drop ((s7b (F := F)).drop 4) 4]
  exact st7b3 _ _ _ _ (st7b2 _ _ _ _ (st7b1 W _ _ _ h9))

theorem keep7b : after s7b W (Proc.devRef (τ := τ) .tc main_v87) = W (Proc.devRef (τ := τ) .tc main_v87) := by
  unfold s7b s7 r6 r5 r4 r3 r2 r1 ValueP.ops
  simp only [List.drop_succ_cons, List.drop_zero, List.take_succ_cons, List.take_zero]
  after_results_simp

theorem st7c (x0 : (⟨S2x2048x2048, .f32⟩ : BufTy).Contents (Elt F)) (x1 : (⟨S8192x2048, .f32⟩ : BufTy).Contents (Elt F)) (x2 : (⟨S8192x2048, .f32⟩ : BufTy).Contents (Elt F)) (h9 : W (Proc.devRef (τ := τ) .tc main_v87) = val_main_v87 (F := F) x0 x1 x2) (h15 : W (Proc.devRef (τ := τ) .tc main_v93) = val_main_v93 (F := F) x0 x1 x2) : after s7c W (Proc.devRef (τ := τ) .tc main_v101) = val_main_v101 (F := F) x0 x1 x2 := by
  unfold s7c s7 r6 r5 r4 r3 r2 r1 ValueP.ops
  simp only [List.drop_succ_cons, List.drop_zero, List.take_succ_cons, List.take_zero]
  after_results_simp
  try simp only [TRef.ofBuf_toBuf]
  rw [h9, h15]
  rfl

theorem st7 (x0 : (⟨S2x2048x2048, .f32⟩ : BufTy).Contents (Elt F)) (x1 : (⟨S8192x2048, .f32⟩ : BufTy).Contents (Elt F)) (x2 : (⟨S8192x2048, .f32⟩ : BufTy).Contents (Elt F)) (h77 : W (Proc.devRef (τ := τ) .tc main_v77) = val_main_v77 (F := F) x0 x1 x2) : after s7 W (Proc.devRef (τ := τ) .tc main_v101) = val_main_v101 (F := F) x0 x1 x2 := by
  rw [after_take_drop (s7 (F := F)) 13, after_take_drop ((s7 (F := F)).drop 13) 11]
  exact st7c _ _ _ _ ((keep7b _).trans (st7a W _ _ _ h77)) (st7b _ _ _ _ (st7a W _ _ _ h77))

theorem st8 : after s8 W (Proc.devRef (τ := τ) .tc main_v114) = val_main_v114 (F := F) (W (Proc.devRef (τ := τ) .tc main_arg3)) := by
  unfold s8 r7 r6 r5 r4 r3 r2 r1 ValueP.ops
  simp only [List.drop_succ_cons, List.drop_zero, List.take_succ_cons, List.take_zero]
  after_results_simp
  try simp only [TRef.ofBuf_toBuf]
  rfl

theorem st9 (x0 : (⟨S2x2048x2048, .f32⟩ : BufTy).Contents (Elt F)) (x1 : (⟨S8192x2048, .f32⟩ : BufTy).Contents (Elt F)) (x2 : (⟨S8192x2048, .f32⟩ : BufTy).Contents (Elt F)) (x3 : (⟨S2048x8192, .f32⟩ : BufTy).Contents (Elt F)) (h101 : W (Proc.devRef (τ := τ) .tc main_v101) = val_main_v101 (F := F) x0 x1 x2)
    (h114 : W (Proc.devRef (τ := τ) .tc main_v114) = val_main_v114 (F := F) x3) :
    after s9 W (Proc.devRef (τ := τ) .tc main_v115) = val_main_v115 (F := F) x0 x1 x2 x3 := by
  unfold s9 r8 r7 r6 r5 r4 r3 r2 r1 ValueP.ops
  simp only [List.drop_succ_cons, List.drop_zero, List.take_succ_cons, List.take_zero]
  after_results_simp
  try simp only [TRef.ofBuf_toBuf]
  rw [h101, h114]
  rfl

/-! What each stretch leaves alone, for the buffers a later stretch still reads. -/
theorem keep1_arg0 : after s1 W (Proc.devRef (τ := τ) .tc main_arg0) = W (Proc.devRef (τ := τ) .tc main_arg0) := by
  unfold s1 ValueP.ops
  simp only [List.drop_succ_cons, List.drop_zero, List.take_succ_cons, List.take_zero]
  after_results_simp

theorem keep1_arg1 : after s1 W (Proc.devRef (τ := τ) .tc main_arg1) = W (Proc.devRef (τ := τ) .tc main_arg1) := by
  unfold s1 ValueP.ops
  simp only [List.drop_succ_cons, List.drop_zero, List.take_succ_cons, List.take_zero]
  after_results_simp

theorem keep1_arg2 : after s1 W (Proc.devRef (τ := τ) .tc main_arg2) = W (Proc.devRef (τ := τ) .tc main_arg2) := by
  unfold s1 ValueP.ops
  simp only [List.drop_succ_cons, List.drop_zero, List.take_succ_cons, List.take_zero]
  after_results_simp

theorem keep1_arg3 : after s1 W (Proc.devRef (τ := τ) .tc main_arg3) = W (Proc.devRef (τ := τ) .tc main_arg3) := by
  unfold s1 ValueP.ops
  simp only [List.drop_succ_cons, List.drop_zero, List.take_succ_cons, List.take_zero]
  after_results_simp

theorem keep2_arg0 : after s2 W (Proc.devRef (τ := τ) .tc main_arg0) = W (Proc.devRef (τ := τ) .tc main_arg0) := by
  unfold s2 r1 ValueP.ops
  simp only [List.drop_succ_cons, List.drop_zero, List.take_succ_cons, List.take_zero]
  after_results_simp

theorem keep2_arg2 : after s2 W (Proc.devRef (τ := τ) .tc main_arg2) = W (Proc.devRef (τ := τ) .tc main_arg2) := by
  unfold s2 r1 ValueP.ops
  simp only [List.drop_succ_cons, List.drop_zero, List.take_succ_cons, List.take_zero]
  after_results_simp

theorem keep2_arg3 : after s2 W (Proc.devRef (τ := τ) .tc main_arg3) = W (Proc.devRef (τ := τ) .tc main_arg3) := by
  unfold s2 r1 ValueP.ops
  simp only [List.drop_succ_cons, List.drop_zero, List.take_succ_cons, List.take_zero]
  after_results_simp

theorem keep2_v23 : after s2 W (Proc.devRef (τ := τ) .tc main_v23) = W (Proc.devRef (τ := τ) .tc main_v23) := by
  unfold s2 r1 ValueP.ops
  simp only [List.drop_succ_cons, List.drop_zero, List.take_succ_cons, List.take_zero]
  after_results_simp

theorem keep3_arg0 : after s3 W (Proc.devRef (τ := τ) .tc main_arg0) = W (Proc.devRef (τ := τ) .tc main_arg0) := by
  unfold s3 r2 r1 ValueP.ops
  simp only [List.drop_succ_cons, List.drop_zero, List.take_succ_cons, List.take_zero]
  after_results_simp

theorem keep3_arg2 : after s3 W (Proc.devRef (τ := τ) .tc main_arg2) = W (Proc.devRef (τ := τ) .tc main_arg2) := by
  unfold s3 r2 r1 ValueP.ops
  simp only [List.drop_succ_cons, List.drop_zero, List.take_succ_cons, List.take_zero]
  after_results_simp

theorem keep3_arg3 : after s3 W (Proc.devRef (τ := τ) .tc main_arg3) = W (Proc.devRef (τ := τ) .tc main_arg3) := by
  unfold s3 r2 r1 ValueP.ops
  simp only [List.drop_succ_cons, List.drop_zero, List.take_succ_cons, List.take_zero]
  after_results_simp

theorem keep4_arg2 : after s4 W (Proc.devRef (τ := τ) .tc main_arg2) = W (Proc.devRef (τ := τ) .tc main_arg2) := by
  unfold s4 r3 r2 r1 ValueP.ops
  simp only [List.drop_succ_cons, List.drop_zero, List.take_succ_cons, List.take_zero]
  after_results_simp

theorem keep4_arg3 : after s4 W (Proc.devRef (τ := τ) .tc main_arg3) = W (Proc.devRef (τ := τ) .tc main_arg3) := by
  unfold s4 r3 r2 r1 ValueP.ops
  simp only [List.drop_succ_cons, List.drop_zero, List.take_succ_cons, List.take_zero]
  after_results_simp

theorem keep4_v38 : after s4 W (Proc.devRef (τ := τ) .tc main_v38) = W (Proc.devRef (τ := τ) .tc main_v38) := by
  unfold s4 r3 r2 r1 ValueP.ops
  simp only [List.drop_succ_cons, List.drop_zero, List.take_succ_cons, List.take_zero]
  after_results_simp

theorem keep5_arg3 : after s5 W (Proc.devRef (τ := τ) .tc main_arg3) = W (Proc.devRef (τ := τ) .tc main_arg3) := by
  unfold s5 r4 r3 r2 r1 ValueP.ops
  simp only [List.drop_succ_cons, List.drop_zero, List.take_succ_cons, List.take_zero]
  after_results_simp

theorem keep5_v38 : after s5 W (Proc.devRef (τ := τ) .tc main_v38) = W (Proc.devRef (τ := τ) .tc main_v38) := by
  unfold s5 r4 r3 r2 r1 ValueP.ops
  simp only [List.drop_succ_cons, List.drop_zero, List.take_succ_cons, List.take_zero]
  after_results_simp

theorem keep5_v62 : after s5 W (Proc.devRef (τ := τ) .tc main_v62) = W (Proc.devRef (τ := τ) .tc main_v62) := by
  unfold s5 r4 r3 r2 r1 ValueP.ops
  simp only [List.drop_succ_cons, List.drop_zero, List.take_succ_cons, List.take_zero]
  after_results_simp

theorem keep6_arg3 : after s6 W (Proc.devRef (τ := τ) .tc main_arg3) = W (Proc.devRef (τ := τ) .tc main_arg3) := by
  unfold s6 r5 r4 r3 r2 r1 ValueP.ops
  simp only [List.drop_succ_cons, List.drop_zero, List.take_succ_cons, List.take_zero]
  after_results_simp

theorem keep7_arg3 : after s7 W (Proc.devRef (τ := τ) .tc main_arg3) = W (Proc.devRef (τ := τ) .tc main_arg3) := by
  unfold s7 r6 r5 r4 r3 r2 r1 ValueP.ops
  simp only [List.drop_succ_cons, List.drop_zero, List.take_succ_cons, List.take_zero]
  after_results_simp

theorem keep8_v101 : after s8 W (Proc.devRef (τ := τ) .tc main_v101) = W (Proc.devRef (τ := τ) .tc main_v101) := by
  unfold s8 r7 r6 r5 r4 r3 r2 r1 ValueP.ops
  simp only [List.drop_succ_cons, List.drop_zero, List.take_succ_cons, List.take_zero]
  after_results_simp

/-- After all its operations the reference's result buffer holds the last stage of its reading, at the argument
    arrays as launched. -/
theorem fold_eq (m : (ℓ : Loc nD τ sig) → Buf (Elt F) ℓ) (c : Dev nD) :
    after (ValueP.ops (F := F)) (launchContents m c) (Proc.devRef (τ := τ) .tc main_v115)
      = val_main_v115 (F := F) (m ((c.tc : Thread nD τ).loc main_arg0)) (m ((c.tc : Thread nD τ).loc main_arg1))
          (m ((c.tc : Thread nD τ).loc main_arg2)) (m ((c.tc : Thread nD τ).loc main_arg3)) := by
  have e0 : launchContents m c (Proc.devRef (τ := τ) .tc main_arg0) = m ((c.tc : Thread nD τ).loc main_arg0) := rfl
  have e1 : launchContents m c (Proc.devRef (τ := τ) .tc main_arg1) = m ((c.tc : Thread nD τ).loc main_arg1) := rfl
  have e2 : launchContents m c (Proc.devRef (τ := τ) .tc main_arg2) = m ((c.tc : Thread nD τ).loc main_arg2) := rfl
  have e3 : launchContents m c (Proc.devRef (τ := τ) .tc main_arg3) = m ((c.tc : Thread nD τ).loc main_arg3) := rfl
  rw [← e0, ← e1, ← e2, ← e3]
  generalize launchContents m c = V
  rw [after_take_drop ValueP.ops 39, after_take_drop (r1 (F := F)) 25, after_take_drop (r2 (F := F)) 10, after_take_drop (r3 (F := F)) 39,
    after_take_drop (r4 (F := F)) 25, after_take_drop (r5 (F := F)) 2, after_take_drop (r6 (F := F)) 39, after_take_drop (r7 (F := F)) 25]
  -- the contents after each stretch
  have q1 := st1 V
  generalize hW1 : after (s1 (F := F)) V = W1 at q1
  have k1a0 : W1 (Proc.devRef (τ := τ) .tc main_arg0) = V (Proc.devRef (τ := τ) .tc main_arg0) := by rw [← hW1]; exact keep1_arg0 V
  have k1a1 : W1 (Proc.devRef (τ := τ) .tc main_arg1) = V (Proc.devRef (τ := τ) .tc main_arg1) := by rw [← hW1]; exact keep1_arg1 V
  have k1a2 : W1 (Proc.devRef (τ := τ) .tc main_arg2) = V (Proc.devRef (τ := τ) .tc main_arg2) := by rw [← hW1]; exact keep1_arg2 V
  have k1a3 : W1 (Proc.devRef (τ := τ) .tc main_arg3) = V (Proc.devRef (τ := τ) .tc main_arg3) := by rw [← hW1]; exact keep1_arg3 V
  have q2 := st2 W1
  rw [k1a1] at q2
  have k2a0 := (keep2_arg0 W1).trans k1a0
  have k2a2 := (keep2_arg2 W1).trans k1a2
  have k2a3 := (keep2_arg3 W1).trans k1a3
  have k2v23 := (keep2_v23 W1).trans q1
  have q3 := st3 (after (s2 (F := F)) W1) _ _ k2v23 q2
  have k3a0 := (keep3_arg0 (after (s2 (F := F)) W1)).trans k2a0
  have k3a2 := (keep3_arg2 (after (s2 (F := F)) W1)).trans k2a2
  have k3a3 := (keep3_arg3 (after (s2 (F := F)) W1)).trans k2a3
  generalize after (s3 (F := F)) (after (s2 (F := F)) W1) = W3 at q3 k3a0 k3a2 k3a3 ⊢
  have q4 := st4 W3
  rw [k3a0] at q4
  have k4a2 := (keep4_arg2 W3).trans k3a2
  have k4a3 := (keep4_arg3 W3).trans k3a3
  have k4v38 := (keep4_v38 W3).trans q3
  generalize after (s4 (F := F)) W3 = W4 at q4 k4a2 k4a3 k4v38 ⊢
  have q5 := st5 W4
  rw [k4a2] at q5
  have k5a3 := (keep5_arg3 W4).trans k4a3
  have k5v38 := (keep5_v38 W4).trans k4v38
  have k5v62 := (keep5_v62 W4).trans q4
  generalize after (s5 (F := F)) W4 = W5 at q5 k5a3 k5v38 k5v62 ⊢
  have q6 := st6 W5 _ _ _ k5v38 k5v62 q5
  have k6a3 := (keep6_arg3 W5).trans k5a3
  generalize after (s6 (F := F)) W5 = W6 at q6 k6a3 ⊢
  have q7 := st7 W6 _ _ _ q6
  have k7a3 := (keep7_arg3 W6).trans k6a3
  generalize after (s7 (F := F)) W6 = W7 at q7 k7a3 ⊢
  have q8 := st8 W7
  rw [k7a3] at q8
  have k8v101 := (keep8_v101 W7).trans q7
  exact st9 (after (s8 (F := F)) W7) _ _ _ _ k8v101 q8

end Cert.ReferenceIdeal.FoldP
-- ==== Proof.RefXa.lean ====
/-
  The reference's quantisation of the token rows (its first copy, feeding the gate projection), read at an index:
  the printed operations, chained, are the specification's normalised row, its largest magnitude, its scale, and
  the quantised entry in the straight-through spelling  xn + (aq - xn).
-/
import proofs.«170583_j85718957293662_2_alg».proof.Proof.RefRead
import proofs.«170583_j85718957293662_2_alg».proof.Proof.Spec
import proofs.«170583_j85718957293662_2_alg».proof.Proof.HostMax

noncomputable section

namespace Cert.RefSpec

open Cert.ReferenceIdeal Cert.ReferenceIdeal.Gen Cert.ReferenceIdeal.ReadP Idealize.ShloMosaic Idealize.ShloMosaic.ValueIdx

/-- The normalised row, read at (b, s, d). -/
theorem xa_xn (x0 : (⟨S2x2048x2048, .f32⟩ : BufTy).Contents (Elt Ideal)) (b : Fin 2) (s : Fin 2048) (d : Fin 2048) :
    val_main_v9 (F := Ideal) x0 (ix3 b s d) = Spec.xn (Ideal.ofBits .f32 0x45000000#32) (fun k => x0 (ix3 b s k)) d := by
  have e8 : idx_main_v8 (ix3 b s d) = ix3 b s (0 : Fin 1) := funext fun a => Fin.ext (by match a with | ⟨0, _⟩ => rfl | ⟨1, _⟩ => rfl | ⟨2, _⟩ => rfl)
  have e2 : idx_main_v2 (ix3 b s (0 : Fin 1)) = ix2 b s := funext fun a => Fin.ext (by match a with | ⟨0, _⟩ => rfl | ⟨1, _⟩ => rfl)
  have e1 : ∀ k, idx_main_v1 (ix2 b s) k = ix3 b s k := fun k => funext fun a => Fin.ext (by match a with | ⟨0, _⟩ => rfl | ⟨1, _⟩ => rfl | ⟨2, _⟩ => rfl)
  rw [val_main_v9_apply, val_main_v8_apply, e8, val_main_v7_apply, val_main_v6_apply, val_main_v4_apply, val_main_v2_apply, e2,
    val_main_v1_apply, val_main_cst_apply, val_main_v3_apply, val_main_cst_0_apply, val_main_v5_apply, val_main_cst_1_apply]
  simp only [e1]
  simp only [val_main_v0_apply, Ideal.mulf_def, Ideal.hostDivf_def, Ideal.addf_def, Ideal.hostUnary_rsqrt_def, Ideal.ofBits_def]
  rw [Spec.zero_word_add]
  rfl

/-- The row's largest magnitude, read at (b, s). -/
theorem xa_amax (x0 : (⟨S2x2048x2048, .f32⟩ : BufTy).Contents (Elt Ideal)) (b : Fin 2) (s : Fin 2048) :
    val_main_v11 (F := Ideal) x0 (ix2 b s) = Spec.amax (Ideal.ofBits .f32 0x45000000#32) (fun k => x0 (ix3 b s k)) := by
  unfold val_main_v11
  refine (hostMax3_apply (val_main_v10 (F := Ideal) x0) (val_main_cst_2 (F := Ideal)) reducesTo_S2x2048x2048_S2x2048_d2 (by decide) h_S_ b s).trans ?_
  simp only [val_main_v10_apply, xa_xn, val_main_cst_2_apply, Ideal.hostAbsf_def, Ideal.absf_def, Ideal.ofBits_def]
  rfl

/-- The row's scale, read at (b, s, 0). -/
theorem xa_sc (x0 : (⟨S2x2048x2048, .f32⟩ : BufTy).Contents (Elt Ideal)) (b : Fin 2) (s : Fin 2048) :
    val_main_v15 (F := Ideal) x0 (ix3 b s (0 : Fin 1)) = Spec.sc (Ideal.ofBits .f32 0x45000000#32) (fun k => x0 (ix3 b s k)) := by
  have e12 : idx_main_v12 (ix3 b s (0 : Fin 1)) = ix2 b s := funext fun a => Fin.ext (by match a with | ⟨0, _⟩ => rfl | ⟨1, _⟩ => rfl)
  rw [val_main_v15_apply, val_main_v14_apply, val_main_cst_4_apply, val_main_v13_apply, val_main_call0_v1_apply, val_main_call0_v0_apply, val_main_cst_3_apply,
    val_main_v12_apply, e12, xa_amax]
  simp only [Ideal.hostDivf_def, Ideal.maximumf_def, Ideal.ofBits_def]
  rfl

/-- The quantised row in the straight-through spelling, read at (b, s, d). -/
theorem xa_ste (x0 : (⟨S2x2048x2048, .f32⟩ : BufTy).Contents (Elt Ideal)) (b : Fin 2) (s : Fin 2048) (d : Fin 2048) :
    val_main_v23 (F := Ideal) x0 (ix3 b s d)
      = Spec.xn (Ideal.ofBits .f32 0x45000000#32) (fun k => x0 (ix3 b s k)) d + (Spec.aq (Ideal.ofBits .f32 0x45000000#32) (fun k => x0 (ix3 b s k)) d - Spec.xn (Ideal.ofBits .f32 0x45000000#32) (fun k => x0 (ix3 b s k)) d) := by
  have e16 : idx_main_v16 (ix3 b s d) = ix3 b s (0 : Fin 1) := funext fun a => Fin.ext (by match a with | ⟨0, _⟩ => rfl | ⟨1, _⟩ => rfl | ⟨2, _⟩ => rfl)
  have e20 : idx_main_v20 (ix3 b s d) = ix3 b s (0 : Fin 1) := funext fun a => Fin.ext (by match a with | ⟨0, _⟩ => rfl | ⟨1, _⟩ => rfl | ⟨2, _⟩ => rfl)
  rw [val_main_v23_apply, val_main_v22_apply, val_main_v21_apply, val_main_v19_apply, val_main_v18_apply, val_main_call1_v4_apply, val_main_call1_v3_apply, val_main_cst_6_apply,
    val_main_call1_v2_apply, val_main_call1_v1_apply, val_main_call1_v0_apply, val_main_cst_5_apply, val_main_v17_apply, val_main_v16_apply, e16, val_main_v20_apply, e20,
    xa_sc, xa_xn]
  simp only [Ideal.addf_def, Ideal.subf_def, Ideal.hostDivf_def, Ideal.hostUnary_roundeven_def, Ideal.minimumf_def, Ideal.maximumf_def,
    Ideal.mulf_def, Ideal.ofBits_def]
  rfl

end Cert.RefSpec
-- ==== Proof.RefXb.lean ====
/-
  The reference's second copy of the quantisation of the token rows (feeding the up projection), read at an index;
  the same chain of operations as the first copy, under other names.
-/
import proofs.«170583_j85718957293662_2_alg».proof.Proof.RefRead
import proofs.«170583_j85718957293662_2_alg».proof.Proof.Spec
import proofs.«170583_j85718957293662_2_alg».proof.Proof.HostMax

noncomputable section

namespace Cert.RefSpec

open Cert.ReferenceIdeal Cert.ReferenceIdeal.Gen Cert.ReferenceIdeal.ReadP Idealize.ShloMosaic Idealize.ShloMosaic.ValueIdx

/-- The normalised row, read at (b, s, d). -/
theorem xb_xn (x0 : (⟨S2x2048x2048, .f32⟩ : BufTy).Contents (Elt Ideal)) (b : Fin 2) (s : Fin 2048) (d : Fin 2048) :
    val_main_v48 (F := Ideal) x0 (ix3 b s d) = Spec.xn (Ideal.ofBits .f32 0x45000000#32) (fun k => x0 (ix3 b s k)) d := by
  have e8 : idx_main_v47 (ix3 b s d) = ix3 b s (0 : Fin 1) := funext fun a => Fin.ext (by match a with | ⟨0, _⟩ => rfl | ⟨1, _⟩ => rfl | ⟨2, _⟩ => rfl)
  have e2 : idx_main_v41 (ix3 b s (0 : Fin 1)) = ix2 b s := funext fun a => Fin.ext (by match a with | ⟨0, _⟩ => rfl | ⟨1, _⟩ => rfl)
  have e1 : ∀ k, idx_main_v40 (ix2 b s) k = ix3 b s k := fun k => funext fun a => Fin.ext (by match a with | ⟨0, _⟩ => rfl | ⟨1, _⟩ => rfl | ⟨2, _⟩ => rfl)
  rw [val_main_v48_apply, val_main_v47_apply, e8, val_main_v46_apply, val_main_v45_apply, val_main_v43_apply, val_main_v41_apply, e2,
    val_main_v40_apply, val_main_cst_13_apply, val_main_v42_apply, val_main_cst_14_apply, val_main_v44_apply, val_main_cst_15_apply]
  simp only [e1]
  simp only [val_main_v39_apply, Ideal.mulf_def, Ideal.hostDivf_def, Ideal.addf_def, Ideal.hostUnary_rsqrt_def, Ideal.ofBits_def]
  rw [Spec.zero_word_add]
  rfl

/-- The row's largest magnitude, read at (b, s). -/
theorem xb_amax (x0 : (⟨S2x2048x2048, .f32⟩ : BufTy).Contents (Elt Ideal)) (b : Fin 2) (s : Fin 2048) :
    val_main_v50 (F := Ideal) x0 (ix2 b s) = Spec.amax (Ideal.ofBits .f32 0x45000000#32) (fun k => x0 (ix3 b s k)) := by
  unfold val_main_v50
  refine (hostMax3_apply (val_main_v49 (F := Ideal) x0) (val_main_cst_16 (F := Ideal)) reducesTo_S2x2048x2048_S2x2048_d2 (by decide) h_S_ b s).trans ?_
  simp only [val_main_v49_apply, xb_xn, val_main_cst_16_apply, Ideal.hostAbsf_def, Ideal.absf_def, Ideal.ofBits_def]
  rfl

/-- The row's scale, read at (b, s, 0). -/
theorem xb_sc (x0 : (⟨S2x2048x2048, .f32⟩ : BufTy).Contents (Elt Ideal)) (b : Fin 2) (s : Fin 2048) :
    val_main_v54 (F := Ideal) x0 (ix3 b s (0 : Fin 1)) = Spec.sc (Ideal.ofBits .f32 0x45000000#32) (fun k => x0 (ix3 b s k)) := by
  have e12 : idx_main_v51 (ix3 b s (0 : Fin 1)) = ix2 b s := funext fun a => Fin.ext (by match a with | ⟨0, _⟩ => rfl | ⟨1, _⟩ => rfl)
  rw [val_main_v54_apply, val_main_v53_apply, val_main_cst_18_apply, val_main_v52_apply, val_main_call7_v1_apply, val_main_call7_v0_apply, val_main_cst_17_apply,
    val_main_v51_apply, e12, xb_amax]
  simp only [Ideal.hostDivf_def, Ideal.maximumf_def, Ideal.ofBits_def]
  rfl

/-- The quantised row in the straight-through spelling, read at (b, s, d). -/
theorem xb_ste (x0 : (⟨S2x2048x2048, .f32⟩ : BufTy).Contents (Elt Ideal)) (b : Fin 2) (s : Fin 2048) (d : Fin 2048) :
    val_main_v62 (F := Ideal) x0 (ix3 b s d)
      = Spec.xn (Ideal.ofBits .f32 0x45000000#32) (fun k => x0 (ix3 b s k)) d + (Spec.aq (Ideal.ofBits .f32 0x45000000#32) (fun k => x0 (ix3 b s k)) d - Spec.xn (Ideal.ofBits .f32 0x45000000#32) (fun k => x0 (ix3 b s k)) d) := by
  have e16 : idx_main_v55 (ix3 b s d) = ix3 b s (0 : Fin 1) := funext fun a => Fin.ext (by match a with | ⟨0, _⟩ => rfl | ⟨1, _⟩ => rfl | ⟨2, _⟩ => rfl)
  have e20 : idx_main_v59 (ix3 b s d) = ix3 b s (0 : Fin 1) := funext fun a => Fin.ext (by match a with | ⟨0, _⟩ => rfl | ⟨1, _⟩ => rfl | ⟨2, _⟩ => rfl)
  rw [val_main_v62_apply, val_main_v61_apply, val_main_v60_apply, val_main_v58_apply, val_main_v57_apply, val_main_call8_v4_apply, val_main_call8_v3_apply, val_main_cst_20_apply,
    val_main_call8_v2_apply, val_main_call8_v1_apply, val_main_call8_v0_apply, val_main_cst_19_apply, val_main_v56_apply, val_main_v55_apply, e16, val_main_v59_apply, e20,
    xb_sc, xb_xn]
  simp only [Ideal.addf_def, Ideal.subf_def, Ideal.hostDivf_def, Ideal.hostUnary_roundeven_def, Ideal.minimumf_def, Ideal.maximumf_def,
    Ideal.mulf_def, Ideal.ofBits_def]
  rfl

end Cert.RefSpec
-- ==== Proof.RefWb.lean ====
/-
  The reference's quantisation of the up weight matrix, read at an index: the printed operations, chained, are
  the specification's scale (one over the mean magnitude, kept above the small constant) and the quantised entry in
  the straight-through spelling  w + (wq - w). The sum over the whole matrix is re-indexed by its two coordinates.
-/
import proofs.«170583_j85718957293662_2_alg».proof.Proof.RefRead
import proofs.«170583_j85718957293662_2_alg».proof.Proof.Spec
import proofs.«170583_j85718957293662_2_alg».proof.Proof.HostMax

noncomputable section

namespace Cert.RefSpec

open Cert.ReferenceIdeal Cert.ReferenceIdeal.Gen Cert.ReferenceIdeal.ReadP Idealize.ShloMosaic Idealize.ShloMosaic.ValueIdx

/-- The matrix's scale, at the scalar's one index. -/
theorem wb_ws (x2 : (⟨S8192x2048, .f32⟩ : BufTy).Contents (Elt Ideal)) (j : S_.Idx) :
    val_main_v67 (F := Ideal) x2 j = Spec.ws (Ideal.ofBits .f32 0x4B800000#32) (fun f d => x2 (ix2 f d)) := by
  rw [val_main_v67_apply, val_main_cst_24_apply, val_main_v66_apply, val_main_call10_v0_apply, val_main_cst_23_apply, val_main_v65_apply, val_main_v64_apply,
    val_main_cst_21_apply, val_main_cst_22_apply]
  simp only [val_main_v63_apply, Ideal.hostDivf_def, Ideal.maximumf_def, Ideal.hostAbsf_def, Ideal.absf_def, Ideal.ofBits_def]
  rw [Spec.zero_word_add, sum_idx2]
  rfl

/-- The quantised matrix, read at (f, d). -/
theorem wb_q (x2 : (⟨S8192x2048, .f32⟩ : BufTy).Contents (Elt Ideal)) (f : Fin 8192) (d : Fin 2048) :
    val_main_v73 (F := Ideal) x2 (ix2 f d) = Spec.wq (Ideal.ofBits .f32 0x4B800000#32) (fun f d => x2 (ix2 f d)) f d := by
  rw [val_main_v73_apply, val_main_v71_apply, val_main_v70_apply, val_main_call11_v4_apply, val_main_call11_v3_apply, val_main_cst_26_apply,
    val_main_call11_v2_apply, val_main_call11_v1_apply, val_main_call11_v0_apply, val_main_cst_25_apply, val_main_v69_apply, val_main_v68_apply, val_main_v72_apply]
  simp only [wb_ws, Ideal.hostDivf_def, Ideal.hostUnary_roundeven_def, Ideal.minimumf_def, Ideal.maximumf_def, Ideal.mulf_def, Ideal.ofBits_def]
  rfl

/-- The quantised matrix in the straight-through spelling, read at (f, d). -/
theorem wb_ste (x2 : (⟨S8192x2048, .f32⟩ : BufTy).Contents (Elt Ideal)) (f : Fin 8192) (d : Fin 2048) :
    val_main_v75 (F := Ideal) x2 (ix2 f d)
      = x2 (ix2 f d) + (Spec.wq (Ideal.ofBits .f32 0x4B800000#32) (fun f d => x2 (ix2 f d)) f d - x2 (ix2 f d)) := by
  rw [val_main_v75_apply, val_main_v74_apply, wb_q]
  rfl

end Cert.RefSpec
-- ==== Proof.SpecReal.lean ====
/-
  Real entries stay real through the quantised block, and on real entries the "straight-through" spelling
  v + (q - v) of a quantisation is the quantised value q itself.

  On the extended reals v + (q - v) = q fails at the infinities, so the facts are proved for entries that are real
  numbers: a sum of squares of reals over a positive length plus a positive constant is a positive real, so its
  reciprocal root is real; a finite maximum of reals, kept above a positive constant, is a positive real, so the
  scale 127 / max is a positive real; a clamped value is real whatever was clamped; and so on down the block.
-/
import proofs.«170583_j85718957293662_2_alg».proof.Proof.Spec

noncomputable section

open scoped BigOperators

namespace Cert.Spec

open Idealize.ShloMosaic

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsPos.isReal {x : EReal} (h : IsPos x) : IsReal x := let ⟨r, _, e⟩ := h; ⟨r, e⟩

theorem IsPos.ne_zero {x : EReal} (h : IsPos x) : x ≠ 0 := by
  obtain ⟨r, hr, rfl⟩ := h
  exact EReal.coe_ne_zero.2 hr.ne'

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem isReal_max {x y : EReal} (hx : IsReal x) (hy : IsReal y) : IsReal (max x y) := by
  obtain ⟨a, rfl⟩ := hx; obtain ⟨b, rfl⟩ := hy; exact ⟨max a b, (EReal.coe_strictMono.monotone.map_max).symm⟩

theorem isReal_min {x y : EReal} (hx : IsReal x) (hy : IsReal y) : IsReal (min x y) := by
  obtain ⟨a, rfl⟩ := hx; obtain ⟨b, rfl⟩ := hy; exact ⟨min a b, (EReal.coe_strictMono.monotone.map_min).symm⟩

theorem isReal_abs {x : EReal} (hx : IsReal x) : IsReal (max x (-x)) := isReal_max hx hx.neg

theorem IsReal.liftRound {x : EReal} (hx : IsReal x) (f : ℝ → ℤ) : IsReal (Ideal.liftRound f x) := by
  obtain ⟨a, rfl⟩ := hx; exact ⟨(f a : ℝ), rfl⟩

theorem IsReal.div {x y : EReal} (hx : IsReal x) (hy : IsReal y) (h0 : y ≠ 0) : IsReal (Ideal.div x y) := by
  obtain ⟨a, rfl⟩ := hx; obtain ⟨b, rfl⟩ := hy
  have hb : b ≠ 0 := EReal.coe_ne_zero.1 h0
  rw [Ideal.div_coe hb, ← EReal.coe_mul]; exact ⟨_, rfl⟩

theorem IsReal.logistic {x : EReal} (hx : IsReal x) : IsReal (Ideal.logistic x) := by
  obtain ⟨a, rfl⟩ := hx; exact ⟨_, Ideal.logistic_coe a⟩

theorem IsPos.div {x y : EReal} (hx : IsPos x) (hy : IsPos y) : IsPos (Ideal.div x y) := by
  obtain ⟨a, ha, rfl⟩ := hx; obtain ⟨b, hb, rfl⟩ := hy
  rw [Ideal.div_coe hb.ne', ← EReal.coe_mul]; exact ⟨_, mul_pos ha (one_div_pos.2 hb), rfl⟩

/-- A positive real kept as a lower bound of something below +∞ is a positive real. -/
theorem IsPos.max_left {e x : EReal} (he : IsPos e) (hx : x < ⊤) : IsPos (max e x) := by
  obtain ⟨ε, hε, rfl⟩ := he
  induction x using EReal.rec
  · rw [max_eq_left bot_le]; exact ⟨ε, hε, rfl⟩
  · rename_i r; exact ⟨max ε r, lt_max_of_lt_left hε, (EReal.coe_strictMono.monotone.map_max).symm⟩
  · exact absurd hx (lt_irrefl _)

/-- A value clamped between two reals is real, whatever it was. -/
theorem clamp_isReal {a b : EReal} (ha : IsReal a) (hb : IsReal b) (x : EReal) : IsReal (min a (max b x)) := by
  obtain ⟨a, rfl⟩ := ha; obtain ⟨b, rfl⟩ := hb
  induction x using EReal.rec
  · rw [max_eq_left bot_le]; exact isReal_min (isReal_coe a) (isReal_coe b)
  · rename_i r; exact isReal_min (isReal_coe a) (isReal_max (isReal_coe b) (isReal_coe r))
  · rw [max_eq_right le_top, min_eq_left le_top]; exact isReal_coe a

/-- The coercion of a finite sum of reals. -/
theorem coe_sum {ι : Type*} (s : Finset ι) (a : ι → ℝ) :
    ∑ i ∈ s, ((a i : ℝ) : EReal) = ((∑ i ∈ s, a i : ℝ) : EReal) := by
  classical
  refine Finset.induction_on s (by simp) ?_
  intro i s hi ih
  rw [Finset.sum_insert hi, Finset.sum_insert hi, ih, EReal.coe_add]

theorem isReal_sum {ι : Type*} (s : Finset ι) (f : ι → EReal) (h : ∀ i ∈ s, IsReal (f i)) : IsReal (∑ i ∈ s, f i) := by
  classical
  revert h
  refine Finset.induction_on s (fun _ => ⟨0, by simp⟩) ?_
  intro a s ha ih h
  rw [Finset.sum_insert ha]
  exact (h a (Finset.mem_insert_self a s)).add (ih fun i hi => h i (Finset.mem_insert_of_mem hi))

/-- On reals the straight-through spelling of a replacement is the replacement. -/
theorem ste_cancel {v q : EReal} (hv : IsReal v) (hq : IsReal q) : v + (q - v) = q := by
  obtain ⟨a, rfl⟩ := hv; obtain ⟨b, rfl⟩ := hq
  rw [← EReal.coe_sub, ← EReal.coe_add]
  exact congrArg _ (by ring)

/-! ## The literals as reals -/

theorem word_2p24 : Ideal.ofBits .f32 0x4B800000#32 = ((16777216 : ℝ) : EReal) := by
  simp [Ideal.ofBits, Ideal.ieee, -EReal.coe_mul]; norm_num
theorem word_127 : Ideal.ofBits .f32 0x42FE0000#32 = ((127 : ℝ) : EReal) := by
  simp [Ideal.ofBits, Ideal.ieee, -EReal.coe_mul]; norm_num
theorem word_m128 : Ideal.ofBits .f32 0xC3000000#32 = ((-128 : ℝ) : EReal) := by
  simp [Ideal.ofBits, Ideal.ieee, -EReal.coe_mul]; norm_num
theorem word_m1 : Ideal.ofBits .f32 0xBF800000#32 = ((-1 : ℝ) : EReal) := by
  simp [Ideal.ofBits, Ideal.ieee, -EReal.coe_mul]; norm_num

theorem word_e6_pos : IsPos (Ideal.ofBits .f32 0x358637BD#32) := by
  refine ⟨_, ?_, by simp [Ideal.ofBits, Ideal.ieee, -EReal.coe_mul]; rfl⟩
  positivity
theorem word_e5_pos : IsPos (Ideal.ofBits .f32 0x3727C5AC#32) := by
  refine ⟨_, ?_, by simp [Ideal.ofBits, Ideal.ieee, -EReal.coe_mul]; rfl⟩
  positivity
theorem word_2048_pos : IsPos (Ideal.ofBits .f32 0x45000000#32) := ⟨2048, by norm_num, word_2048⟩
theorem word_8192_pos : IsPos (Ideal.ofBits .f32 0x46000000#32) := ⟨8192, by norm_num, word_8192⟩
theorem word_2p24_pos : IsPos (Ideal.ofBits .f32 0x4B800000#32) := ⟨16777216, by norm_num, word_2p24⟩
theorem word_127_pos : IsPos (Ideal.ofBits .f32 0x42FE0000#32) := ⟨127, by norm_num, word_127⟩
theorem word_one_pos : IsPos (Ideal.ofBits .f32 0x3F800000#32) := ⟨1, one_pos, word_one.trans EReal.coe_one.symm⟩
theorem word_m128_isReal : IsReal (Ideal.ofBits .f32 0xC3000000#32) := ⟨_, word_m128⟩
theorem word_m1_isReal : IsReal (Ideal.ofBits .f32 0xBF800000#32) := ⟨_, word_m1⟩

/-! ## One row -/

section Row
variable {n : Nat} {dn : EReal} (hdn : IsPos dn) (v : Fin n → EReal) (hv : ∀ k, IsReal (v k))
include hdn hv

theorem rr_isReal : IsReal (rr dn v) := by
  obtain ⟨N, hN, rfl⟩ := hdn
  obtain ⟨ε, hε, he⟩ := word_e6_pos
  choose a ha using hv
  obtain rfl : v = fun k => (a k : EReal) := funext ha
  unfold rr
  have hs : ∑ k : Fin n, ((a k : ℝ) : EReal) * (a k : EReal) = ((∑ k : Fin n, a k * a k : ℝ) : EReal) := by
    rw [← coe_sum]; exact Finset.sum_congr rfl fun k _ => (EReal.coe_mul _ _).symm
  have hS : 0 ≤ ∑ k : Fin n, a k * a k := Finset.sum_nonneg fun k _ => mul_self_nonneg _
  have hpos : 0 < (∑ k : Fin n, a k * a k) * (1 / N) + ε :=
    add_pos_of_nonneg_of_pos (mul_nonneg hS (one_div_pos.2 hN).le) hε
  rw [hs, he, Ideal.div_coe hN.ne', ← EReal.coe_mul, ← EReal.coe_add, Ideal.rsqrt_coe,
    if_neg (not_lt.2 hpos.le), if_neg hpos.ne']
  exact ⟨_, rfl⟩

theorem xn_isReal (k : Fin n) : IsReal (xn dn v k) := (hv k).mul (rr_isReal hdn v hv)

theorem amax_lt_top : amax dn v < ⊤ := by
  unfold amax
  rw [word_ninf]
  refine (Finset.fold_max_lt _).2 ⟨bot_lt_top, fun k _ => ?_⟩
  obtain ⟨r, hr⟩ := isReal_abs (xn_isReal hdn v hv k)
  rw [hr]; exact EReal.coe_lt_top r

theorem sc_isPos : IsPos (sc dn v) := word_127_pos.div (word_e5_pos.max_left (amax_lt_top hdn v hv))

theorem aq_isReal (k : Fin n) : IsReal (aq dn v k) :=
  ((clamp_isReal word_127_pos.isReal word_m128_isReal _).liftRound _).div (sc_isPos hdn v hv).isReal
    (sc_isPos hdn v hv).ne_zero

/-- The straight-through spelling of the row's quantisation is the quantisation. -/
theorem ste_aq (k : Fin n) : xn dn v k + (aq dn v k - xn dn v k) = aq dn v k :=
  ste_cancel (xn_isReal hdn v hv k) (aq_isReal hdn v hv k)

end Row

/-! ## One matrix -/

section Matrix
variable {a b : Nat} {cnt : EReal} (hc : IsPos cnt) (W : Fin a → Fin b → EReal) (hW : ∀ i j, IsReal (W i j))
include hc hW

theorem ws_isPos : IsPos (ws cnt W) := by
  refine word_one_pos.div (word_e5_pos.max_left ?_)
  have hs : IsReal (∑ i : Fin a, ∑ j : Fin b, max (W i j) (-(W i j))) :=
    isReal_sum _ _ fun i _ => isReal_sum _ _ fun j _ => isReal_abs (hW i j)
  obtain ⟨r, hr⟩ := hs.div hc.isReal hc.ne_zero
  rw [hr]; exact EReal.coe_lt_top r

theorem wq_isReal (i : Fin a) (j : Fin b) : IsReal (wq cnt W i j) :=
  ((clamp_isReal word_one_pos.isReal word_m1_isReal _).liftRound _).div (ws_isPos hc W hW).isReal
    (ws_isPos hc W hW).ne_zero

/-- The straight-through spelling of the matrix's quantisation is the quantisation. -/
theorem ste_wq (i : Fin a) (j : Fin b) : W i j + (wq cnt W i j - W i j) = wq cnt W i j :=
  ste_cancel (hW i j) (wq_isReal hc W hW i j)

end Matrix

/-! ## The block in the straight-through spelling -/

/-- The linear layer with each quantisation spelt v + (q - v). -/
def linS {a b : Nat} (dn cnt : EReal) (v : Fin b → EReal) (W : Fin a → Fin b → EReal) (f : Fin a) : EReal :=
  ∑ d : Fin b, (xn dn v d + (aq dn v d - xn dn v d)) * (W f d + (wq cnt W f d - W f d))

/-- x · (1 / (1 + e^(-x))), the literal 1 kept as its word. -/
def siluS (g : EReal) : EReal :=
  g * Ideal.div (Ideal.ofBits .f32 0x3F800000#32) (Ideal.ofBits .f32 0x3F800000#32 + Ideal.exp (-g))

def hidS (X : Fin 4096 → Fin 2048 → EReal) (Wg Wu : Fin 8192 → Fin 2048 → EReal) (r : Fin 4096) (f : Fin 8192) : EReal :=
  siluS (linS (Ideal.ofBits .f32 0x45000000#32) (Ideal.ofBits .f32 0x4B800000#32) (X r) Wg f)
    * linS (Ideal.ofBits .f32 0x45000000#32) (Ideal.ofBits .f32 0x4B800000#32) (X r) Wu f

def outS (X : Fin 4096 → Fin 2048 → EReal) (Wg Wu : Fin 8192 → Fin 2048 → EReal) (Wd : Fin 2048 → Fin 8192 → EReal)
    (r : Fin 4096) (n : Fin 2048) : EReal :=
  linS (Ideal.ofBits .f32 0x46000000#32) (Ideal.ofBits .f32 0x4B800000#32) (hidS X Wg Wu r) Wd n

theorem siluS_eq (g : EReal) : siluS g = silu g := by
  unfold siluS silu
  rw [word_one]; rfl

theorem linS_eq {a b : Nat} {dn cnt : EReal} (hdn : IsPos dn) (hc : IsPos cnt) (v : Fin b → EReal) (hv : ∀ k, IsReal (v k))
    (W : Fin a → Fin b → EReal) (hW : ∀ i j, IsReal (W i j)) (f : Fin a) : linS dn cnt v W f = lin dn cnt v W f :=
  Finset.sum_congr rfl fun d _ => by rw [ste_aq hdn v hv d, ste_wq hc W hW f d]

theorem lin_isReal {a b : Nat} {dn cnt : EReal} (hdn : IsPos dn) (hc : IsPos cnt) (v : Fin b → EReal) (hv : ∀ k, IsReal (v k))
    (W : Fin a → Fin b → EReal) (hW : ∀ i j, IsReal (W i j)) (f : Fin a) : IsReal (lin dn cnt v W f) :=
  isReal_sum _ _ fun d _ => (aq_isReal hdn v hv d).mul (wq_isReal hc W hW f d)

theorem silu_isReal {g : EReal} (hg : IsReal g) : IsReal (silu g) := hg.mul hg.logistic

section Block
variable (X : Fin 4096 → Fin 2048 → EReal) (Wg Wu : Fin 8192 → Fin 2048 → EReal) (Wd : Fin 2048 → Fin 8192 → EReal)
  (hX : ∀ r d, IsReal (X r d)) (hg : ∀ f d, IsReal (Wg f d)) (hu : ∀ f d, IsReal (Wu f d)) (hd : ∀ n f, IsReal (Wd n f))

include hX hg hu in
theorem hid_isReal (r : Fin 4096) (f : Fin 8192) : IsReal (hid X Wg Wu r f) :=
  (silu_isReal (lin_isReal word_2048_pos word_2p24_pos (X r) (hX r) Wg hg f)).mul
    (lin_isReal word_2048_pos word_2p24_pos (X r) (hX r) Wu hu f)

include hX hg hu in
theorem hidS_eq (r : Fin 4096) : hidS X Wg Wu r = hid X Wg Wu r := by
  funext f
  unfold hidS hid
  rw [siluS_eq, linS_eq word_2048_pos word_2p24_pos (X r) (hX r) Wg hg f,
    linS_eq word_2048_pos word_2p24_pos (X r) (hX r) Wu hu f]

include hX hg hu hd in
/-- On real inputs the block in the straight-through spelling is the block. -/
theorem outS_eq (r : Fin 4096) (n : Fin 2048) : outS X Wg Wu Wd r n = out X Wg Wu Wd r n := by
  unfold outS out
  rw [hidS_eq X Wg Wu hX hg hu r]
  exact linS_eq word_8192_pos word_2p24_pos _ (hid_isReal X Wg Wu hX hg hu r) Wd hd n

end Block

end Cert.Spec
-- ==== Proof.RefH.lean ====
/-
  The reference's two projections of a quantised token row and the hidden entry made of them, read at an index:
  each projection is a sum over the row of products of quantised entries (both in the straight-through spelling), the
  hidden entry is the gate projection times 1 / (1 + e^(-gate)) times the up projection.
-/
import proofs.«170583_j85718957293662_2_alg».proof.Proof.RefRead
import proofs.«170583_j85718957293662_2_alg».proof.Proof.Spec
import proofs.«170583_j85718957293662_2_alg».proof.Proof.HostMax
import proofs.«170583_j85718957293662_2_alg».proof.Proof.RefXa
import proofs.«170583_j85718957293662_2_alg».proof.Proof.RefXb
import proofs.«170583_j85718957293662_2_alg».proof.Proof.RefWa
import proofs.«170583_j85718957293662_2_alg».proof.Proof.RefWb
import proofs.«170583_j85718957293662_2_alg».proof.Proof.SpecReal

noncomputable section

namespace Cert.RefSpec

open Cert.ReferenceIdeal Cert.ReferenceIdeal.Gen Cert.ReferenceIdeal.ReadP Idealize.ShloMosaic Idealize.ShloMosaic.ValueIdx

/-- The gate projection at (b, s, f), for a token row `v`. -/
theorem g_at (x0 : (⟨S2x2048x2048, .f32⟩ : BufTy).Contents (Elt Ideal)) (x1 : (⟨S8192x2048, .f32⟩ : BufTy).Contents (Elt Ideal)) (b : Fin 2) (s : Fin 2048) (v : Fin 2048 → EReal) (hv : ∀ k, x0 (ix3 b s k) = v k) (f : Fin 8192) :
    val_main_v37 (F := Ideal) x0 x1 (ix3 b s f) = Spec.linS (Ideal.ofBits .f32 0x45000000#32) (Ideal.ofBits .f32 0x4B800000#32) v (fun f d => x1 (ix2 f d)) f := by
  obtain rfl : v = fun k => x0 (ix3 b s k) := funext fun k => (hv k).symm
  have el : ∀ k, lidx_main_v37 (ix3 b s f) k = ix3 b s k := fun k => funext fun a => Fin.ext (by match a with | ⟨0, _⟩ => rfl | ⟨1, _⟩ => rfl | ⟨2, _⟩ => rfl)
  have er : ∀ k, ridx_main_v37 (ix3 b s f) k = ix2 f k := fun k => funext fun a => Fin.ext (by match a with | ⟨0, _⟩ => rfl | ⟨1, _⟩ => rfl)
  rw [val_main_v37_apply]
  simp only [el, er]
  simp only [xa_ste, wa_ste]
  rfl

/-- The up projection at (b, s, f), for a token row `v`. -/
theorem u_at (x0 : (⟨S2x2048x2048, .f32⟩ : BufTy).Contents (Elt Ideal)) (x2 : (⟨S8192x2048, .f32⟩ : BufTy).Contents (Elt Ideal)) (b : Fin 2) (s : Fin 2048) (v : Fin 2048 → EReal) (hv : ∀ k, x0 (ix3 b s k) = v k) (f : Fin 8192) :
    val_main_v76 (F := Ideal) x0 x2 (ix3 b s f) = Spec.linS (Ideal.ofBits .f32 0x45000000#32) (Ideal.ofBits .f32 0x4B800000#32) v (fun f d => x2 (ix2 f d)) f := by
  obtain rfl : v = fun k => x0 (ix3 b s k) := funext fun k => (hv k).symm
  have el : ∀ k, lidx_main_v76 (ix3 b s f) k = ix3 b s k := fun k => funext fun a => Fin.ext (by match a with | ⟨0, _⟩ => rfl | ⟨1, _⟩ => rfl | ⟨2, _⟩ => rfl)
  have er : ∀ k, ridx_main_v76 (ix3 b s f) k = ix2 f k := fun k => funext fun a => Fin.ext (by match a with | ⟨0, _⟩ => rfl | ⟨1, _⟩ => rfl)
  rw [val_main_v76_apply]
  simp only [el, er]
  simp only [xb_ste, wb_ste]
  rfl

/-- The hidden entry at (b, s, f), for a token row `v`. -/
theorem h_at (x0 : (⟨S2x2048x2048, .f32⟩ : BufTy).Contents (Elt Ideal)) (x1 x2 : (⟨S8192x2048, .f32⟩ : BufTy).Contents (Elt Ideal)) (b : Fin 2) (s : Fin 2048) (v : Fin 2048 → EReal) (hv : ∀ k, x0 (ix3 b s k) = v k) (f : Fin 8192) :
    val_main_v77 (F := Ideal) x0 x1 x2 (ix3 b s f)
      = Spec.siluS (Spec.linS (Ideal.ofBits .f32 0x45000000#32) (Ideal.ofBits .f32 0x4B800000#32) v (fun f d => x1 (ix2 f d)) f)
          * Spec.linS (Ideal.ofBits .f32 0x45000000#32) (Ideal.ofBits .f32 0x4B800000#32) v (fun f d => x2 (ix2 f d)) f := by
  rw [val_main_v77_apply, val_main_v38_apply, val_main_call6_v5_apply, val_main_call6_v4_apply, val_main_call6_cst_0_apply,
    val_main_call6_v3_apply, val_main_call6_v2_apply, val_main_call6_cst_apply, val_main_call6_v1_apply, val_main_call6_v0_apply,
    g_at x0 x1 b s v hv f, u_at x0 x2 b s v hv f]
  simp only [Ideal.mulf_def, Ideal.hostDivf_def, Ideal.addf_def, Ideal.hostUnary_exp_def, Ideal.hostNegf_def, Ideal.negf_def, Ideal.ofBits_def]
  rfl

end Cert.RefSpec
-- ==== Proof.RefHa.lean ====
/-
  The reference's quantisation of the hidden rows (8192 entries each), read at an index, as a function of the hidden
  array: the same chain of operations as for the token rows, with the row length 8192.
-/
import proofs.«170583_j85718957293662_2_alg».proof.Proof.RefRead
import proofs.«170583_j85718957293662_2_alg».proof.Proof.Spec
import proofs.«170583_j85718957293662_2_alg».proof.Proof.HostMax

noncomputable section

namespace Cert.RefSpec

open Cert.ReferenceIdeal Cert.ReferenceIdeal.Gen Cert.ReferenceIdeal.ReadP Idealize.ShloMosaic Idealize.ShloMosaic.ValueIdx

/-- The normalised row, read at (b, s, d). -/
theorem ha_xn (x0 : (⟨S2x2048x2048, .f32⟩ : BufTy).Contents (Elt Ideal)) (x1 x2 : (⟨S8192x2048, .f32⟩ : BufTy).Contents (Elt Ideal)) (b : Fin 2) (s : Fin 2048) (d : Fin 8192) :
    val_main_v87 (F := Ideal) x0 x1 x2 (ix3 b s d) = Spec.xn (Ideal.ofBits .f32 0x46000000#32) (fun k => val_main_v77 (F := Ideal) x0 x1 x2 (ix3 b s k)) d := by
  have e8 : idx_main_v86 (ix3 b s d) = ix3 b s (0 : Fin 1) := funext fun a => Fin.ext (by match a with | ⟨0, _⟩ => rfl | ⟨1, _⟩ => rfl | ⟨2, _⟩ => rfl)
  have e2 : idx_main_v80 (ix3 b s (0 : Fin 1)) = ix2 b s := funext fun a => Fin.ext (by match a with | ⟨0, _⟩ => rfl | ⟨1, _⟩ => rfl)
  have e1 : ∀ k, idx_main_v79 (ix2 b s) k = ix3 b s k := fun k => funext fun a => Fin.ext (by match a with | ⟨0, _⟩ => rfl | ⟨1, _⟩ => rfl | ⟨2, _⟩ => rfl)
  rw [val_main_v87_apply, val_main_v86_apply, e8, val_main_v85_apply, val_main_v84_apply, val_main_v82_apply, val_main_v80_apply, e2,
    val_main_v79_apply, val_main_cst_27_apply, val_main_v81_apply, val_main_cst_28_apply, val_main_v83_apply, val_main_cst_29_apply]
  simp only [e1]
  simp only [val_main_v78_apply, Ideal.mulf_def, Ideal.hostDivf_def, Ideal.addf_def, Ideal.hostUnary_rsqrt_def, Ideal.ofBits_def]
  rw [Spec.zero_word_add]
  rfl

/-- The row's largest magnitude, read at (b, s). -/
theorem ha_amax (x0 : (⟨S2x2048x2048, .f32⟩ : BufTy).Contents (Elt Ideal)) (x1 x2 : (⟨S8192x2048, .f32⟩ : BufTy).Contents (Elt Ideal)) (b : Fin 2) (s : Fin 2048) :
    val_main_v89 (F := Ideal) x0 x1 x2 (ix2 b s) = Spec.amax (Ideal.ofBits .f32 0x46000000#32) (fun k => val_main_v77 (F := Ideal) x0 x1 x2 (ix3 b s k)) := by
  unfold val_main_v89
  refine (hostMax3_apply (val_main_v88 (F := Ideal) x0 x1 x2) (val_main_cst_30 (F := Ideal)) reducesTo_S2x2048x8192_S2x2048_d2 (by decide) h_S_ b s).trans ?_
  simp only [val_main_v88_apply, ha_xn, val_main_cst_30_apply, Ideal.hostAbsf_def, Ideal.absf_def, Ideal.ofBits_def]
  rfl

/-- The row's scale, read at (b, s, 0). -/
theorem ha_sc (x0 : (⟨S2x2048x2048, .f32⟩ : BufTy).Contents (Elt Ideal)) (x1 x2 : (⟨S8192x2048, .f32⟩ : BufTy).Contents (Elt Ideal)) (b : Fin 2) (s : Fin 2048) :
    val_main_v93 (F := Ideal) x0 x1 x2 (ix3 b s (0 : Fin 1)) = Spec.sc (Ideal.ofBits .f32 0x46000000#32) (fun k => val_main_v77 (F := Ideal) x0 x1 x2 (ix3 b s k)) := by
  have e12 : idx_main_v90 (ix3 b s (0 : Fin 1)) = ix2 b s := funext fun a => Fin.ext (by match a with | ⟨0, _⟩ => rfl | ⟨1, _⟩ => rfl)
  rw [val_main_v93_apply, val_main_v92_apply, val_main_cst_32_apply, val_main_v91_apply, val_main_call13_v1_apply, val_main_call13_v0_apply, val_main_cst_31_apply,
    val_main_v90_apply, e12, ha_amax]
  simp only [Ideal.hostDivf_def, Ideal.maximumf_def, Ideal.ofBits_def]
  rfl

/-- The quantised row in the straight-through spelling, read at (b, s, d). -/
theorem ha_ste (x0 : (⟨S2x2048x2048, .f32⟩ : BufTy).Contents (Elt Ideal)) (x1 x2 : (⟨S8192x2048, .f32⟩ : BufTy).Contents (Elt Ideal)) (b : Fin 2) (s : Fin 2048) (d : Fin 8192) :
    val_main_v101 (F := Ideal) x0 x1 x2 (ix3 b s d)
      = Spec.xn (Ideal.ofBits .f32 0x46000000#32) (fun k => val_main_v77 (F := Ideal) x0 x1 x2 (ix3 b s k)) d + (Spec.aq (Ideal.ofBits .f32 0x46000000#32) (fun k => val_main_v77 (F := Ideal) x0 x1 x2 (ix3 b s k)) d - Spec.xn (Ideal.ofBits .f32 0x46000000#32) (fun k => val_main_v77 (F := Ideal) x0 x1 x2 (ix3 b s k)) d) := by
  have e16 : idx_main_v94 (ix3 b s d) = ix3 b s (0 : Fin 1) := funext fun a => Fin.ext (by match a with | ⟨0, _⟩ => rfl | ⟨1, _⟩ => rfl | ⟨2, _⟩ => rfl)
  have e20 : idx_main_v98 (ix3 b s d) = ix3 b s (0 : Fin 1) := funext fun a => Fin.ext (by match a with | ⟨0, _⟩ => rfl | ⟨1, _⟩ => rfl | ⟨2, _⟩ => rfl)
  rw [val_main_v101_apply, val_main_v100_apply, val_main_v99_apply, val_main_v97_apply, val_main_v96_apply, val_main_call14_v4_apply, val_main_call14_v3_apply, val_main_cst_34_apply,
    val_main_call14_v2_apply, val_main_call14_v1_apply, val_main_call14_v0_apply, val_main_cst_33_apply, val_main_v95_apply, val_main_v94_apply, e16, val_main_v98_apply, e20,
    ha_sc, ha_xn]
  simp only [Ideal.addf_def, Ideal.subf_def, Ideal.hostDivf_def, Ideal.hostUnary_roundeven_def, Ideal.minimumf_def, Ideal.maximumf_def,
    Ideal.mulf_def, Ideal.ofBits_def]
  rfl

end Cert.RefSpec
-- ==== Proof.RefSpec.lean ====
/-
  The reference's result, read at an index, is the specification's block.

  The last projection is a sum over the hidden row of products of quantised entries in the straight-through spelling;
  with the earlier stages this makes the result the whole block in that spelling, and on real inputs (which the
  finiteness precondition gives) that spelling is the block itself. Token (b, s) of the [2, 2048, 2048] input is row
  2048·b + s of the [4096, 2048] matrix of tokens.
-/
import proofs.«170583_j85718957293662_2_alg».proof.Proof.RefRead
import proofs.«170583_j85718957293662_2_alg».proof.Proof.Spec
import proofs.«170583_j85718957293662_2_alg».proof.Proof.HostMax
import proofs.«170583_j85718957293662_2_alg».proof.Proof.RefH
import proofs.«170583_j85718957293662_2_alg».proof.Proof.RefHa
import proofs.«170583_j85718957293662_2_alg».proof.Proof.RefWc
import proofs.«170583_j85718957293662_2_alg».proof.Proof.SpecReal

noncomputable section

namespace Cert.RefSpec

open Cert.ReferenceIdeal Cert.ReferenceIdeal.Gen Cert.ReferenceIdeal.ReadP Idealize.ShloMosaic Idealize.ShloMosaic.ValueIdx

/-- The result at (b, s, n), for a token row `v`, in the straight-through spelling. -/
theorem o_at (x0 : (⟨S2x2048x2048, .f32⟩ : BufTy).Contents (Elt Ideal)) (x1 x2 : (⟨S8192x2048, .f32⟩ : BufTy).Contents (Elt Ideal)) (x3 : (⟨S2048x8192, .f32⟩ : BufTy).Contents (Elt Ideal)) (b : Fin 2) (s : Fin 2048) (v : Fin 2048 → EReal) (hv : ∀ k, x0 (ix3 b s k) = v k) (n : Fin 2048) :
    val_main_v115 (F := Ideal) x0 x1 x2 x3 (ix3 b s n)
      = Spec.linS (Ideal.ofBits .f32 0x46000000#32) (Ideal.ofBits .f32 0x4B800000#32) (fun f => Spec.siluS (Spec.linS (Ideal.ofBits .f32 0x45000000#32) (Ideal.ofBits .f32 0x4B800000#32) v (fun f d => x1 (ix2 f d)) f) * Spec.linS (Ideal.ofBits .f32 0x45000000#32) (Ideal.ofBits .f32 0x4B800000#32) v (fun f d => x2 (ix2 f d)) f) (fun n f => x3 (ix2 n f)) n := by
  have el : ∀ k, lidx_main_v115 (ix3 b s n) k = ix3 b s k := fun k => funext fun a => Fin.ext (by match a with | ⟨0, _⟩ => rfl | ⟨1, _⟩ => rfl | ⟨2, _⟩ => rfl)
  have er : ∀ k, ridx_main_v115 (ix3 b s n) k = ix2 n k := fun k => funext fun a => Fin.ext (by match a with | ⟨0, _⟩ => rfl | ⟨1, _⟩ => rfl)
  have hrow : (fun k => val_main_v77 (F := Ideal) x0 x1 x2 (ix3 b s k)) = fun f => Spec.siluS (Spec.linS (Ideal.ofBits .f32 0x45000000#32) (Ideal.ofBits .f32 0x4B800000#32) v (fun f d => x1 (ix2 f d)) f) * Spec.linS (Ideal.ofBits .f32 0x45000000#32) (Ideal.ofBits .f32 0x4B800000#32) v (fun f d => x2 (ix2 f d)) f :=
    funext fun k => h_at x0 x1 x2 b s v hv k
  rw [val_main_v115_apply]
  simp only [el, er]
  simp only [ha_ste, wc_ste]
  rw [hrow]
  rfl

/-- Token (b, s) as a row number. -/
def tok (b : Fin 2) (s : Fin 2048) : Fin 4096 := ⟨b.val * 2048 + s.val, by omega⟩

/-- The [2, 2048, 2048] input as 4096 token rows. -/
def rows (x0 : (⟨S2x2048x2048, .f32⟩ : BufTy).Contents (Elt Ideal)) : Fin 4096 → Fin 2048 → EReal :=
  fun r d => x0 (ix3 (⟨r.val / 2048, by omega⟩ : Fin 2) (⟨r.val % 2048, by omega⟩ : Fin 2048) d)

theorem rows_tok (x0 : (⟨S2x2048x2048, .f32⟩ : BufTy).Contents (Elt Ideal)) (b : Fin 2) (s : Fin 2048) (k : Fin 2048) : x0 (ix3 b s k) = rows x0 (tok b s) k := by
  unfold rows tok
  refine congrArg x0 (funext fun a => ?_)
  match a with
  | ⟨0, _⟩ => exact Fin.ext (by show b.val = (b.val * 2048 + s.val) / 2048; omega)
  | ⟨1, _⟩ => exact Fin.ext (by show s.val = (b.val * 2048 + s.val) % 2048; omega)
  | ⟨2, _⟩ => rfl

/-- On real inputs the reference's result at an index is the specification's block at that token and feature. -/
theorem reference_eq_spec (x0 : (⟨S2x2048x2048, .f32⟩ : BufTy).Contents (Elt Ideal)) (x1 x2 : (⟨S8192x2048, .f32⟩ : BufTy).Contents (Elt Ideal)) (x3 : (⟨S2048x8192, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (i : S2x2048x2048.Idx) :
    val_main_v115 (F := Ideal) x0 x1 x2 x3 i
      = Spec.out (rows x0) (fun f d => x1 (ix2 f d)) (fun f d => x2 (ix2 f d)) (fun n f => x3 (ix2 n f)) (tok (i 0) (i 1)) (i 2) := by
  obtain ⟨b, s, n, rfl⟩ : ∃ (b : Fin 2) (s : Fin 2048) (n : Fin 2048), i = ix3 b s n := ⟨i 0, i 1, i 2, eq_ix3 i⟩
  rw [o_at x0 x1 x2 x3 b s (rows x0 (tok b s)) (rows_tok x0 b s) n]
  exact Spec.outS_eq (rows x0) (fun f d => x1 (ix2 f d)) (fun f d => x2 (ix2 f d)) (fun n f => x3 (ix2 n f))
    (fun r d => h0 _) (fun f d => h1 _) (fun f d => h2 _) (fun n f => h3 _) (tok b s) n

end Cert.RefSpec
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  From the finiteness precondition to real entries.

  The precondition tests each of the four argument arrays by "every entry's magnitude is below plus infinity" and joins
  the four bits by conjunction. Where the joined bit is one each of the four is one, and an array whose test is one has
  only real numbers as entries (at the ideal values an entry is an extended real, and the test fails exactly at the two
  infinities).
-/
import proofs.«170583_j85718957293662_2_alg».proof.Pre_finite_inputs
import proofs.«170583_j85718957293662_2_alg».proof.Proof.LibFiniteEntries
import Idealize.ShloMosaic.Lib.ReduceAll

noncomputable section

namespace Cert.Finite

open Idealize.ShloMosaic Idealize.ShloMosaic.ValueIdx Cert.Pre_finite_inputs Cert.Pre_finite_inputs.Facts

/-- Under the precondition every entry of every argument array is a real number. -/
theorem real_inputs [Cert.Pre_finite_inputs.Facts]
    (a0 : FVec Ideal S2x2048x2048 .f32) (a1 a2 : FVec Ideal S8192x2048 .f32) (a3 : FVec Ideal S2048x8192 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => Cert.LibFiniteEntries.real_entries_of_all_lt_inf a0 _ _ _ _ h1 i,
    fun i => Cert.LibFiniteEntries.real_entries_of_all_lt_inf a1 _ _ _ _ h2 i,
    fun i => Cert.LibFiniteEntries.real_entries_of_all_lt_inf a2 _ _ _ _ h3 i,
    fun i => Cert.LibFiniteEntries.real_entries_of_all_lt_inf a3 _ _ _ _ h4 i⟩

end Cert.Finite
-- ==== Proof.Algebraic.lean ====
/- The value conjunct: at the ideal values the kernel program and the reference end with the same result. -/
import proofs.«170583_j85718957293662_2_alg».proof.Defs
import proofs.«170583_j85718957293662_2_alg».proof.Proof.KernelSpec
import proofs.«170583_j85718957293662_2_alg».proof.Proof.WeightSpec
import proofs.«170583_j85718957293662_2_alg».proof.Proof.PayQuant
import proofs.«170583_j85718957293662_2_alg».proof.Proof.PayHQuant
import proofs.«170583_j85718957293662_2_alg».proof.Proof.RefFold
import proofs.«170583_j85718957293662_2_alg».proof.Proof.RefRun
import proofs.«170583_j85718957293662_2_alg».proof.Proof.RefSpec
import proofs.«170583_j85718957293662_2_alg».proof.Proof.Finite
import proofs.«170583_j85718957293662_2_alg».proof.Proof.Gen.Pre_finite_inputs

set_option maxRecDepth 16384

noncomputable section

namespace Cert.Proof.Algebraic

open Idealize.ShloMosaic Idealize.ShloMosaic.TcCoe Idealize.SL.Sem Idealize.ShloMosaic.ValueIdx
open Cert.KernelIdeal.Whole

/-- The kernel program's result buffer after the run, at an index, is the specification of the argument arrays. -/
theorem kernel_value (m : (ℓ : Loc Cert.KernelIdeal.nD Cert.KernelIdeal.τ Cert.KernelIdeal.sig) → Buf (Elt Ideal) ℓ) (c : Dev Cert.KernelIdeal.nD)
    (i : Cert.KernelIdeal.S2x2048x2048.Idx) :
    (W19 m c Cert.KernelIdeal.main_v39 : Cert.KernelIdeal.S2x2048x2048.Idx → Elt Ideal .f32) i
      = Cert.Spec.out (tokRow (m ((c : Thread Cert.KernelIdeal.nD Cert.KernelIdeal.τ).loc Cert.KernelIdeal.main_arg0)))
          (fun f d => m ((c : Thread Cert.KernelIdeal.nD Cert.KernelIdeal.τ).loc Cert.KernelIdeal.main_arg1) (ix2 f d))
          (fun f d => m ((c : Thread Cert.KernelIdeal.nD Cert.KernelIdeal.τ).loc Cert.KernelIdeal.main_arg2) (ix2 f d))
          (fun n f => m ((c : Thread Cert.KernelIdeal.nD Cert.KernelIdeal.τ).loc Cert.KernelIdeal.main_arg3) (ix2 n f))
          (⟨(i 0).val * 2048 + (i 1).val, by have h0 : (i 0).val < 2 := (i 0).isLt; have h1 : (i 1).val < 2048 := (i 1).isLt; omega⟩ : Fin 4096)
          (⟨(i 2).val, (i 2).isLt⟩ : Fin 2048) := by
  rw [result_eq, v12_eq, v24_eq, v36_eq_prelude]
  exact kval_apply (fun x a d => Cert.KernelIdeal.Payloads.k0_pay1_apply x a d) (fun x a f => Cert.KernelIdeal.Payloads.hquant_apply x a f)
    wquantA_apply wquantB_apply _ _ _ _ i

/-- At the ideal values the two programs, run from memories agreeing on the arguments, end with the same result: both are the
    specification of the argument arrays — the kernel by its regions' tiles read at an index, the reference by its operations read at an
    index, where every straight-through step x + (q - x) is q because finite inputs keep every intermediate value a real number. -/
theorem algebraic : Cert.algebraic_KernelIdeal_ReferenceIdeal := by
  intro m ρ m' ρ' hpre hagree
  refine ⟨fun c => W19 m c Cert.KernelIdeal.main_v39, ?_, ?_⟩
  · exact (θ_run Cert.KernelIdeal.defs _ _).mono (fun r h c =>
      ⟨h c _ (mem_uc Cert.KernelIdeal.main_v39 (by decide)),
       (h c _ (mem_uc Cert.KernelIdeal.main_arg0 (by decide))).trans (W19_arg0 m c),
       (h c _ (mem_uc Cert.KernelIdeal.main_arg1 (by decide))).trans (W19_arg1 m c),
       (h c _ (mem_uc Cert.KernelIdeal.main_arg2 (by decide))).trans (W19_arg2 m c),
       (h c _ (mem_uc Cert.KernelIdeal.main_arg3 (by decide))).trans (W19_arg3 m c)⟩)
      (run (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3⟩ := hagree c
    obtain ⟨h0, h1, h2, h3⟩ := Cert.Finite.real_inputs _ _ _ _ (hpre c)
    rw [Cert.ReferenceIdeal.FoldP.fold_eq m' c, a0, a1, a2, a3]
    funext i
    refine (Cert.RefSpec.reference_eq_spec _ _ _ _ h0 h1 h2 h3 i).trans ?_
    exact (kernel_value m c i).symm

end Cert.Proof.Algebraic

end
-- ==== Proof.lean ====
/- The certificate of the quantized SwiGLU block (a BitLinear MLP: row-quantized activations against ternary weights, gate and up
   projections joined by silu, then a down projection) computed by two tiled kernel regions, against its plain array reference.

   The kernel program runs as a host prelude (the three weight matrices quantized, the token array flattened), a gate/up region whose
   body quantizes a block of 512 token rows once per block into a scratch buffer and multiplies it with a gate tile and an up tile,
   a down-projection region that likewise quantizes a block of 256 hidden rows once per block (in four column chunks) and multiplies it
   with a weight tile, and a final reshape. Each region's body is run symbolically in its two control cases (the scratch rewritten at
   a block's first tile, read at the later ones); the regions' records and the host stretches are composed in order, which gives the
   frames of both kernel programs and the result buffer as one term of the arguments. Read at an index at the ideal values that term
   is the specification `Spec.out`; the reference's operations read at an index are the same specification once every straight-through
   step x + (q - x) is q, which holds because finite inputs keep every intermediate value a real number.
   The idealization rewrote nothing, so `preserves` is trivial. -/
import proofs.«170583_j85718957293662_2_alg».proof.Defs
import proofs.«170583_j85718957293662_2_alg».proof.Proof.Gen.Kernel
import proofs.«170583_j85718957293662_2_alg».proof.Proof.Gen.KernelIdeal
import proofs.«170583_j85718957293662_2_alg».proof.Proof.Gen.ReferenceIdeal
import proofs.«170583_j85718957293662_2_alg».proof.Proof.Gen.Pre_finite_inputs
import proofs.«170583_j85718957293662_2_alg».proof.Proof.KernelFrames
import proofs.«170583_j85718957293662_2_alg».proof.Proof.RefFrame
import proofs.«170583_j85718957293662_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_reference, trivial, Algebraic.algebraic⟩

end Cert.Proof

end
